-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v145)) (v1 : (c : Dev Cert.KernelIdeal.nD) → Buf (Elt Ideal) ((c.tc : Thread Cert.KernelIdeal.nD Cert.KernelIdeal.τ).loc Cert.KernelIdeal.main_v139)) (v2 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v145) = v0 c
          ∧ r.2.mem ((c.tc : Thread Cert.KernelIdeal.nD Cert.KernelIdeal.τ).loc Cert.KernelIdeal.main_v139) = v1 c
          ∧ r.2.mem ((c.tc : Thread Cert.KernelIdeal.nD Cert.KernelIdeal.τ).loc Cert.KernelIdeal.main_v85) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v239) = v0 c
          ∧ r.2.mem ((c.tc : Thread Cert.ReferenceIdeal.nD Cert.ReferenceIdeal.τ).loc Cert.ReferenceIdeal.main_v223) = v1 c
          ∧ r.2.mem ((c.tc : Thread Cert.ReferenceIdeal.nD Cert.ReferenceIdeal.τ).loc Cert.ReferenceIdeal.main_v113) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S2x320000 : Shape := ⟨2, ![2, 320000]⟩
abbrev S512x128 : Shape := ⟨2, ![512, 128]⟩
abbrev S128 : Shape := ⟨1, ![128]⟩
abbrev S128x128 : Shape := ⟨2, ![128, 128]⟩
abbrev S128x512 : Shape := ⟨2, ![128, 512]⟩
abbrev S512 : Shape := ⟨1, ![512]⟩
abbrev S128x10000 : Shape := ⟨2, ![128, 10000]⟩
abbrev S10000 : Shape := ⟨1, ![10000]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S128x10000 : S_.BroadcastsInDim S128x10000 (![] : Fin 0 → Fin S128x10000.rank)
  reducesTo_S128x10000_S_d0_1 : S128x10000.ReducesTo [0, 1] S_
  bcast_S_S10000 : S_.BroadcastsInDim S10000 (![] : Fin 0 → Fin S10000.rank)
  reducesTo_S10000_S_d0 : S10000.ReducesTo [0] S_

variable [Facts]

def fn_part3 {F : FTy → Type} [FloatOps F] (main_arg12 : FVec F S128x10000 .f32) (main_arg13 : FVec F S10000 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x10000 .f32 := Host.absf main_arg12
  let main_cst_20 : FVec F S_ .f32 := constant S_ .f32 0x7F800000#32
  let main_v55 : FVec F S128x10000 .f32 := broadcastInDim S128x10000 ![] bcast_S_S128x10000 main_cst_20
  let main_v56 : IVec S128x10000 1 := cmpf .olt main_v54 main_v55
  let main_c_21 : IVec S_ 1 := constantI S_ 1 1#1
  let main_v57 : IVec S_ 1 := (fun x v => Host.reduce IntOp.andi x v reducesTo_S128x10000_S_d0_1 h_S_) main_v56 main_c_21
  let main_v58 : IVec S_ 1 := andi main_v53 main_v57
  let main_v59 : FVec F S10000 .f32 := Host.absf main_arg13
  let main_cst_22 : FVec F S_ .f32 := constant S_ .f32 0x7F800000#32
  let main_v60 : FVec F S10000 .f32 := broadcastInDim S10000 ![] bcast_S_S10000 main_cst_22
  let main_v61 : IVec S10000 1 := cmpf .olt main_v59 main_v60
  let main_c_23 : IVec S_ 1 := constantI S_ 1 1#1
  let main_v62 : IVec S_ 1 := (fun x v => Host.reduce IntOp.andi x v reducesTo_S10000_S_d0 h_S_) main_v61 main_c_23
  let main_v63 : IVec S_ 1 := andi main_v58 main_v62
  main_v63

def fn_part2 {F : FTy → Type} [FloatOps F] (main_arg8 : FVec F S128x512 .f32) (main_arg9 : FVec F S512 .f32) (main_arg10 : FVec F S512x128 .f32) (main_arg11 : FVec F S128 .f32) (main_arg12 : FVec F S128x10000 .f32) (main_arg13 : FVec F S10000 .f32) (main_v33 : IVec S_ 1) : IVec S_ 1 :=
  let main_v34 : FVec F S128x512 .f32 := Host.absf main_arg8
  let main_cst_12 : FVec F S_ .f32 := constant S_ .f32 0x7F800000#32
  let main_v35 : FVec F S128x512 .f32 := broadcastInDim S128x512 ![] bcast_S_S128x512 main_cst_12
  let main_v36 : IVec S128x512 1 := cmpf .olt main_v34 main_v35
  let main_c_13 : IVec S_ 1 := constantI S_ 1 1#1
  let main_v37 : IVec S_ 1 := (fun x v => Host.reduce IntOp.andi x v reducesTo_S128x512_S_d0_1 h_S_) main_v36 main_c_13
  let main_v38 : IVec S_ 1 := andi main_v33 main_v37
  let main_v39 : FVec F S512 .f32 := Host.absf main_arg9
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x128 .f32 := Host.absf main_arg10
  let main_cst_16 : FVec F S_ .f32 := constant S_ .f32 0x7F800000#32
  let main_v45 : FVec F S512x128 .f32 := broadcastInDim S512x128 ![] bcast_S_S512x128 main_cst_16
  let main_v46 : IVec S512x128 1 := cmpf .olt main_v44 main_v45
  let main_c_17 : IVec S_ 1 := constantI S_ 1 1#1
  let main_v47 : IVec S_ 1 := (fun x v => Host.reduce IntOp.andi x v reducesTo_S512x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_v48 main_v49 main_v50

def fn_part1 {F : FTy → Type} [FloatOps F] (main_arg5 : FVec F S128 .f32) (main_arg6 : FVec F S128x128 .f32) (main_arg7 : FVec F S128 .f32) (main_arg8 : FVec F S128x512 .f32) (main_arg9 : FVec F S512 .f32) (main_arg10 : FVec F S512x128 .f32) (main_arg11 : FVec F S128 .f32) (main_arg12 : FVec F S128x10000 .f32) (main_arg13 : FVec F S10000 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S10000x512 .f32) (main_arg1 : IVec S2x320000 32) (main_arg2 : FVec F S512x128 .f32) (main_arg3 : FVec F S128 .f32) (main_arg4 : FVec F S128x128 .f32) (main_arg5 : FVec F S128 .f32) (main_arg6 : FVec F S128x128 .f32) (main_arg7 : FVec F S128 .f32) (main_arg8 : FVec F S128x512 .f32) (main_arg9 : FVec F S512 .f32) (main_arg10 : FVec F S512x128 .f32) (main_arg11 : FVec F S128 .f32) (main_arg12 : FVec F S128x10000 .f32) (main_arg13 : FVec F S10000 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S512x128 .f32 := Host.absf main_arg2
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_v13 main_v16
-- ==== Kernel.lean ====
abbrev S10000x512 : Shape := ⟨2, ![10000, 512]⟩
abbrev S2x320000 : Shape := ⟨2, ![2, 320000]⟩
abbrev S512x128 : Shape := ⟨2, ![512, 128]⟩
abbrev S128 : Shape := ⟨1, ![128]⟩
abbrev S128x128 : Shape := ⟨2, ![128, 128]⟩
abbrev S128x512 : Shape := ⟨2, ![128, 512]⟩
abbrev S512 : Shape := ⟨1, ![512]⟩
abbrev S128x10000 : Shape := ⟨2, ![128, 10000]⟩
abbrev S10000 : Shape := ⟨1, ![10000]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S10000x128 : Shape := ⟨2, ![10000, 128]⟩
abbrev S1000x512 : Shape := ⟨2, ![1000, 512]⟩
abbrev S1000x128 : Shape := ⟨2, ![1000, 128]⟩
abbrev S320000x128 : Shape := ⟨2, ![320000, 128]⟩
abbrev S10000x1 : Shape := ⟨2, ![10000, 1]⟩
abbrev S1x128 : Shape := ⟨2, ![1, 128]⟩
abbrev S1x512 : Shape := ⟨2, ![1, 512]⟩
abbrev S128x10240 : Shape := ⟨2, ![128, 10240]⟩
abbrev S10240 : Shape := ⟨1, ![10240]⟩
abbrev S1x10240 : Shape := ⟨2, ![1, 10240]⟩
abbrev S10000x10000 : Shape := ⟨2, ![10000, 10000]⟩
abbrev S128x1024 : Shape := ⟨2, ![128, 1024]⟩
abbrev S1x1024 : Shape := ⟨2, ![1, 1024]⟩
abbrev S1000x1024 : Shape := ⟨2, ![1000, 1024]⟩

abbrev nBuf : Space → Nat
  | .hbm => 201
  | .vmem => 34
  | .smem => 0
  | _ => 0

abbrev hbmTy0_0 (i : Nat) : BufTy := match i % 128 with
  | 0 => ⟨S10000x512, .f32⟩
  | 1 => ⟨S2x320000, .i32⟩
  | 2 => ⟨S512x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x512, .f32⟩
  | 9 => ⟨S512, .f32⟩
  | 10 => ⟨S512x128, .f32⟩
  | 11 => ⟨S128, .f32⟩
  | 12 => ⟨S128x10000, .f32⟩
  | 13 => ⟨S10000, .f32⟩
  | 14 => ⟨S1x320000, .i32⟩
  | 15 => ⟨S320000, .i32⟩
  | 16 => ⟨S1x320000, .i32⟩
  | 17 => ⟨S320000, .i32⟩
  | 18 => ⟨S_, .f32⟩
  | 19 => ⟨S10000, .f32⟩
  | 20 => ⟨S_, .i32⟩
  | 21 => ⟨S320000, .i32⟩
  | 22 => ⟨S320000, .i1⟩
  | 23 => ⟨S_, .i32⟩
  | 24 => ⟨S320000, .i32⟩
  | 25 => ⟨S320000, .i32⟩
  | 26 => ⟨S320000, .i32⟩
  | 27 => ⟨S320000x1, .i32⟩
  | 28 => ⟨S_, .f32⟩
  | 29 => ⟨S320000, .f32⟩
  | 30 => ⟨S10000, .f32⟩
  | 31 => ⟨S_, .f32⟩
  | 32 => ⟨S10000, .f32⟩
  | 33 => ⟨S10000, .f32⟩
  | 34 => ⟨S10000, .f32⟩
  | 35 => ⟨S_, .i32⟩
  | 36 => ⟨S320000, .i32⟩
  | 37 => ⟨S320000, .i1⟩
  | 38 => ⟨S_, .i32⟩
  | 39 => ⟨S320000, .i32⟩
  | 40 => ⟨S320000, .i32⟩
  | 41 => ⟨S320000, .i32⟩
  | 42 => ⟨S320000x1, .i32⟩
  | 43 => ⟨S320000, .f32⟩
  | 44 => ⟨S_, .i32⟩
  | 45 => ⟨S320000, .i32⟩
  | 46 => ⟨S320000, .i1⟩
  | 47 => ⟨S_, .i32⟩
  | 48 => ⟨S320000, .i32⟩
  | 49 => ⟨S320000, .i32⟩
  | 50 => ⟨S320000, .i32⟩
  | 51 => ⟨S320000x1, .i32⟩
  | 52 => ⟨S320000, .f32⟩
  | 53 => ⟨S320000, .f32⟩
  | 54 => ⟨S10000, .f32⟩
  | 55 => ⟨S10000x128, .f32⟩
  | 56 => ⟨S_, .f32⟩
  | 57 => ⟨S10000x128, .f32⟩
  | 58 => ⟨S_, .i32⟩
  | 59 => ⟨S320000, .i32⟩
  | 60 => ⟨S320000, .i1⟩
  | 61 => ⟨S_, .i32⟩
  | 62 => ⟨S320000, .i32⟩
  | 63 => ⟨S320000, .i32⟩
  | 64 => ⟨S320000, .i32⟩
  | 65 => ⟨S320000x1, .i32⟩
  | 66 => ⟨S320000x128, .f32⟩
  | 67 => ⟨S320000x1, .f32⟩
  | 68 => ⟨S320000x128, .f32⟩
  | 69 => ⟨S320000x128, .f32⟩
  | 70 => ⟨S_, .i32⟩
  | 71 => ⟨S320000, .i32⟩
  | 72 => ⟨S320000, .i1⟩
  | 73 => ⟨S_, .i32⟩
  | 74 => ⟨S320000, .i32⟩
  | 75 => ⟨S320000, .i32⟩
  | 76 => ⟨S320000, .i32⟩
  | 77 => ⟨S320000x1, .i32⟩
  | 78 => ⟨S10000x128, .f32⟩
  | 79 => ⟨S10000x1, .f32⟩
  | 80 => ⟨S10000x128, .f32⟩
  | 81 => ⟨S10000x128, .f32⟩
  | 82 => ⟨S10000x128, .f32⟩
  | 83 => ⟨S1x128, .f32⟩
  | 84 => ⟨S10000x128, .f32⟩
  | 85 => ⟨S10000x128, .f32⟩
  | 86 => ⟨S_, .f32⟩
  | 87 => ⟨S10000x128, .f32⟩
  | 88 => ⟨S10000x128, .f32⟩
  | 89 => ⟨S10000x128, .f32⟩
  | 90 => ⟨S_, .f32⟩
  | 91 => ⟨S10000x128, .f32⟩
  | 92 => ⟨S_, .i32⟩
  | 93 => ⟨S320000, .i32⟩
  | 94 => ⟨S320000, .i1⟩
  | 95 => ⟨S_, .i32⟩
  | 96 => ⟨S320000, .i32⟩
  | 97 => ⟨S320000, .i32⟩
  | 98 => ⟨S320000, .i32⟩
  | 99 => ⟨S320000x1, .i32⟩
  | 100 => ⟨S320000x128, .f32⟩
  | 101 => ⟨S320000x1, .f32⟩
  | 102 => ⟨S320000x128, .f32⟩
  | 103 => ⟨S320000x128, .f32⟩
  | 104 => ⟨S_, .i32⟩
  | 105 => ⟨S320000, .i32⟩
  | 106 => ⟨S320000, .i1⟩
  | 107 => ⟨S_, .i32⟩
  | 108 => ⟨S320000, .i32⟩
  | 109 => ⟨S320000, .i32⟩
  | 110 => ⟨S320000, .i32⟩
  | 111 => ⟨S320000x1, .i32⟩
  | 112 => ⟨S10000x128, .f32⟩
  | 113 => ⟨S10000x1, .f32⟩
  | 114 => ⟨S10000x128, .f32⟩
  | 115 => ⟨S10000x128, .f32⟩
  | 116 => ⟨S10000x128, .f32⟩
  | 117 => ⟨S1x128, .f32⟩
  | 118 => ⟨S10000x128, .f32⟩
  | 119 => ⟨S10000x128, .f32⟩
  | 120 => ⟨S_, .f32⟩
  | 121 => ⟨S10000x128, .f32⟩
  | 122 => ⟨S10000x128, .f32⟩
  | 123 => ⟨S10000x128, .f32⟩
  | 124 => ⟨S_, .f32⟩
  | 125 => ⟨S10000x128, .f32⟩
  | 126 => ⟨S_, .i32⟩
  | 127 => ⟨S320000, .i32⟩
  | _ => ⟨S10000x512, .f32⟩

abbrev hbmTy0_1 (i : Nat) : BufTy := match i % 128 with
  | 0 => ⟨S320000, .i1⟩
  | 1 => ⟨S_, .i32⟩
  | 2 => ⟨S320000, .i32⟩
  | 3 => ⟨S320000, .i32⟩
  | 4 => ⟨S320000, .i32⟩
  | 5 => ⟨S320000x1, .i32⟩
  | 6 => ⟨S320000x128, .f32⟩
  | 7 => ⟨S320000x1, .f32⟩
  | 8 => ⟨S320000x128, .f32⟩
  | 9 => ⟨S320000x128, .f32⟩
  | 10 => ⟨S_, .i32⟩
  | 11 => ⟨S320000, .i32⟩
  | 12 => ⟨S320000, .i1⟩
  | 13 => ⟨S_, .i32⟩
  | 14 => ⟨S320000, .i32⟩
  | 15 => ⟨S320000, .i32⟩
  | 16 => ⟨S320000, .i32⟩
  | 17 => ⟨S320000x1, .i32⟩
  | 18 => ⟨S10000x128, .f32⟩
  | 19 => ⟨S10000x1, .f32⟩
  | 20 => ⟨S10000x128, .f32⟩
  | 21 => ⟨S10000x128, .f32⟩
  | 22 => ⟨S10000x128, .f32⟩
  | 23 => ⟨S1x128, .f32⟩
  | 24 => ⟨S10000x128, .f32⟩
  | 25 => ⟨S10000x128, .f32⟩
  | 26 => ⟨S_, .f32⟩
  | 27 => ⟨S10000x128, .f32⟩
  | 28 => ⟨S10000x128, .f32⟩
  | 29 => ⟨S_, .f32⟩
  | 30 => ⟨S10000x128, .f32⟩
  | 31 => ⟨S_, .i32⟩
  | 32 => ⟨S320000, .i32⟩
  | 33 => ⟨S320000, .i1⟩
  | 34 => ⟨S_, .i32⟩
  | 35 => ⟨S320000, .i32⟩
  | 36 => ⟨S320000, .i32⟩
  | 37 => ⟨S320000, .i32⟩
  | 38 => ⟨S320000x1, .i32⟩
  | 39 => ⟨S320000x128, .f32⟩
  | 40 => ⟨S320000x1, .f32⟩
  | 41 => ⟨S320000x128, .f32⟩
  | 42 => ⟨S320000x128, .f32⟩
  | 43 => ⟨S_, .i32⟩
  | 44 => ⟨S320000, .i32⟩
  | 45 => ⟨S320000, .i1⟩
  | 46 => ⟨S_, .i32⟩
  | 47 => ⟨S320000, .i32⟩
  | 48 => ⟨S320000, .i32⟩
  | 49 => ⟨S320000, .i32⟩
  | 50 => ⟨S320000x1, .i32⟩
  | 51 => ⟨S10000x128, .f32⟩
  | 52 => ⟨S10000x1, .f32⟩
  | 53 => ⟨S10000x128, .f32⟩
  | 54 => ⟨S10000x128, .f32⟩
  | 55 => ⟨S10000x128, .f32⟩
  | 56 => ⟨S10000x512, .f32⟩
  | 57 => ⟨S1x512, .f32⟩
  | 58 => ⟨S10000x512, .f32⟩
  | 59 => ⟨S10000x512, .f32⟩
  | 60 => ⟨S_, .f32⟩
  | 61 => ⟨S10000x512, .f32⟩
  | 62 => ⟨S10000x512, .f32⟩
  | 63 => ⟨S1x128, .f32⟩
  | 64 => ⟨S10000x128, .f32⟩
  | 65 => ⟨S_, .i32⟩
  | 66 => ⟨S_, .f32⟩
  | 67 => ⟨S128x10240, .f32⟩
  | 68 => ⟨S_, .i32⟩
  | 69 => ⟨S_, .f32⟩
  | 70 => ⟨S10240, .f32⟩
  | 71 => ⟨S1x10240, .f32⟩
  | 72 => ⟨S10000x10000, .f32⟩
  | _ => ⟨S10000x512, .f32⟩

abbrev hbmTy (i : Nat) : BufTy := match i / 128 with
  | 0 => hbmTy0_0 i
  | 1 => hbmTy0_1 i
  | _ => ⟨S10000x512, .f32⟩

abbrev bufTy : (tb : Table) → Fin (tcTables nBuf tb) → BufTy
  | .hbm, ⟨i, _⟩ => hbmTy i
  | .local _ .vmem, ⟨0, _⟩ => ⟨S1000x512, .f32⟩
  | .local _ .vmem, ⟨1, _⟩ => ⟨S1000x512, .f32⟩
  | .local _ .vmem, ⟨2, _⟩ => ⟨S512x128, .f32⟩
  | .local _ .vmem, ⟨3, _⟩ => ⟨S1000x128, .f32⟩
  | .local _ .vmem, ⟨4, _⟩ => ⟨S1000x128, .f32⟩
  | .local _ .vmem, ⟨5, _⟩ => ⟨S1000x128, .f32⟩
  | .local _ .vmem, ⟨6, _⟩ => ⟨S1000x128, .f32⟩
  | .local _ .vmem, ⟨7, _⟩ => ⟨S128x128, .f32⟩
  | .local _ .vmem, ⟨8, _⟩ => ⟨S1000x128, .f32⟩
  | .local _ .vmem, ⟨9, _⟩ => ⟨S1000x128, .f32⟩
  | .local _ .vmem, ⟨10, _⟩ => ⟨S1000x128, .f32⟩
  | .local _ .vmem, ⟨11, _⟩ => ⟨S1000x128, .f32⟩
  | .local _ .vmem, ⟨12, _⟩ => ⟨S128x128, .f32⟩
  | .local _ .vmem, ⟨13, _⟩ => ⟨S1000x128, .f32⟩
  | .local _ .vmem, ⟨14, _⟩ => ⟨S1000x128, .f32⟩
  | .local _ .vmem, ⟨15, _⟩ => ⟨S1000x128, .f32⟩
  | .local _ .vmem, ⟨16, _⟩ => ⟨S1000x128, .f32⟩
  | .local _ .vmem, ⟨17, _⟩ => ⟨S128x512, .f32⟩
  | .local _ .vmem, ⟨18, _⟩ => ⟨S1000x512, .f32⟩
  | .local _ .vmem, ⟨19, _⟩ => ⟨S1000x512, .f32⟩
  | .local _ .vmem, ⟨20, _⟩ => ⟨S1000x512, .f32⟩
  | .local _ .vmem, ⟨21, _⟩ => ⟨S1000x512, .f32⟩
  | .local _ .vmem, ⟨22, _⟩ => ⟨S512x128, .f32⟩
  | .local _ .vmem, ⟨23, _⟩ => ⟨S1x128, .f32⟩
  | .local _ .vmem, ⟨24, _⟩ => ⟨S1000x128, .f32⟩
  | .local _ .vmem, ⟨25, _⟩ => ⟨S1000x128, .f32⟩
  | .local _ .vmem, ⟨26, _⟩ => ⟨S1000x128, .f32⟩
  | .local _ .vmem, ⟨27, _⟩ => ⟨S1000x128, .f32⟩
  | .local _ .vmem, ⟨28, _⟩ => ⟨S128x1024, .f32⟩
  | .local _ .vmem, ⟨29, _⟩ => ⟨S128x1024, .f32⟩
  | .local _ .vmem, ⟨30, _⟩ => ⟨S1x1024, .f32⟩
  | .local _ .vmem, ⟨31, _⟩ => ⟨S1x1024, .f32⟩
  | .local _ .vmem, ⟨32, _⟩ => ⟨S1000x1024, .f32⟩
  | .local _ .vmem, ⟨33, _⟩ => ⟨S1000x1024, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_c : Ref sig .tc := ⟨.hbm, 20, rfl⟩
abbrev main_v5 : Ref sig .tc := ⟨.hbm, 21, rfl⟩
abbrev main_v6 : Ref sig .tc := ⟨.hbm, 22, rfl⟩
abbrev main_c_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_cst_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_c_3 : Ref sig .tc := ⟨.hbm, 35, rfl⟩
abbrev main_v16 : Ref sig .tc := ⟨.hbm, 36, rfl⟩
abbrev main_v17 : Ref sig .tc := ⟨.hbm, 37, rfl⟩
abbrev main_c_4 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c_5 : Ref sig .tc := ⟨.hbm, 44, rfl⟩
abbrev main_v23 : Ref sig .tc := ⟨.hbm, 45, rfl⟩
abbrev main_v24 : Ref sig .tc := ⟨.hbm, 46, rfl⟩
abbrev main_c_6 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_7 : Ref sig .tc := ⟨.hbm, 56, rfl⟩
abbrev main_v33 : Ref sig .tc := ⟨.hbm, 57, rfl⟩
abbrev main_c_8 : Ref sig .tc := ⟨.hbm, 58, rfl⟩
abbrev main_v34 : Ref sig .tc := ⟨.hbm, 59, rfl⟩
abbrev main_v35 : Ref sig .tc := ⟨.hbm, 60, rfl⟩
abbrev main_c_9 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_c_10 : Ref sig .tc := ⟨.hbm, 70, rfl⟩
abbrev main_v44 : Ref sig .tc := ⟨.hbm, 71, rfl⟩
abbrev main_v45 : Ref sig .tc := ⟨.hbm, 72, rfl⟩
abbrev main_c_11 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_call0_cst : Ref sig .tc := ⟨.hbm, 86, rfl⟩
abbrev main_call0_v0 : Ref sig .tc := ⟨.hbm, 87, rfl⟩
abbrev main_v58 : Ref sig .tc := ⟨.hbm, 88, rfl⟩
abbrev main_v59 : Ref sig .tc := ⟨.hbm, 89, rfl⟩
abbrev main_cst_12 : Ref sig .tc := ⟨.hbm, 90, rfl⟩
abbrev main_v60 : Ref sig .tc := ⟨.hbm, 91, rfl⟩
abbrev main_c_13 : Ref sig .tc := ⟨.hbm, 92, rfl⟩
abbrev main_v61 : Ref sig .tc := ⟨.hbm, 93, rfl⟩
abbrev main_v62 : Ref sig .tc := ⟨.hbm, 94, rfl⟩
abbrev main_c_14 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_c_15 : Ref sig .tc := ⟨.hbm, 104, rfl⟩
abbrev main_v71 : Ref sig .tc := ⟨.hbm, 105, rfl⟩
abbrev main_v72 : Ref sig .tc := ⟨.hbm, 106, rfl⟩
abbrev main_c_16 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_call1_cst : Ref sig .tc := ⟨.hbm, 120, rfl⟩
abbrev main_call1_v0 : Ref sig .tc := ⟨.hbm, 121, rfl⟩
abbrev main_v85 : Ref sig .tc := ⟨.hbm, 122, rfl⟩
abbrev main_v86 : Ref sig .tc := ⟨.hbm, 123, rfl⟩
abbrev main_cst_17 : Ref sig .tc := ⟨.hbm, 124, rfl⟩
abbrev main_v87 : Ref sig .tc := ⟨.hbm, 125, rfl⟩
abbrev main_c_18 : Ref sig .tc := ⟨.hbm, 126, rfl⟩
abbrev main_v88 : Ref sig .tc := ⟨.hbm, 127, rfl⟩
abbrev main_v89 : Ref sig .tc := ⟨.hbm, 128, rfl⟩
abbrev main_c_19 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_c_20 : Ref sig .tc := ⟨.hbm, 138, rfl⟩
abbrev main_v98 : Ref sig .tc := ⟨.hbm, 139, rfl⟩
abbrev main_v99 : Ref sig .tc := ⟨.hbm, 140, rfl⟩
abbrev main_c_21 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_call2_cst : Ref sig .tc := ⟨.hbm, 154, rfl⟩
abbrev main_call2_v0 : Ref sig .tc := ⟨.hbm, 155, rfl⟩
abbrev main_v112 : Ref sig .tc := ⟨.hbm, 156, rfl⟩
abbrev main_cst_22 : Ref sig .tc := ⟨.hbm, 157, rfl⟩
abbrev main_v113 : Ref sig .tc := ⟨.hbm, 158, rfl⟩
abbrev main_c_23 : Ref sig .tc := ⟨.hbm, 159, rfl⟩
abbrev main_v114 : Ref sig .tc := ⟨.hbm, 160, rfl⟩
abbrev main_v115 : Ref sig .tc := ⟨.hbm, 161, rfl⟩
abbrev main_c_24 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_c_25 : Ref sig .tc := ⟨.hbm, 171, rfl⟩
abbrev main_v124 : Ref sig .tc := ⟨.hbm, 172, rfl⟩
abbrev main_v125 : Ref sig .tc := ⟨.hbm, 173, rfl⟩
abbrev main_c_26 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_call3_cst : Ref sig .tc := ⟨.hbm, 188, rfl⟩
abbrev main_call3_v0 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_c_27 : Ref sig .tc := ⟨.hbm, 193, rfl⟩
abbrev main_call4_v0 : Ref sig .tc := ⟨.hbm, 194, rfl⟩
abbrev main_v142 : Ref sig .tc := ⟨.hbm, 195, rfl⟩
abbrev main_c_28 : Ref sig .tc := ⟨.hbm, 196, rfl⟩
abbrev main_call5_v0 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg3_0 : Ref sig .tc := ⟨.vmem, 24, rfl⟩
abbrev cc4_stg3_1 : Ref sig .tc := ⟨.vmem, 25, rfl⟩
abbrev cc5_stg0_0 : Ref sig .tc := ⟨.vmem, 26, rfl⟩
abbrev cc5_stg0_1 : Ref sig .tc := ⟨.vmem, 27, rfl⟩
abbrev cc5_stg1_0 : Ref sig .tc := ⟨.vmem, 28, rfl⟩
abbrev cc5_stg1_1 : Ref sig .tc := ⟨.vmem, 29, rfl⟩
abbrev cc5_stg2_0 : Ref sig .tc := ⟨.vmem, 30, rfl⟩
abbrev cc5_stg2_1 : Ref sig .tc := ⟨.vmem, 31, rfl⟩
abbrev cc5_stg3_0 : Ref sig .tc := ⟨.vmem, 32, rfl⟩
abbrev cc5_stg3_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem3_0 : DmaSem sig := 24
abbrev cc4_sem3_1 : DmaSem sig := 25
abbrev cc5_sem0_0 : DmaSem sig := 26
abbrev cc5_sem0_1 : DmaSem sig := 27
abbrev cc5_sem1_0 : DmaSem sig := 28
abbrev cc5_sem1_1 : DmaSem sig := 29
abbrev cc5_sem2_0 : DmaSem sig := 30
abbrev cc5_sem2_1 : DmaSem sig := 31
abbrev cc5_sem3_0 : DmaSem sig := 32
abbrev cc5_sem3_1 : DmaSem sig := 33

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x512 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1000x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S512x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨2, ![10, 10], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S1000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S128x1024 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![false, true]

abbrev stage5_3 : Fin 2 → Memref sig .tc .vmem S1000x1024 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S10000 : S_.BroadcastsInDim S10000 (![] : Fin 0 → Fin S10000.rank)
  bcast_S_S320000 : S_.BroadcastsInDim S320000 (![] : Fin 0 → Fin S320000.rank)
  bcast_S320000_S320000x1_0 : S320000.BroadcastsInDim S320000x1 (![0] : Fin 1 → Fin S320000x1.rank)
  inb_S1000x512_S1000x512_0_0 : ∀ a, (![0, 0] : Fin 2 → Nat) a + S1000x512.size a ≤ S1000x512.size a
  h_S1000x512 : 0 < S1000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S1000x128_S1000x128_0_0 : ∀ a, (![0, 0] : Fin 2 → Nat) a + S1000x128.size a ≤ S1000x128.size a
  h_S1000x128 : 0 < S1000x128.numel
  bcast_S_S10000x128 : S_.BroadcastsInDim S10000x128 (![] : Fin 0 → Fin S10000x128.rank)
  bcast_S320000x1_S320000x128_0_1 : S320000x1.BroadcastsInDim S320000x128 (![0, 1] : Fin 2 → Fin S320000x128.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  shapeCasts_S1000x128_S1000x128 : S1000x128.ShapeCasts S1000x128
  inb_S128x128_S128x128_0_0 : ∀ a, (![0, 0] : Fin 2 → Nat) a + S128x128.size a ≤ S128x128.size a
  h_S128x128 : 0 < S128x128.numel
  inb_S128x512_S128x512_0_0 : ∀ a, (![0, 0] : Fin 2 → Nat) a + S128x512.size a ≤ S128x512.size a
  h_S128x512 : 0 < S128x512.numel
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  bcast_S_S10000x512 : S_.BroadcastsInDim S10000x512 (![] : Fin 0 → Fin S10000x512.rank)
  shapeCasts_S128_S1x128 : S128.ShapeCasts S1x128
  shapeCasts_S1000x512_S1000x512 : S1000x512.ShapeCasts S1000x512
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  pads_S128x10000_S128x10240_000_02400 : S128x10000.Pads (![0, 0] : Fin 2 → Nat) ![0, 240] ![0, 0] S128x10240
  h_S_ : 0 < S_.numel
  pads_S10000_S10240_02400 : S10000.Pads (![0] : Fin 1 → Nat) ![240] ![0] S10240
  shapeCasts_S10240_S1x10240 : S10240.ShapeCasts S1x10240
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1000x1024 : S1x1024.Broadcasts S1000x1024
  inb_S1000x1024_S1000x1024_0_0 : ∀ a, (![0, 0] : Fin 2 → Nat) a + S1000x1024.size a ≤ S1000x1024.size a
  h_S1000x1024 : 0 < S1000x1024.numel
  scatter_S10000_S320000x1_S320000_n_0_0_1_wf : ScatterDims.WF S10000 S320000x1 S320000 [] [0] [0] 1
  gather_S10000_S320000x1_S320000_n_0_n_n_0_1_1_wf : GatherDims.WF S10000 S320000x1 S320000 [] [0] [] [0] [] 1 ![1]
  dot_S1000x512_S512x128_S1000x128_1_0_0_1_n_n_wf : DotDims.WF S1000x512 S512x128 S1000x128 [1] [0] [0] [1] [] []
  gather_S10000x128_S320000x1_S320000x128_1_0_n_n_0_1_1128_wf : GatherDims.WF S10000x128 S320000x1 S320000x128 [1] [0] [] [0] [] 1 ![1, 128]
  scatter_S10000x128_S320000x1_S320000x128_1_0_0_1_wf : ScatterDims.WF S10000x128 S320000x1 S320000x128 [1] [0] [0] 1
  dot_S1000x128_S128x128_S1000x128_1_0_0_1_n_n_wf : DotDims.WF S1000x128 S128x128 S1000x128 [1] [0] [0] [1] [] []
  dot_S1000x128_S128x512_S1000x512_1_0_0_1_n_n_wf : DotDims.WF S1000x128 S128x512 S1000x512 [1] [0] [0] [1] [] []
  dot_S1000x128_S128x1024_S1000x1024_1_0_0_1_n_n_wf : DotDims.WF S1000x128 S128x1024 S1000x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S10000x512.size a
  hwx0_0 : ∀ i : grid0.Coords, EltTy.bits .f32 = 32 ∨ (Rect.block (s := S10000x512) S1000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x128.size a ≤ S10000x128.size a
  hwx0_2 : ∀ i : grid0.Coords, EltTy.bits .f32 = 32 ∨ (Rect.block (s := S10000x128) S1000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S10000x128.size a
  hwx1_0 : ∀ i : grid1.Coords, EltTy.bits .f32 = 32 ∨ (Rect.block (s := S10000x128) S1000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x128.size a ≤ S10000x128.size a
  hwx1_2 : ∀ i : grid1.Coords, EltTy.bits .f32 = 32 ∨ (Rect.block (s := S10000x128) S1000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x128.size a ≤ S10000x128.size a
  hwx2_0 : ∀ i : grid2.Coords, EltTy.bits .f32 = 32 ∨ (Rect.block (s := S10000x128) S1000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x128.size a ≤ S10000x128.size a
  hwx2_2 : ∀ i : grid2.Coords, EltTy.bits .f32 = 32 ∨ (Rect.block (s := S10000x128) S1000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x128.size a ≤ S10000x128.size a
  hwx3_0 : ∀ i : grid3.Coords, EltTy.bits .f32 = 32 ∨ (Rect.block (s := S10000x128) S1000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x512.size a ≤ S128x512.size a
  hwx3_1 : ∀ i : grid3.Coords, EltTy.bits .f32 = 32 ∨ (Rect.block (s := S128x512) S128x512.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1000x512.size a ≤ S10000x512.size a
  hwx3_2 : ∀ i : grid3.Coords, EltTy.bits .f32 = 32 ∨ (Rect.block (s := S10000x512) S1000x512.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x512.size a ≤ S10000x512.size a
  hwx4_0 : ∀ i : grid4.Coords, EltTy.bits .f32 = 32 ∨ (Rect.block (s := S10000x512) S1000x512.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S512x128.size a ≤ S512x128.size a
  hwx4_1 : ∀ i : grid4.Coords, EltTy.bits .f32 = 32 ∨ (Rect.block (s := S512x128) S512x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1000x128.size a ≤ S10000x128.size a
  hwx4_3 : ∀ i : grid4.Coords, EltTy.bits .f32 = 32 ∨ (Rect.block (s := S10000x128) S1000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1000x128.size a ≤ S10000x128.size a
  hwx5_0 : ∀ i : grid5.Coords, EltTy.bits .f32 = 32 ∨ (Rect.block (s := S10000x128) S1000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S128x1024.size a ≤ S128x10240.size a
  hwx5_1 : ∀ i : grid5.Coords, EltTy.bits .f32 = 32 ∨ (Rect.block (s := S128x10240) S128x1024.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1x1024.size a ≤ S1x10240.size a
  hwx5_2 : ∀ i : grid5.Coords, EltTy.bits .f32 = 32 ∨ (Rect.block (s := S1x10240) S1x1024.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hstart5_3 : ∀ (i : grid5.Coords) a, cc5_transform_3 i a * S1000x1024.size a < S10000x10000.size a
  hwx5_3 : ∀ i : grid5.Coords, EltTy.bits .f32 = 32 ∨ (Rect.unit (s := S10000x10000) (fun a => cc5_transform_3 i a * S1000x1024.size a) (fun a => (Pipeline.Clip.of (cc5_transform_3 i a) (S1000x1024.size a) (S10000x10000.size a)).extent (S1000x1024.size a)) fun a => Pipeline.Clip.inb (Pipeline.Clip.ok_of (hstart5_3 i a))).WholeWords (EltTy.packing .f32)
  hwxs5_3 : ∀ i : grid5.Coords, EltTy.bits .f32 = 32 ∨ (Rect.unit (s := S1000x1024) (fun _ => 0) (fun a => (Pipeline.Clip.of (cc5_transform_3 i a) (S1000x1024.size a) (S10000x10000.size a)).extent (S1000x1024.size a)) fun a => (Nat.zero_add _).trans_le (Pipeline.Clip.extent_le (Pipeline.Clip.ok_of (hstart5_3 i a)))).WholeWords (EltTy.packing .f32)

variable [Facts₀]

def scatter_S10000_S320000x1_S320000_n_0_0_1 : ScatterDims S10000 S320000x1 S320000 where
  updateWindowDims := []
  insertedWindowDims := [0]
  scatterDimsToOperandDims := [0]
  indexVectorDim := 1
  wf := scatter_S10000_S320000x1_S320000_n_0_0_1_wf
def gather_S10000_S320000x1_S320000_n_0_n_n_0_1_1 : GatherDims S10000 S320000x1 S320000 where
  offsetDims := []
  collapsedSliceDims := [0]
  operandBatchingDims := []
  startIndicesBatchingDims := []
  startIndexMap := [0]
  indexVectorDim := 1
  sliceSizes := ![1]
  wf := gather_S10000_S320000x1_S320000_n_0_n_n_0_1_1_wf
def dot_S1000x512_S512x128_S1000x128_1_0_0_1_n_n : DotDims S1000x512 S512x128 S1000x128 where
  lhsContracting := [1]
  rhsContracting := [0]
  lhsNonContracting := [0]
  rhsNonContracting := [1]
  lhsBatch := []
  rhsBatch := []
  wf := dot_S1000x512_S512x128_S1000x128_1_0_0_1_n_n_wf
def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf
def scatter_S10000x128_S320000x1_S320000x128_1_0_0_1 : ScatterDims S10000x128 S320000x1 S320000x128 where
  updateWindowDims := [1]
  insertedWindowDims := [0]
  scatterDimsToOperandDims := [0]
  indexVectorDim := 1
  wf := scatter_S10000x128_S320000x1_S320000x128_1_0_0_1_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def dot_S1000x128_S128x512_S1000x512_1_0_0_1_n_n : DotDims S1000x128 S128x512 S1000x512 where
  lhsContracting := [1]
  rhsContracting := [0]
  lhsNonContracting := [0]
  rhsNonContracting := [1]
  lhsBatch := []
  rhsBatch := []
  wf := dot_S1000x128_S128x512_S1000x512_1_0_0_1_n_n_wf
def dot_S1000x128_S128x1024_S1000x1024_1_0_0_1_n_n : DotDims S1000x128 S128x1024 S1000x1024 where
  lhsContracting := [1]
  rhsContracting := [0]
  lhsNonContracting := [0]
  rhsNonContracting := [1]
  lhsBatch := []
  rhsBatch := []
  wf := dot_S1000x128_S128x1024_S1000x1024_1_0_0_1_n_n_wf

abbrev win0_0 : Pipeline.Window sig grid0 :=
  Pipeline.Window.ofSpec (Memref.whole main_arg0) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S1000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v58) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v59) S1000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v85) S1000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v86) S1000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v134) S1000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S128x512.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v135) S1000x512.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v139) S1000x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg10) S512x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v140) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v141) S1000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v141) S1000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v142) S128x1024.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v144) S1x1024.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpecClip (Memref.whole main_v145) S1000x1024.size cc5_transform_3 reads5_3 true false 2 stage5_3 sem5_3
    hrank5 hreads5_3 hstart5_3 nbuf5_3 (Memref.isWhole_whole _) hwx5_3 hwxs5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S10000x512 : Shape := ⟨2, ![10000, 512]⟩
abbrev S2x320000 : Shape := ⟨2, ![2, 320000]⟩
abbrev S512x128 : Shape := ⟨2, ![512, 128]⟩
abbrev S128 : Shape := ⟨1, ![128]⟩
abbrev S128x128 : Shape := ⟨2, ![128, 128]⟩
abbrev S128x512 : Shape := ⟨2, ![128, 512]⟩
abbrev S512 : Shape := ⟨1, ![512]⟩
abbrev S128x10000 : Shape := ⟨2, ![128, 10000]⟩
abbrev S10000 : Shape := ⟨1, ![10000]⟩
abbrev S1x320000 : Shape := ⟨2, ![1, 320000]⟩
abbrev S320000 : Shape := ⟨1, ![320000]⟩
abbrev S10000x128 : Shape := ⟨2, ![10000, 128]⟩
abbrev S_ : Shape := ⟨0, ![]⟩
abbrev S320000x1 : Shape := ⟨2, ![320000, 1]⟩
abbrev S320000x128 : Shape := ⟨2, ![320000, 128]⟩
abbrev S10000x1 : Shape := ⟨2, ![10000, 1]⟩
abbrev S1x128 : Shape := ⟨2, ![1, 128]⟩
abbrev S320000x512 : Shape := ⟨2, ![320000, 512]⟩
abbrev S1x512 : Shape := ⟨2, ![1, 512]⟩
abbrev S10000x10000 : Shape := ⟨2, ![10000, 10000]⟩
abbrev S1x10000 : Shape := ⟨2, ![1, 10000]⟩

abbrev nBuf : Space → Nat
  | .hbm => 322
  | .vmem => 0
  | .smem => 0
  | _ => 0

abbrev hbmTy0_0 (i : Nat) : BufTy := match i % 128 with
  | 0 => ⟨S10000x512, .f32⟩
  | 1 => ⟨S2x320000, .i32⟩
  | 2 => ⟨S512x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x512, .f32⟩
  | 9 => ⟨S512, .f32⟩
  | 10 => ⟨S512x128, .f32⟩
  | 11 => ⟨S128, .f32⟩
  | 12 => ⟨S128x10000, .f32⟩
  | 13 => ⟨S10000, .f32⟩
  | 14 => ⟨S1x320000, .i32⟩
  | 15 => ⟨S320000, .i32⟩
  | 16 => ⟨S1x320000, .i32⟩
  | 17 => ⟨S320000, .i32⟩
  | 18 => ⟨S10000x128, .f32⟩
  | 19 => ⟨S_, .f32⟩
  | 20 => ⟨S10000, .f32⟩
  | 21 => ⟨S_, .i32⟩
  | 22 => ⟨S320000, .i32⟩
  | 23 => ⟨S320000, .i1⟩
  | 24 => ⟨S_, .i32⟩
  | 25 => ⟨S320000, .i32⟩
  | 26 => ⟨S320000, .i32⟩
  | 27 => ⟨S320000, .i32⟩
  | 28 => ⟨S320000x1, .i32⟩
  | 29 => ⟨S_, .f32⟩
  | 30 => ⟨S320000, .f32⟩
  | 31 => ⟨S10000, .f32⟩
  | 32 => ⟨S_, .f32⟩
  | 33 => ⟨S10000, .f32⟩
  | 34 => ⟨S10000, .f32⟩
  | 35 => ⟨S10000, .f32⟩
  | 36 => ⟨S_, .i32⟩
  | 37 => ⟨S320000, .i32⟩
  | 38 => ⟨S320000, .i1⟩
  | 39 => ⟨S_, .i32⟩
  | 40 => ⟨S320000, .i32⟩
  | 41 => ⟨S320000, .i32⟩
  | 42 => ⟨S320000, .i32⟩
  | 43 => ⟨S320000x1, .i32⟩
  | 44 => ⟨S320000, .f32⟩
  | 45 => ⟨S_, .i32⟩
  | 46 => ⟨S320000, .i32⟩
  | 47 => ⟨S320000, .i1⟩
  | 48 => ⟨S_, .i32⟩
  | 49 => ⟨S320000, .i32⟩
  | 50 => ⟨S320000, .i32⟩
  | 51 => ⟨S320000, .i32⟩
  | 52 => ⟨S320000x1, .i32⟩
  | 53 => ⟨S320000, .f32⟩
  | 54 => ⟨S320000, .f32⟩
  | 55 => ⟨S_, .f32⟩
  | 56 => ⟨S10000x128, .f32⟩
  | 57 => ⟨S_, .i32⟩
  | 58 => ⟨S320000, .i32⟩
  | 59 => ⟨S320000, .i1⟩
  | 60 => ⟨S_, .i32⟩
  | 61 => ⟨S320000, .i32⟩
  | 62 => ⟨S320000, .i32⟩
  | 63 => ⟨S320000, .i32⟩
  | 64 => ⟨S320000x1, .i32⟩
  | 65 => ⟨S320000x128, .f32⟩
  | 66 => ⟨S320000x1, .f32⟩
  | 67 => ⟨S320000x128, .f32⟩
  | 68 => ⟨S320000x128, .f32⟩
  | 69 => ⟨S_, .i32⟩
  | 70 => ⟨S320000, .i32⟩
  | 71 => ⟨S320000, .i1⟩
  | 72 => ⟨S_, .i32⟩
  | 73 => ⟨S320000, .i32⟩
  | 74 => ⟨S320000, .i32⟩
  | 75 => ⟨S320000, .i32⟩
  | 76 => ⟨S320000x1, .i32⟩
  | 77 => ⟨S10000x128, .f32⟩
  | 78 => ⟨S10000, .f32⟩
  | 79 => ⟨S10000x1, .f32⟩
  | 80 => ⟨S10000x128, .f32⟩
  | 81 => ⟨S10000x128, .f32⟩
  | 82 => ⟨S10000x128, .f32⟩
  | 83 => ⟨S1x128, .f32⟩
  | 84 => ⟨S10000x128, .f32⟩
  | 85 => ⟨S10000x128, .f32⟩
  | 86 => ⟨S_, .f32⟩
  | 87 => ⟨S10000x128, .f32⟩
  | 88 => ⟨S10000x128, .f32⟩
  | 89 => ⟨S10000x128, .f32⟩
  | 90 => ⟨S_, .f32⟩
  | 91 => ⟨S10000, .f32⟩
  | 92 => ⟨S_, .i32⟩
  | 93 => ⟨S320000, .i32⟩
  | 94 => ⟨S320000, .i1⟩
  | 95 => ⟨S_, .i32⟩
  | 96 => ⟨S320000, .i32⟩
  | 97 => ⟨S320000, .i32⟩
  | 98 => ⟨S320000, .i32⟩
  | 99 => ⟨S320000x1, .i32⟩
  | 100 => ⟨S_, .f32⟩
  | 101 => ⟨S320000, .f32⟩
  | 102 => ⟨S10000, .f32⟩
  | 103 => ⟨S_, .f32⟩
  | 104 => ⟨S10000, .f32⟩
  | 105 => ⟨S10000, .f32⟩
  | 106 => ⟨S10000, .f32⟩
  | 107 => ⟨S_, .i32⟩
  | 108 => ⟨S320000, .i32⟩
  | 109 => ⟨S320000, .i1⟩
  | 110 => ⟨S_, .i32⟩
  | 111 => ⟨S320000, .i32⟩
  | 112 => ⟨S320000, .i32⟩
  | 113 => ⟨S320000, .i32⟩
  | 114 => ⟨S320000x1, .i32⟩
  | 115 => ⟨S320000, .f32⟩
  | 116 => ⟨S_, .i32⟩
  | 117 => ⟨S320000, .i32⟩
  | 118 => ⟨S320000, .i1⟩
  | 119 => ⟨S_, .i32⟩
  | 120 => ⟨S320000, .i32⟩
  | 121 => ⟨S320000, .i32⟩
  | 122 => ⟨S320000, .i32⟩
  | 123 => ⟨S320000x1, .i32⟩
  | 124 => ⟨S320000, .f32⟩
  | 125 => ⟨S320000, .f32⟩
  | 126 => ⟨S_, .f32⟩
  | 127 => ⟨S10000x128, .f32⟩
  | _ => ⟨S10000x512, .f32⟩

abbrev hbmTy0_1 (i : Nat) : BufTy := match i % 128 with
  | 0 => ⟨S_, .i32⟩
  | 1 => ⟨S320000, .i32⟩
  | 2 => ⟨S320000, .i1⟩
  | 3 => ⟨S_, .i32⟩
  | 4 => ⟨S320000, .i32⟩
  | 5 => ⟨S320000, .i32⟩
  | 6 => ⟨S320000, .i32⟩
  | 7 => ⟨S320000x1, .i32⟩
  | 8 => ⟨S320000x128, .f32⟩
  | 9 => ⟨S320000x1, .f32⟩
  | 10 => ⟨S320000x128, .f32⟩
  | 11 => ⟨S320000x128, .f32⟩
  | 12 => ⟨S_, .i32⟩
  | 13 => ⟨S320000, .i32⟩
  | 14 => ⟨S320000, .i1⟩
  | 15 => ⟨S_, .i32⟩
  | 16 => ⟨S320000, .i32⟩
  | 17 => ⟨S320000, .i32⟩
  | 18 => ⟨S320000, .i32⟩
  | 19 => ⟨S320000x1, .i32⟩
  | 20 => ⟨S10000x128, .f32⟩
  | 21 => ⟨S10000, .f32⟩
  | 22 => ⟨S10000x1, .f32⟩
  | 23 => ⟨S10000x128, .f32⟩
  | 24 => ⟨S10000x128, .f32⟩
  | 25 => ⟨S10000x128, .f32⟩
  | 26 => ⟨S1x128, .f32⟩
  | 27 => ⟨S10000x128, .f32⟩
  | 28 => ⟨S10000x128, .f32⟩
  | 29 => ⟨S_, .f32⟩
  | 30 => ⟨S10000x128, .f32⟩
  | 31 => ⟨S10000x128, .f32⟩
  | 32 => ⟨S10000x128, .f32⟩
  | 33 => ⟨S_, .f32⟩
  | 34 => ⟨S10000, .f32⟩
  | 35 => ⟨S_, .i32⟩
  | 36 => ⟨S320000, .i32⟩
  | 37 => ⟨S320000, .i1⟩
  | 38 => ⟨S_, .i32⟩
  | 39 => ⟨S320000, .i32⟩
  | 40 => ⟨S320000, .i32⟩
  | 41 => ⟨S320000, .i32⟩
  | 42 => ⟨S320000x1, .i32⟩
  | 43 => ⟨S_, .f32⟩
  | 44 => ⟨S320000, .f32⟩
  | 45 => ⟨S10000, .f32⟩
  | 46 => ⟨S_, .f32⟩
  | 47 => ⟨S10000, .f32⟩
  | 48 => ⟨S10000, .f32⟩
  | 49 => ⟨S10000, .f32⟩
  | 50 => ⟨S_, .i32⟩
  | 51 => ⟨S320000, .i32⟩
  | 52 => ⟨S320000, .i1⟩
  | 53 => ⟨S_, .i32⟩
  | 54 => ⟨S320000, .i32⟩
  | 55 => ⟨S320000, .i32⟩
  | 56 => ⟨S320000, .i32⟩
  | 57 => ⟨S320000x1, .i32⟩
  | 58 => ⟨S320000, .f32⟩
  | 59 => ⟨S_, .i32⟩
  | 60 => ⟨S320000, .i32⟩
  | 61 => ⟨S320000, .i1⟩
  | 62 => ⟨S_, .i32⟩
  | 63 => ⟨S320000, .i32⟩
  | 64 => ⟨S320000, .i32⟩
  | 65 => ⟨S320000, .i32⟩
  | 66 => ⟨S320000x1, .i32⟩
  | 67 => ⟨S320000, .f32⟩
  | 68 => ⟨S320000, .f32⟩
  | 69 => ⟨S_, .f32⟩
  | 70 => ⟨S10000x128, .f32⟩
  | 71 => ⟨S_, .i32⟩
  | 72 => ⟨S320000, .i32⟩
  | 73 => ⟨S320000, .i1⟩
  | 74 => ⟨S_, .i32⟩
  | 75 => ⟨S320000, .i32⟩
  | 76 => ⟨S320000, .i32⟩
  | 77 => ⟨S320000, .i32⟩
  | 78 => ⟨S320000x1, .i32⟩
  | 79 => ⟨S320000x128, .f32⟩
  | 80 => ⟨S320000x1, .f32⟩
  | 81 => ⟨S320000x128, .f32⟩
  | 82 => ⟨S320000x128, .f32⟩
  | 83 => ⟨S_, .i32⟩
  | 84 => ⟨S320000, .i32⟩
  | 85 => ⟨S320000, .i1⟩
  | 86 => ⟨S_, .i32⟩
  | 87 => ⟨S320000, .i32⟩
  | 88 => ⟨S320000, .i32⟩
  | 89 => ⟨S320000, .i32⟩
  | 90 => ⟨S320000x1, .i32⟩
  | 91 => ⟨S10000x128, .f32⟩
  | 92 => ⟨S10000, .f32⟩
  | 93 => ⟨S10000x1, .f32⟩
  | 94 => ⟨S10000x128, .f32⟩
  | 95 => ⟨S10000x128, .f32⟩
  | 96 => ⟨S10000x128, .f32⟩
  | 97 => ⟨S1x128, .f32⟩
  | 98 => ⟨S10000x128, .f32⟩
  | 99 => ⟨S10000x128, .f32⟩
  | 100 => ⟨S_, .f32⟩
  | 101 => ⟨S10000x128, .f32⟩
  | 102 => ⟨S10000x128, .f32⟩
  | 103 => ⟨S10000x512, .f32⟩
  | 104 => ⟨S_, .f32⟩
  | 105 => ⟨S10000, .f32⟩
  | 106 => ⟨S_, .i32⟩
  | 107 => ⟨S320000, .i32⟩
  | 108 => ⟨S320000, .i1⟩
  | 109 => ⟨S_, .i32⟩
  | 110 => ⟨S320000, .i32⟩
  | 111 => ⟨S320000, .i32⟩
  | 112 => ⟨S320000, .i32⟩
  | 113 => ⟨S320000x1, .i32⟩
  | 114 => ⟨S_, .f32⟩
  | 115 => ⟨S320000, .f32⟩
  | 116 => ⟨S10000, .f32⟩
  | 117 => ⟨S_, .f32⟩
  | 118 => ⟨S10000, .f32⟩
  | 119 => ⟨S10000, .f32⟩
  | 120 => ⟨S10000, .f32⟩
  | 121 => ⟨S_, .i32⟩
  | 122 => ⟨S320000, .i32⟩
  | 123 => ⟨S320000, .i1⟩
  | 124 => ⟨S_, .i32⟩
  | 125 => ⟨S320000, .i32⟩
  | 126 => ⟨S320000, .i32⟩
  | 127 => ⟨S320000, .i32⟩
  | _ => ⟨S10000x512, .f32⟩

abbrev hbmTy0_2 (i : Nat) : BufTy := match i % 128 with
  | 0 => ⟨S320000x1, .i32⟩
  | 1 => ⟨S320000, .f32⟩
  | 2 => ⟨S_, .i32⟩
  | 3 => ⟨S320000, .i32⟩
  | 4 => ⟨S320000, .i1⟩
  | 5 => ⟨S_, .i32⟩
  | 6 => ⟨S320000, .i32⟩
  | 7 => ⟨S320000, .i32⟩
  | 8 => ⟨S320000, .i32⟩
  | 9 => ⟨S320000x1, .i32⟩
  | 10 => ⟨S320000, .f32⟩
  | 11 => ⟨S320000, .f32⟩
  | 12 => ⟨S_, .f32⟩
  | 13 => ⟨S10000x512, .f32⟩
  | 14 => ⟨S_, .i32⟩
  | 15 => ⟨S320000, .i32⟩
  | 16 => ⟨S320000, .i1⟩
  | 17 => ⟨S_, .i32⟩
  | 18 => ⟨S320000, .i32⟩
  | 19 => ⟨S320000, .i32⟩
  | 20 => ⟨S320000, .i32⟩
  | 21 => ⟨S320000x1, .i32⟩
  | 22 => ⟨S320000x512, .f32⟩
  | 23 => ⟨S320000x1, .f32⟩
  | 24 => ⟨S320000x512, .f32⟩
  | 25 => ⟨S320000x512, .f32⟩
  | 26 => ⟨S_, .i32⟩
  | 27 => ⟨S320000, .i32⟩
  | 28 => ⟨S320000, .i1⟩
  | 29 => ⟨S_, .i32⟩
  | 30 => ⟨S320000, .i32⟩
  | 31 => ⟨S320000, .i32⟩
  | 32 => ⟨S320000, .i32⟩
  | 33 => ⟨S320000x1, .i32⟩
  | 34 => ⟨S10000x512, .f32⟩
  | 35 => ⟨S10000, .f32⟩
  | 36 => ⟨S10000x1, .f32⟩
  | 37 => ⟨S10000x512, .f32⟩
  | 38 => ⟨S10000x512, .f32⟩
  | 39 => ⟨S10000x512, .f32⟩
  | 40 => ⟨S1x512, .f32⟩
  | 41 => ⟨S10000x512, .f32⟩
  | 42 => ⟨S10000x512, .f32⟩
  | 43 => ⟨S_, .f32⟩
  | 44 => ⟨S10000x512, .f32⟩
  | 45 => ⟨S10000x512, .f32⟩
  | 46 => ⟨S10000x512, .f32⟩
  | 47 => ⟨S10000x128, .f32⟩
  | 48 => ⟨S1x128, .f32⟩
  | 49 => ⟨S10000x128, .f32⟩
  | 50 => ⟨S10000x128, .f32⟩
  | 51 => ⟨S_, .f32⟩
  | 52 => ⟨S10000x128, .f32⟩
  | 53 => ⟨S10000x128, .f32⟩
  | 54 => ⟨S10000x10000, .f32⟩
  | 55 => ⟨S1x10000, .f32⟩
  | 56 => ⟨S10000x10000, .f32⟩
  | 57 => ⟨S10000x10000, .f32⟩
  | 58 => ⟨S10000x10000, .f32⟩
  | 59 => ⟨S10000x10000, .f32⟩
  | 60 => ⟨S_, .f32⟩
  | 61 => ⟨S10000x10000, .f32⟩
  | 62 => ⟨S10000x10000, .f32⟩
  | 63 => ⟨S_, .f32⟩
  | 64 => ⟨S10000x10000, .f32⟩
  | 65 => ⟨S10000x10000, .f32⟩
  | _ => ⟨S10000x512, .f32⟩

abbrev hbmTy (i : Nat) : BufTy := match i / 128 with
  | 0 => hbmTy0_0 i
  | 1 => hbmTy0_1 i
  | 2 => hbmTy0_2 i
  | _ => ⟨S10000x512, .f32⟩

abbrev bufTy : (tb : Table) → Fin (tcTables nBuf tb) → BufTy
  | .hbm, ⟨i, _⟩ => hbmTy i
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_c : Ref sig .tc := ⟨.hbm, 21, rfl⟩
abbrev main_v6 : Ref sig .tc := ⟨.hbm, 22, rfl⟩
abbrev main_v7 : Ref sig .tc := ⟨.hbm, 23, rfl⟩
abbrev main_c_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_1 : Ref sig .tc := ⟨.hbm, 29, rfl⟩
abbrev main_v12 : Ref sig .tc := ⟨.hbm, 30, rfl⟩
abbrev main_v13 : Ref sig .tc := ⟨.hbm, 31, rfl⟩
abbrev main_cst_2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_c_4 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_c_6 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_7 : Ref sig .tc := ⟨.hbm, 55, rfl⟩
abbrev main_v32 : Ref sig .tc := ⟨.hbm, 56, rfl⟩
abbrev main_c_8 : Ref sig .tc := ⟨.hbm, 57, rfl⟩
abbrev main_v33 : Ref sig .tc := ⟨.hbm, 58, rfl⟩
abbrev main_v34 : Ref sig .tc := ⟨.hbm, 59, rfl⟩
abbrev main_c_9 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_c_10 : Ref sig .tc := ⟨.hbm, 69, rfl⟩
abbrev main_v43 : Ref sig .tc := ⟨.hbm, 70, rfl⟩
abbrev main_v44 : Ref sig .tc := ⟨.hbm, 71, rfl⟩
abbrev main_c_11 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_call0_cst : Ref sig .tc := ⟨.hbm, 86, rfl⟩
abbrev main_call0_v0 : Ref sig .tc := ⟨.hbm, 87, rfl⟩
abbrev main_v58 : Ref sig .tc := ⟨.hbm, 88, rfl⟩
abbrev main_v59 : Ref sig .tc := ⟨.hbm, 89, rfl⟩
abbrev main_cst_12 : Ref sig .tc := ⟨.hbm, 90, rfl⟩
abbrev main_v60 : Ref sig .tc := ⟨.hbm, 91, rfl⟩
abbrev main_c_13 : Ref sig .tc := ⟨.hbm, 92, rfl⟩
abbrev main_v61 : Ref sig .tc := ⟨.hbm, 93, rfl⟩
abbrev main_v62 : Ref sig .tc := ⟨.hbm, 94, rfl⟩
abbrev main_c_14 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_cst_15 : Ref sig .tc := ⟨.hbm, 100, rfl⟩
abbrev main_v67 : Ref sig .tc := ⟨.hbm, 101, rfl⟩
abbrev main_v68 : Ref sig .tc := ⟨.hbm, 102, rfl⟩
abbrev main_cst_16 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_c_17 : Ref sig .tc := ⟨.hbm, 107, rfl⟩
abbrev main_v72 : Ref sig .tc := ⟨.hbm, 108, rfl⟩
abbrev main_v73 : Ref sig .tc := ⟨.hbm, 109, rfl⟩
abbrev main_c_18 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_c_19 : Ref sig .tc := ⟨.hbm, 116, rfl⟩
abbrev main_v79 : Ref sig .tc := ⟨.hbm, 117, rfl⟩
abbrev main_v80 : Ref sig .tc := ⟨.hbm, 118, rfl⟩
abbrev main_c_20 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_cst_21 : Ref sig .tc := ⟨.hbm, 126, rfl⟩
abbrev main_v87 : Ref sig .tc := ⟨.hbm, 127, rfl⟩
abbrev main_c_22 : Ref sig .tc := ⟨.hbm, 128, rfl⟩
abbrev main_v88 : Ref sig .tc := ⟨.hbm, 129, rfl⟩
abbrev main_v89 : Ref sig .tc := ⟨.hbm, 130, rfl⟩
abbrev main_c_23 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_c_24 : Ref sig .tc := ⟨.hbm, 140, rfl⟩
abbrev main_v98 : Ref sig .tc := ⟨.hbm, 141, rfl⟩
abbrev main_v99 : Ref sig .tc := ⟨.hbm, 142, rfl⟩
abbrev main_c_25 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_call1_cst : Ref sig .tc := ⟨.hbm, 157, rfl⟩
abbrev main_call1_v0 : Ref sig .tc := ⟨.hbm, 158, rfl⟩
abbrev main_v113 : Ref sig .tc := ⟨.hbm, 159, rfl⟩
abbrev main_v114 : Ref sig .tc := ⟨.hbm, 160, rfl⟩
abbrev main_cst_26 : Ref sig .tc := ⟨.hbm, 161, rfl⟩
abbrev main_v115 : Ref sig .tc := ⟨.hbm, 162, rfl⟩
abbrev main_c_27 : Ref sig .tc := ⟨.hbm, 163, rfl⟩
abbrev main_v116 : Ref sig .tc := ⟨.hbm, 164, rfl⟩
abbrev main_v117 : Ref sig .tc := ⟨.hbm, 165, rfl⟩
abbrev main_c_28 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_cst_29 : Ref sig .tc := ⟨.hbm, 171, rfl⟩
abbrev main_v122 : Ref sig .tc := ⟨.hbm, 172, rfl⟩
abbrev main_v123 : Ref sig .tc := ⟨.hbm, 173, rfl⟩
abbrev main_cst_30 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_c_31 : Ref sig .tc := ⟨.hbm, 178, rfl⟩
abbrev main_v127 : Ref sig .tc := ⟨.hbm, 179, rfl⟩
abbrev main_v128 : Ref sig .tc := ⟨.hbm, 180, rfl⟩
abbrev main_c_32 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_c_33 : Ref sig .tc := ⟨.hbm, 187, rfl⟩
abbrev main_v134 : Ref sig .tc := ⟨.hbm, 188, rfl⟩
abbrev main_v135 : Ref sig .tc := ⟨.hbm, 189, rfl⟩
abbrev main_c_34 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_cst_35 : Ref sig .tc := ⟨.hbm, 197, rfl⟩
abbrev main_v142 : Ref sig .tc := ⟨.hbm, 198, rfl⟩
abbrev main_c_36 : Ref sig .tc := ⟨.hbm, 199, rfl⟩
abbrev main_v143 : Ref sig .tc := ⟨.hbm, 200, rfl⟩
abbrev main_v144 : Ref sig .tc := ⟨.hbm, 201, rfl⟩
abbrev main_c_37 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_v152 : Ref sig .tc := ⟨.hbm, 210, rfl⟩
abbrev main_c_38 : Ref sig .tc := ⟨.hbm, 211, rfl⟩
abbrev main_v153 : Ref sig .tc := ⟨.hbm, 212, rfl⟩
abbrev main_v154 : Ref sig .tc := ⟨.hbm, 213, rfl⟩
abbrev main_c_39 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_call2_cst : Ref sig .tc := ⟨.hbm, 228, rfl⟩
abbrev main_call2_v0 : Ref sig .tc := ⟨.hbm, 229, rfl⟩
abbrev main_v168 : Ref sig .tc := ⟨.hbm, 230, rfl⟩
abbrev main_v169 : Ref sig .tc := ⟨.hbm, 231, rfl⟩
abbrev main_cst_40 : Ref sig .tc := ⟨.hbm, 232, rfl⟩
abbrev main_v170 : Ref sig .tc := ⟨.hbm, 233, rfl⟩
abbrev main_c_41 : Ref sig .tc := ⟨.hbm, 234, rfl⟩
abbrev main_v171 : Ref sig .tc := ⟨.hbm, 235, rfl⟩
abbrev main_v172 : Ref sig .tc := ⟨.hbm, 236, rfl⟩
abbrev main_c_42 : Ref sig .tc := ⟨.hbm, 237, rfl⟩
abbrev main_v173 : Ref sig .tc := ⟨.hbm, 238, rfl⟩
abbrev main_v174 : Ref sig .tc := ⟨.hbm, 239, rfl⟩
abbrev main_v175 : Ref sig .tc := ⟨.hbm, 240, rfl⟩
abbrev main_v176 : Ref sig .tc := ⟨.hbm, 241, rfl⟩
abbrev main_cst_43 : Ref sig .tc := ⟨.hbm, 242, rfl⟩
abbrev main_v177 : Ref sig .tc := ⟨.hbm, 243, rfl⟩
abbrev main_v178 : Ref sig .tc := ⟨.hbm, 244, rfl⟩
abbrev main_cst_44 : Ref sig .tc := ⟨.hbm, 245, rfl⟩
abbrev main_v179 : Ref sig .tc := ⟨.hbm, 246, rfl⟩
abbrev main_v180 : Ref sig .tc := ⟨.hbm, 247, rfl⟩
abbrev main_v181 : Ref sig .tc := ⟨.hbm, 248, rfl⟩
abbrev main_c_45 : Ref sig .tc := ⟨.hbm, 249, rfl⟩
abbrev main_v182 : Ref sig .tc := ⟨.hbm, 250, rfl⟩
abbrev main_v183 : Ref sig .tc := ⟨.hbm, 251, rfl⟩
abbrev main_c_46 : Ref sig .tc := ⟨.hbm, 252, rfl⟩
abbrev main_v184 : Ref sig .tc := ⟨.hbm, 253, rfl⟩
abbrev main_v185 : Ref sig .tc := ⟨.hbm, 254, rfl⟩
abbrev main_v186 : Ref sig .tc := ⟨.hbm, 255, rfl⟩
abbrev main_v187 : Ref sig .tc := ⟨.hbm, 256, rfl⟩
abbrev main_v188 : Ref sig .tc := ⟨.hbm, 257, rfl⟩
abbrev main_c_47 : Ref sig .tc := ⟨.hbm, 258, rfl⟩
abbrev main_v189 : Ref sig .tc := ⟨.hbm, 259, rfl⟩
abbrev main_v190 : Ref sig .tc := ⟨.hbm, 260, rfl⟩
abbrev main_c_48 : Ref sig .tc := ⟨.hbm, 261, rfl⟩
abbrev main_v191 : Ref sig .tc := ⟨.hbm, 262, rfl⟩
abbrev main_v192 : Ref sig .tc := ⟨.hbm, 263, rfl⟩
abbrev main_v193 : Ref sig .tc := ⟨.hbm, 264, rfl⟩
abbrev main_v194 : Ref sig .tc := ⟨.hbm, 265, rfl⟩
abbrev main_v195 : Ref sig .tc := ⟨.hbm, 266, rfl⟩
abbrev main_v196 : Ref sig .tc := ⟨.hbm, 267, rfl⟩
abbrev main_cst_49 : Ref sig .tc := ⟨.hbm, 268, rfl⟩
abbrev main_v197 : Ref sig .tc := ⟨.hbm, 269, rfl⟩
abbrev main_c_50 : Ref sig .tc := ⟨.hbm, 270, rfl⟩
abbrev main_v198 : Ref sig .tc := ⟨.hbm, 271, rfl⟩
abbrev main_v199 : Ref sig .tc := ⟨.hbm, 272, rfl⟩
abbrev main_c_51 : Ref sig .tc := ⟨.hbm, 273, rfl⟩
abbrev main_v200 : Ref sig .tc := ⟨.hbm, 274, rfl⟩
abbrev main_v201 : Ref sig .tc := ⟨.hbm, 275, rfl⟩
abbrev main_v202 : Ref sig .tc := ⟨.hbm, 276, rfl⟩
abbrev main_v203 : Ref sig .tc := ⟨.hbm, 277, rfl⟩
abbrev main_v204 : Ref sig .tc := ⟨.hbm, 278, rfl⟩
abbrev main_v205 : Ref sig .tc := ⟨.hbm, 279, rfl⟩
abbrev main_v206 : Ref sig .tc := ⟨.hbm, 280, rfl⟩
abbrev main_v207 : Ref sig .tc := ⟨.hbm, 281, rfl⟩
abbrev main_c_52 : Ref sig .tc := ⟨.hbm, 282, rfl⟩
abbrev main_v208 : Ref sig .tc := ⟨.hbm, 283, rfl⟩
abbrev main_v209 : Ref sig .tc := ⟨.hbm, 284, rfl⟩
abbrev main_c_53 : Ref sig .tc := ⟨.hbm, 285, rfl⟩
abbrev main_v210 : Ref sig .tc := ⟨.hbm, 286, rfl⟩
abbrev main_v211 : Ref sig .tc := ⟨.hbm, 287, rfl⟩
abbrev main_v212 : Ref sig .tc := ⟨.hbm, 288, rfl⟩
abbrev main_v213 : Ref sig .tc := ⟨.hbm, 289, rfl⟩
abbrev main_v214 : Ref sig .tc := ⟨.hbm, 290, rfl⟩
abbrev main_v215 : Ref sig .tc := ⟨.hbm, 291, rfl⟩
abbrev main_v216 : Ref sig .tc := ⟨.hbm, 292, rfl⟩
abbrev main_v217 : Ref sig .tc := ⟨.hbm, 293, rfl⟩
abbrev main_v218 : Ref sig .tc := ⟨.hbm, 294, rfl⟩
abbrev main_v219 : Ref sig .tc := ⟨.hbm, 295, rfl⟩
abbrev main_v220 : Ref sig .tc := ⟨.hbm, 296, rfl⟩
abbrev main_v221 : Ref sig .tc := ⟨.hbm, 297, rfl⟩
abbrev main_v222 : Ref sig .tc := ⟨.hbm, 298, rfl⟩
abbrev main_call3_cst : Ref sig .tc := ⟨.hbm, 299, rfl⟩
abbrev main_call3_v0 : Ref sig .tc := ⟨.hbm, 300, rfl⟩
abbrev main_v223 : Ref sig .tc := ⟨.hbm, 301, rfl⟩
abbrev main_v224 : Ref sig .tc := ⟨.hbm, 302, rfl⟩
abbrev main_v225 : Ref sig .tc := ⟨.hbm, 303, rfl⟩
abbrev main_v226 : Ref sig .tc := ⟨.hbm, 304, rfl⟩
abbrev main_v227 : Ref sig .tc := ⟨.hbm, 305, rfl⟩
abbrev main_v228 : Ref sig .tc := ⟨.hbm, 306, rfl⟩
abbrev main_call4_cst : Ref sig .tc := ⟨.hbm, 307, rfl⟩
abbrev main_call4_v0 : Ref sig .tc := ⟨.hbm, 308, rfl⟩
abbrev main_v229 : Ref sig .tc := ⟨.hbm, 309, rfl⟩
abbrev main_v230 : Ref sig .tc := ⟨.hbm, 310, rfl⟩
abbrev main_v231 : Ref sig .tc := ⟨.hbm, 311, rfl⟩
abbrev main_v232 : Ref sig .tc := ⟨.hbm, 312, rfl⟩
abbrev main_v233 : Ref sig .tc := ⟨.hbm, 313, rfl⟩
abbrev main_v234 : Ref sig .tc := ⟨.hbm, 314, rfl⟩
abbrev main_v235 : Ref sig .tc := ⟨.hbm, 315, rfl⟩
abbrev main_cst_54 : Ref sig .tc := ⟨.hbm, 316, rfl⟩
abbrev main_v236 : Ref sig .tc := ⟨.hbm, 317, rfl⟩
abbrev main_v237 : Ref sig .tc := ⟨.hbm, 318, rfl⟩
abbrev main_cst_55 : Ref sig .tc := ⟨.hbm, 319, rfl⟩
abbrev main_v238 : Ref sig .tc := ⟨.hbm, 320, rfl⟩
abbrev main_v239 : Ref sig .tc := ⟨.hbm, 321, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S10000 : S_.BroadcastsInDim S10000 (![] : Fin 0 → Fin S10000.rank)
  bcast_S_S320000 : S_.BroadcastsInDim S320000 (![] : Fin 0 → Fin S320000.rank)
  bcast_S320000_S320000x1_0 : S320000.BroadcastsInDim S320000x1 (![0] : Fin 1 → Fin S320000x1.rank)
  bcast_S_S10000x128 : S_.BroadcastsInDim S10000x128 (![] : Fin 0 → Fin S10000x128.rank)
  bcast_S320000x1_S320000x128_0_1 : S320000x1.BroadcastsInDim S320000x128 (![0, 1] : Fin 2 → Fin S320000x128.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x512 : S_.BroadcastsInDim S10000x512 (![] : Fin 0 → Fin S10000x512.rank)
  bcast_S320000x1_S320000x512_0_1 : S320000x1.BroadcastsInDim S320000x512 (![0, 1] : Fin 2 → Fin S320000x512.rank)
  bcast_S10000x1_S10000x512_0_1 : S10000x1.BroadcastsInDim S10000x512 (![0, 1] : Fin 2 → Fin S10000x512.rank)
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  bcast_S10000_S1x10000_1 : S10000.BroadcastsInDim S1x10000 (![1] : Fin 1 → Fin S1x10000.rank)
  bcast_S1x10000_S10000x10000_0_1 : S1x10000.BroadcastsInDim S10000x10000 (![0, 1] : Fin 2 → Fin S10000x10000.rank)
  bcast_S_S10000x10000 : S_.BroadcastsInDim S10000x10000 (![] : Fin 0 → Fin S10000x10000.rank)
  dot_S10000x512_S512x128_S10000x128_1_0_0_1_n_n_wf : DotDims.WF S10000x512 S512x128 S10000x128 [1] [0] [0] [1] [] []
  scatter_S10000_S320000x1_S320000_n_0_0_1_wf : ScatterDims.WF S10000 S320000x1 S320000 [] [0] [0] 1
  gather_S10000_S320000x1_S320000_n_0_n_n_0_1_1_wf : GatherDims.WF S10000 S320000x1 S320000 [] [0] [] [0] [] 1 ![1]
  gather_S10000x128_S320000x1_S320000x128_1_0_n_n_0_1_1128_wf : GatherDims.WF S10000x128 S320000x1 S320000x128 [1] [0] [] [0] [] 1 ![1, 128]
  scatter_S10000x128_S320000x1_S320000x128_1_0_0_1_wf : ScatterDims.WF S10000x128 S320000x1 S320000x128 [1] [0] [0] 1
  dot_S10000x128_S128x128_S10000x128_1_0_0_1_n_n_wf : DotDims.WF S10000x128 S128x128 S10000x128 [1] [0] [0] [1] [] []
  dot_S10000x128_S128x512_S10000x512_1_0_0_1_n_n_wf : DotDims.WF S10000x128 S128x512 S10000x512 [1] [0] [0] [1] [] []
  gather_S10000x512_S320000x1_S320000x512_1_0_n_n_0_1_1512_wf : GatherDims.WF S10000x512 S320000x1 S320000x512 [1] [0] [] [0] [] 1 ![1, 512]
  scatter_S10000x512_S320000x1_S320000x512_1_0_0_1_wf : ScatterDims.WF S10000x512 S320000x1 S320000x512 [1] [0] [0] 1
  dot_S10000x128_S128x10000_S10000x10000_1_0_0_1_n_n_wf : DotDims.WF S10000x128 S128x10000 S10000x10000 [1] [0] [0] [1] [] []

variable [Facts₀]

def dot_S10000x512_S512x128_S10000x128_1_0_0_1_n_n : DotDims S10000x512 S512x128 S10000x128 where
  lhsContracting := [1]
  rhsContracting := [0]
  lhsNonContracting := [0]
  rhsNonContracting := [1]
  lhsBatch := []
  rhsBatch := []
  wf := dot_S10000x512_S512x128_S10000x128_1_0_0_1_n_n_wf
def scatter_S10000_S320000x1_S320000_n_0_0_1 : ScatterDims S10000 S320000x1 S320000 where
  updateWindowDims := []
  insertedWindowDims := [0]
  scatterDimsToOperandDims := [0]
  indexVectorDim := 1
  wf := scatter_S10000_S320000x1_S320000_n_0_0_1_wf
def gather_S10000_S320000x1_S320000_n_0_n_n_0_1_1 : GatherDims S10000 S320000x1 S320000 where
  offsetDims := []
  collapsedSliceDims := [0]
  operandBatchingDims := []
  startIndicesBatchingDims := []
  startIndexMap := [0]
  indexVectorDim := 1
  sliceSizes := ![1]
  wf := gather_S10000_S320000x1_S320000_n_0_n_n_0_1_1_wf
def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf
def scatter_S10000x128_S320000x1_S320000x128_1_0_0_1 : ScatterDims S10000x128 S320000x1 S320000x128 where
  updateWindowDims := [1]
  insertedWindowDims := [0]
  scatterDimsToOperandDims := [0]
  indexVectorDim := 1
  wf := scatter_S10000x128_S320000x1_S320000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x512_S10000x512_1_0_0_1_n_n : DotDims S10000x128 S128x512 S10000x512 where
  lhsContracting := [1]
  rhsContracting := [0]
  lhsNonContracting := [0]
  rhsNonContracting := [1]
  lhsBatch := []
  rhsBatch := []
  wf := dot_S10000x128_S128x512_S10000x512_1_0_0_1_n_n_wf
def gather_S10000x512_S320000x1_S320000x512_1_0_n_n_0_1_1512 : GatherDims S10000x512 S320000x1 S320000x512 where
  offsetDims := [1]
  collapsedSliceDims := [0]
  operandBatchingDims := []
  startIndicesBatchingDims := []
  startIndexMap := [0]
  indexVectorDim := 1
  sliceSizes := ![1, 512]
  wf := gather_S10000x512_S320000x1_S320000x512_1_0_n_n_0_1_1512_wf
def scatter_S10000x512_S320000x1_S320000x512_1_0_0_1 : ScatterDims S10000x512 S320000x1 S320000x512 where
  updateWindowDims := [1]
  insertedWindowDims := [0]
  scatterDimsToOperandDims := [0]
  indexVectorDim := 1
  wf := scatter_S10000x512_S320000x1_S320000x512_1_0_0_1_wf
def dot_S10000x128_S128x10000_S10000x10000_1_0_0_1_n_n : DotDims S10000x128 S128x10000 S10000x10000 where
  lhsContracting := [1]
  rhsContracting := [0]
  lhsNonContracting := [0]
  rhsNonContracting := [1]
  lhsBatch := []
  rhsBatch := []
  wf := dot_S10000x128_S128x10000_S10000x10000_1_0_0_1_n_n_wf

class Facts : Prop extends Facts₀ where

variable [Facts]
-- ==== Proof.KernelRun.lean ====
/-
  The idealized kernel's run with its final buffer contents named. Every weakly fair execution of the program ends,
  nothing faulting, with each of the three result buffers holding what the fold through the program's segments —
  host operations and the six pipelined regions, in order — leaves there (`Gen.W22`), and with the argument arrays
  as launched. It is the launch theorem for a program of several regions, applied to the same segments and proof data
  as the frame claim, with a final predicate that keeps the results.
-/
import proofs.«169992_j3745211482439_2_alg».proof.Proof.Gen.KernelIdeal.Frame

-- membership in a rectangle of production extents (`View.cover_of_tiled`): the elaborator's structural look
-- recurses once per coordinate of the long axes
set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.GraphAE

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the idealized kernel: the three results end at the last boundary's contents, the arguments unchanged. -/
theorem kernel_run : θ_run defs (onTc (τ := τ) (main (F := F))) ⟨m, fun _ => 0, ρ⟩ (fun r => ∀ c : Dev nD,
      r.2.mem ((c.tc : Thread nD τ).loc main_v145) = W22 m ρ c (Proc.devRef .tc main_v145)
      ∧ r.2.mem ((c.tc : Thread nD τ).loc main_v139) = W22 m ρ c (Proc.devRef .tc main_v139)
      ∧ r.2.mem ((c.tc : Thread nD τ).loc main_v85) = W22 m ρ c (Proc.devRef .tc main_v85)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W22 m ρ c b)
    (hfin := fun c s' => by
      iintro ⟨⟨Hh, -⟩, HSI⟩
      unfold StableHlo.held
      imodintro
      iapply (pointsTo_read_all (Pipeline.ucRefs τ sig) (fun b => (((c : Thread nD τ)).1, b)) (W22 m ρ c) s')
      isplitl [Hh] <;> iassumption)
    (hQ := fun s h c =>
      ⟨h c _ (mem_uc main_v145 (by decide)),
       h c _ (mem_uc main_v139 (by decide)),
       h c _ (mem_uc main_v85 (by decide)),
       (h c _ (mem_uc main_arg0 (by decide))).trans (W22_main_arg0 m ρ c),
       (h c _ (mem_uc main_arg1 (by decide))).trans (W22_main_arg1 m ρ c),
       (h c _ (mem_uc main_arg2 (by decide))).trans (W22_main_arg2 m ρ c),
       (h c _ (mem_uc main_arg3 (by decide))).trans (W22_main_arg3 m ρ c),
       (h c _ (mem_uc main_arg4 (by decide))).trans (W22_main_arg4 m ρ c),
       (h c _ (mem_uc main_arg5 (by decide))).trans (W22_main_arg5 m ρ c),
       (h c _ (mem_uc main_arg6 (by decide))).trans (W22_main_arg6 m ρ c),
       (h c _ (mem_uc main_arg7 (by decide))).trans (W22_main_arg7 m ρ c),
       (h c _ (mem_uc main_arg8 (by decide))).trans (W22_main_arg8 m ρ c),
       (h c _ (mem_uc main_arg9 (by decide))).trans (W22_main_arg9 m ρ c),
       (h c _ (mem_uc main_arg10 (by decide))).trans (W22_main_arg10 m ρ c),
       (h c _ (mem_uc main_arg11 (by decide))).trans (W22_main_arg11 m ρ c),
       (h c _ (mem_uc main_arg12 (by decide))).trans (W22_main_arg12 m ρ c),
       (h c _ (mem_uc main_arg13 (by decide))).trans (W22_main_arg13 m ρ c)⟩)

end Cert.GraphAE

end
-- ==== Proof.RefSpec.lean ====
/-
  The network, named, in the reference's own operations (every float an extended real).

  From the edge list: the two endpoint vectors, normalised as jnp indexing normalises them (a negative index counts
  from the end); `disV = rsqrt (1 + in-degree)`; the per-edge coefficient `coefV e = disV (src e) * disV (dst e)`;
  the per-node self weight `selfwV i = disV i * disV i`. The aggregation of a row array h along the edges:

      agg h = scatter-add over edges (gather h at the sources, times coefV, into the destination rows) + h * selfwV,

  at two widths (128 and 512 columns). A graph-convolution layer is: project (a matrix product), aggregate, add the
  bias, rectify. Four such layers give the embedding `zS` (after two) and the reconstructed features `xhatS` (after
  four); then `hmidS = relu ((xhat * xhat) · Wl + bl)` and `structS = sigmoid (hmid · Wf + bf)`, the sigmoid spelt
  `1 / (1 + exp (-t))` as the reference spells it.
-/
import proofs.«169992_j3745211482439_2_alg».proof.ReferenceIdeal
import proofs.«169992_j3745211482439_2_alg».proof.Proof.Gen.ReferenceIdeal
import Idealize.ShloMosaic.PureOps.Ideal

noncomputable section

namespace Cert.GraphAE

open Idealize.ShloMosaic Cert.ReferenceIdeal Cert.ReferenceIdeal.Facts₀

/-- Row 0 of the edge list: the source endpoints. -/
def srcV (x1 : IVec S2x320000 32) : IVec S320000 32 :=
  shapeCast _ (extractStridedSlice S1x320000 ![0, 0] x1 slices_S2x320000_S1x320000_0_0) shapeCasts_S1x320000_S320000

/-- Row 1 of the edge list: the destination endpoints. -/
def dstV (x1 : IVec S2x320000 32) : IVec S320000 32 :=
  shapeCast _ (extractStridedSlice S1x320000 ![1, 0] x1 slices_S2x320000_S1x320000_1_0) shapeCasts_S1x320000_S320000

/-- jnp's index normalisation of an endpoint vector, as a column of start indices: `v < 0 ? v + 10000 : v`. -/
def idxOf (v : IVec S320000 32) : IVec S320000x1 32 :=
  broadcastInDim S320000x1 ![0] bcast_S320000_S320000x1_0
    (select (cmpi .slt v (broadcastInDim S320000 ![] bcast_S_S320000 (constantI S_ 32 0#32)))
      (addi v (broadcastInDim S320000 ![] bcast_S_S320000 (constantI S_ 32 10000#32))) v)

/-- `rsqrt (1 + in-degree)`, per node: the in-degree is a scatter-add of ones over the destination endpoints. -/
def disV (x1 : IVec S2x320000 32) : FVec Ideal S10000 .f32 :=
  Host.rsqrt (addf (Host.scatterAdd scatter_S10000_S320000x1_S320000_n_0_0_1 (broadcastInDim S10000 ![] bcast_S_S10000 (constant S_ .f32 0x00000000#32)) (idxOf (dstV x1)) (broadcastInDim S320000 ![] bcast_S_S320000 (constant S_ .f32 0x3F800000#32)))
    (broadcastInDim S10000 ![] bcast_S_S10000 (constant S_ .f32 0x3F800000#32)))

/-- The per-edge coefficient. -/
def coefV (x1 : IVec S2x320000 32) : FVec Ideal S320000 .f32 :=
  mulf (Host.gather gather_S10000_S320000x1_S320000_n_0_n_n_0_1_1 (disV x1) (idxOf (srcV x1)))
    (Host.gather gather_S10000_S320000x1_S320000_n_0_n_n_0_1_1 (disV x1) (idxOf (dstV x1)))

/-- The per-node self weight. -/
def selfwV (x1 : IVec S2x320000 32) : FVec Ideal S10000 .f32 := mulf (disV x1) (disV x1)

/-- The aggregation of 128-wide rows along the edges `x1`. -/
def agg128 (x1 : IVec S2x320000 32) (h : FVec Ideal S10000x128 .f32) : FVec Ideal S10000x128 .f32 :=
  addf
    (Host.scatterAdd scatter_S10000x128_S320000x1_S320000x128_1_0_0_1
      (broadcastInDim S10000x128 ![] bcast_S_S10000x128 (constant S_ .f32 0x00000000#32))
      (idxOf (dstV x1))
      (mulf (Host.gather gather_S10000x128_S320000x1_S320000x128_1_0_n_n_0_1_1128 h (idxOf (srcV x1)))
        (broadcastInDim S320000x128 ![0, 1] bcast_S320000x1_S320000x128_0_1
          (broadcastInDim S320000x1 ![0] bcast_S320000_S320000x1_0 (coefV x1)))))
    (mulf h (broadcastInDim S10000x128 ![0, 1] bcast_S10000x1_S10000x128_0_1
      (broadcastInDim S10000x1 ![0] bcast_S10000_S10000x1_0 (selfwV x1))))

/-- A layer's tail on 128-wide rows: add the bias row to every row, then the rectifier. -/
def biasRelu128 (h : FVec Ideal S10000x128 .f32) (b : FVec Ideal S128 .f32) : FVec Ideal S10000x128 .f32 :=
  maximumf (addf h (broadcastInDim S10000x128 ![0, 1] bcast_S1x128_S10000x128_0_1 (broadcastInDim S1x128 ![1] bcast_S128_S1x128_1 b)))
    (broadcastInDim S10000x128 ![] bcast_S_S10000x128 (constant S_ .f32 0x00000000#32))

/-- The aggregation of 512-wide rows along the edges `x1`. -/
def agg512 (x1 : IVec S2x320000 32) (h : FVec Ideal S10000x512 .f32) : FVec Ideal S10000x512 .f32 :=
  addf
    (Host.scatterAdd scatter_S10000x512_S320000x1_S320000x512_1_0_0_1
      (broadcastInDim S10000x512 ![] bcast_S_S10000x512 (constant S_ .f32 0x00000000#32))
      (idxOf (dstV x1))
      (mulf (Host.gather gather_S10000x512_S320000x1_S320000x512_1_0_n_n_0_1_1512 h (idxOf (srcV x1)))
        (broadcastInDim S320000x512 ![0, 1] bcast_S320000x1_S320000x512_0_1
          (broadcastInDim S320000x1 ![0] bcast_S320000_S320000x1_0 (coefV x1)))))
    (mulf h (broadcastInDim S10000x512 ![0, 1] bcast_S10000x1_S10000x512_0_1
      (broadcastInDim S10000x1 ![0] bcast_S10000_S10000x1_0 (selfwV x1))))

/-- A layer's tail on 512-wide rows: add the bias row to every row, then the rectifier. -/
def biasRelu512 (h : FVec Ideal S10000x512 .f32) (b : FVec Ideal S512 .f32) : FVec Ideal S10000x512 .f32 :=
  maximumf (addf h (broadcastInDim S10000x512 ![0, 1] bcast_S1x512_S10000x512_0_1 (broadcastInDim S1x512 ![1] bcast_S512_S1x512_1 b)))
    (broadcastInDim S10000x512 ![] bcast_S_S10000x512 (constant S_ .f32 0x00000000#32))

/-- The first layer's output. -/
def h1S (x0 : FVec Ideal S10000x512 .f32) (x1 : IVec S2x320000 32) (x2 : FVec Ideal S512x128 .f32) (x3 : FVec Ideal S128 .f32) : FVec Ideal S10000x128 .f32 :=
  biasRelu128 (agg128 x1 (Host.dotGeneral dot_S10000x512_S512x128_S10000x128_1_0_0_1_n_n none x0 x2)) x3

/-- The embedding: the second layer's output. -/
def zS (x0 : FVec Ideal S10000x512 .f32) (x1 : IVec S2x320000 32) (x2 : FVec Ideal S512x128 .f32) (x3 : FVec Ideal S128 .f32) (x4 : FVec Ideal S128x128 .f32) (x5 : FVec Ideal S128 .f32) : FVec Ideal S10000x128 .f32 :=
  biasRelu128 (agg128 x1 (Host.dotGeneral dot_S10000x128_S128x128_S10000x128_1_0_0_1_n_n none (h1S x0 x1 x2 x3) x4)) x5

/-- The third layer's output. -/
def d1S (x0 : FVec Ideal S10000x512 .f32) (x1 : IVec S2x320000 32) (x2 : FVec Ideal S512x128 .f32) (x3 : FVec Ideal S128 .f32) (x4 : FVec Ideal S128x128 .f32) (x5 : FVec Ideal S128 .f32) (x6 : FVec Ideal S128x128 .f32) (x7 : FVec Ideal S128 .f32) : FVec Ideal S10000x128 .f32 :=
  biasRelu128 (agg128 x1 (Host.dotGeneral dot_S10000x128_S128x128_S10000x128_1_0_0_1_n_n none (zS x0 x1 x2 x3 x4 x5) x6)) x7

/-- The reconstructed features: the fourth layer's output, aggregating the 512-wide projection. -/
def xhatS (x0 : FVec Ideal S10000x512 .f32) (x1 : IVec S2x320000 32) (x2 : FVec Ideal S512x128 .f32) (x3 : FVec Ideal S128 .f32) (x4 : FVec Ideal S128x128 .f32) (x5 : FVec Ideal S128 .f32) (x6 : FVec Ideal S128x128 .f32) (x7 : FVec Ideal S128 .f32) (x8 : FVec Ideal S128x512 .f32) (x9 : FVec Ideal S512 .f32) : FVec Ideal S10000x512 .f32 :=
  biasRelu512 (agg512 x1 (Host.dotGeneral dot_S10000x128_S128x512_S10000x512_1_0_0_1_n_n none (d1S x0 x1 x2 x3 x4 x5 x6 x7) x8)) x9

/-- The link predictor's hidden layer. -/
def hmidS (x0 : FVec Ideal S10000x512 .f32) (x1 : IVec S2x320000 32) (x2 : FVec Ideal S512x128 .f32) (x3 : FVec Ideal S128 .f32) (x4 : FVec Ideal S128x128 .f32) (x5 : FVec Ideal S128 .f32) (x6 : FVec Ideal S128x128 .f32) (x7 : FVec Ideal S128 .f32) (x8 : FVec Ideal S128x512 .f32) (x9 : FVec Ideal S512 .f32) (x10 : FVec Ideal S512x128 .f32) (x11 : FVec Ideal S128 .f32) : FVec Ideal S10000x128 .f32 :=
  biasRelu128 (Host.dotGeneral dot_S10000x512_S512x128_S10000x128_1_0_0_1_n_n none
    (mulf (xhatS x0 x1 x2 x3 x4 x5 x6 x7 x8 x9) (xhatS x0 x1 x2 x3 x4 x5 x6 x7 x8 x9)) x10) x11

/-- The link-prediction matrix. -/
def structS (x0 : FVec Ideal S10000x512 .f32) (x1 : IVec S2x320000 32) (x2 : FVec Ideal S512x128 .f32) (x3 : FVec Ideal S128 .f32) (x4 : FVec Ideal S128x128 .f32) (x5 : FVec Ideal S128 .f32) (x6 : FVec Ideal S128x128 .f32) (x7 : FVec Ideal S128 .f32) (x8 : FVec Ideal S128x512 .f32) (x9 : FVec Ideal S512 .f32) (x10 : FVec Ideal S512x128 .f32) (x11 : FVec Ideal S128 .f32) (x12 : FVec Ideal S128x10000 .f32) (x13 : FVec Ideal S10000 .f32) : FVec Ideal S10000x10000 .f32 :=
  Host.divf (broadcastInDim S10000x10000 ![] bcast_S_S10000x10000 (constant S_ .f32 0x3F800000#32))
    (addf (broadcastInDim S10000x10000 ![] bcast_S_S10000x10000 (constant S_ .f32 0x3F800000#32))
      (Host.exp (Host.negf (addf (Host.dotGeneral dot_S10000x128_S128x10000_S10000x10000_1_0_0_1_n_n none
          (hmidS x0 x1 x2 x3 x4 x5 x6 x7 x8 x9 x10 x11) x12)
        (broadcastInDim S10000x10000 ![0, 1] bcast_S1x10000_S10000x10000_0_1 (broadcastInDim S1x10000 ![1] bcast_S10000_S1x10000_1 x13))))))

end Cert.GraphAE

end
-- ==== Proof.KKeepOuts.lean ====
/-
  The layer outputs that are results of the program, or inputs of a later region, stay as written until the end (or until that region starts).
  A host operation leaves every buffer but its result alone; a pipelined region leaves alone every buffer that is not
  one of its arrays and returns its input arrays as it found them. So a buffer that nothing writes between two
  boundaries of the idealized kernel's program holds at the later one what it held at the earlier one.
-/
import proofs.«169992_j3745211482439_2_alg».proof.Proof.Gen.KernelIdeal.Frame

-- membership in a rectangle of production extents (`View.cover_of_tiled`): the elaborator's structural look
-- recurses once per coordinate of the long axes
set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.GraphAE

open Cert.KernelIdeal Cert.KernelIdeal.Gen

variable {F : FTy → Type} [FloatOps F]
variable (m : (ℓ : Loc nD τ sig) → Buf (Elt F) ℓ) (ρ : Dev nD → PrngReg)

theorem keep_v85_7_22 (c : Dev nD) : W22 m ρ c (Proc.devRef .tc main_v85) = W7 m ρ c (Proc.devRef .tc main_v85) :=
  calc W22 m ρ c (Proc.devRef .tc main_v85)
    _ = W21 m ρ c (Proc.devRef .tc main_v85) := W22_of_ne m ρ c main_v85 (by decide)
    _ = W20 m ρ c (Proc.devRef .tc main_v85) := StableHlo.after_of_forall_not_mem (b := Proc.devRef .tc main_v85) _ _ (List.forall_iff_forall_mem.mp (by
          simp only [hostOps5_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W19 m ρ c (Proc.devRef .tc main_v85) := StableHlo.after_of_forall_not_mem (b := Proc.devRef .tc main_v85) _ _ (List.forall_iff_forall_mem.mp (by
          simp only [hostOps5_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W18 m ρ c (Proc.devRef .tc main_v85) := StableHlo.after_of_forall_not_mem (b := Proc.devRef .tc main_v85) _ _ (List.forall_iff_forall_mem.mp (by
          simp only [hostOps5_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W17 m ρ c (Proc.devRef .tc main_v85) := StableHlo.after_of_forall_not_mem (b := Proc.devRef .tc main_v85) _ _ (List.forall_iff_forall_mem.mp (by
          simp only [hostOps5_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W16 m ρ c (Proc.devRef .tc main_v85) := StableHlo.after_of_forall_not_mem (b := Proc.devRef .tc main_v85) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_v85) := W16_of_ne m ρ c main_v85 (by decide)
    _ = W14 m ρ c (Proc.devRef .tc main_v85) := StableHlo.after_of_forall_not_mem (b := Proc.devRef .tc main_v85) _ _ (List.forall_iff_forall_mem.mp (by
          simp only [hostOps4_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_v85) := StableHlo.after_of_forall_not_mem (b := Proc.devRef .tc main_v85) _ _ (List.forall_iff_forall_mem.mp (by
          simp only [hostOps4_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W12 m ρ c (Proc.devRef .tc main_v85) := StableHlo.after_of_forall_not_mem (b := Proc.devRef .tc main_v85) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_v85) := W12_of_ne m ρ c main_v85 (by decide)
    _ = W10 m ρ c (Proc.devRef .tc main_v85) := StableHlo.after_of_forall_not_mem (b := Proc.devRef .tc main_v85) _ _ (List.forall_iff_forall_mem.mp (by
          simp only [hostOps3_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v85) := StableHlo.after_of_forall_not_mem (b := Proc.devRef .tc main_v85) _ _ (List.forall_iff_forall_mem.mp (by
          simp only [hostOps3_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_v85) := StableHlo.after_of_forall_not_mem (b := Proc.devRef .tc main_v85) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v85) := (W8_arr m ρ c 0).trans (((dat2 (V7 m ρ) c).arrAt_in 0 rfl _).trans (A_eq2 (V7 m ρ) c 0))

theorem keep_v139_14_15 (c : Dev nD) : W15 m ρ c (Proc.devRef .tc main_v139) = W14 m ρ c (Proc.devRef .tc main_v139) :=
  calc W15 m ρ c (Proc.devRef .tc main_v139)
    _ = W14 m ρ c (Proc.devRef .tc main_v139) := StableHlo.after_of_forall_not_mem (b := Proc.devRef .tc main_v139) _ _ (List.forall_iff_forall_mem.mp (by
          simp only [hostOps4_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v139_14_22 (c : Dev nD) : W22 m ρ c (Proc.devRef .tc main_v139) = W14 m ρ c (Proc.devRef .tc main_v139) :=
  calc W22 m ρ c (Proc.devRef .tc main_v139)
    _ = W21 m ρ c (Proc.devRef .tc main_v139) := W22_of_ne m ρ c main_v139 (by decide)
    _ = W20 m ρ c (Proc.devRef .tc main_v139) := StableHlo.after_of_forall_not_mem (b := Proc.devRef .tc main_v139) _ _ (List.forall_iff_forall_mem.mp (by
          simp only [hostOps5_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W19 m ρ c (Proc.devRef .tc main_v139) := StableHlo.after_of_forall_not_mem (b := Proc.devRef .tc main_v139) _ _ (List.forall_iff_forall_mem.mp (by
          simp only [hostOps5_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W18 m ρ c (Proc.devRef .tc main_v139) := StableHlo.after_of_forall_not_mem (b := Proc.devRef .tc main_v139) _ _ (List.forall_iff_forall_mem.mp (by
          simp only [hostOps5_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W17 m ρ c (Proc.devRef .tc main_v139) := StableHlo.after_of_forall_not_mem (b := Proc.devRef .tc main_v139) _ _ (List.forall_iff_forall_mem.mp (by
          simp only [hostOps5_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W16 m ρ c (Proc.devRef .tc main_v139) := StableHlo.after_of_forall_not_mem (b := Proc.devRef .tc main_v139) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_v139) := (W16_arr m ρ c 0).trans (((dat4 (V15 m ρ) c).arrAt_in 0 rfl _).trans (A_eq4 (V15 m ρ) c 0))
    _ = W14 m ρ c (Proc.devRef .tc main_v139) := StableHlo.after_of_forall_not_mem (b := Proc.devRef .tc main_v139) _ _ (List.forall_iff_forall_mem.mp (by
          simp only [hostOps4_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v141_16_21 (c : Dev nD) : W21 m ρ c (Proc.devRef .tc main_v141) = W16 m ρ c (Proc.devRef .tc main_v141) :=
  calc W21 m ρ c (Proc.devRef .tc main_v141)
    _ = W20 m ρ c (Proc.devRef .tc main_v141) := StableHlo.after_of_forall_not_mem (b := Proc.devRef .tc main_v141) _ _ (List.forall_iff_forall_mem.mp (by
          simp only [hostOps5_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W19 m ρ c (Proc.devRef .tc main_v141) := StableHlo.after_of_forall_not_mem (b := Proc.devRef .tc main_v141) _ _ (List.forall_iff_forall_mem.mp (by
          simp only [hostOps5_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W18 m ρ c (Proc.devRef .tc main_v141) := StableHlo.after_of_forall_not_mem (b := Proc.devRef .tc main_v141) _ _ (List.forall_iff_forall_mem.mp (by
          simp only [hostOps5_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W17 m ρ c (Proc.devRef .tc main_v141) := StableHlo.after_of_forall_not_mem (b := Proc.devRef .tc main_v141) _ _ (List.forall_iff_forall_mem.mp (by
          simp only [hostOps5_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W16 m ρ c (Proc.devRef .tc main_v141) := StableHlo.after_of_forall_not_mem (b := Proc.devRef .tc main_v141) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v142_18_21 (c : Dev nD) : W21 m ρ c (Proc.devRef .tc main_v142) = W18 m ρ c (Proc.devRef .tc main_v142) :=
  calc W21 m ρ c (Proc.devRef .tc main_v142)
    _ = W20 m ρ c (Proc.devRef .tc main_v142) := StableHlo.after_of_forall_not_mem (b := Proc.devRef .tc main_v142) _ _ (List.forall_iff_forall_mem.mp (by
          simp only [hostOps5_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W19 m ρ c (Proc.devRef .tc main_v142) := StableHlo.after_of_forall_not_mem (b := Proc.devRef .tc main_v142) _ _ (List.forall_iff_forall_mem.mp (by
          simp only [hostOps5_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W18 m ρ c (Proc.devRef .tc main_v142) := StableHlo.after_of_forall_not_mem (b := Proc.devRef .tc main_v142) _ _ (List.forall_iff_forall_mem.mp (by
          simp only [hostOps5_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.GraphAE

end
-- ==== Proof.Spec.lean ====
/-
  The matrix product of two arrays of extended reals, entry by entry: entry (i, j) of `mm A B` is the sum over
  the shared axis `k` of `A (i, k) * B (k, j)`. Every dense layer of the network — computed block of rows by
  block of rows on one side, by one whole contraction on the other — is this one function of its two operands.
-/
import Idealize.ShloMosaic.PureOps.Ideal
import Idealize.ShloMosaic.Lib.ValueIdx

noncomputable section

namespace Cert.GraphAE

open Idealize.ShloMosaic Idealize.ShloMosaic.ValueIdx

/-- The product of an `M × K` array and a `K × N` array over the extended reals. -/
def mm (M K N : Nat) (A : (⟨2, ![M, K]⟩ : Shape).Idx → EReal) (B : (⟨2, ![K, N]⟩ : Shape).Idx → EReal) :
    (⟨2, ![M, N]⟩ : Shape).Idx → EReal :=
  fun i => ∑ k : Fin K, A (ix2 (n0 := M) (n1 := K) (i 0) k) * B (ix2 (n0 := K) (n1 := N) k (i 1))

theorem mm_apply (M K N : Nat) (A : (⟨2, ![M, K]⟩ : Shape).Idx → EReal) (B : (⟨2, ![K, N]⟩ : Shape).Idx → EReal)
    (p : Fin M) (q : Fin N) :
    mm M K N A B (ix2 p q) = ∑ k : Fin K, A (ix2 p k) * B (ix2 k q) := rfl

end Cert.GraphAE

end
-- ==== Proof.RefMatmul.lean ====
/-
  The reference computes each dense layer by one whole contraction: a `dot_general` of a 10000 × K array with a
  K × N array over their shared axis. Over the extended reals that contraction is, entry by entry, the matrix
  product `mm`: entry (p, q) is the sum over k of l (p, k) * r (k, q). The contraction index of the operation has
  one axis of extent K; summing over it is summing over k, and the operands are read at (p, k) and (k, q).
-/
import proofs.«169992_j3745211482439_2_alg».proof.Proof.Gen.ReferenceIdeal
import proofs.«169992_j3745211482439_2_alg».proof.Proof.Spec
import Idealize.ShloMosaic.PureOps.Ideal.Laws
import Idealize.ShloMosaic.Lib.ValueIdx

noncomputable section

namespace Cert.GraphAE

open Cert.ReferenceIdeal Cert.ReferenceIdeal.Gen Idealize.ShloMosaic Idealize.ShloMosaic.ValueIdx

/-! ## 10000 × 512 times 512 × 128 -/

/-- The left operand's row is the result's row. -/
theorem dot_512x128_lhs0 (i : S10000x128.Idx) (q : dot_S10000x512_S512x128_S10000x128_1_0_0_1_n_n.contr.Idx) :
    (dot_S10000x512_S512x128_S10000x128_1_0_0_1_n_n.lhsIdx i q 0).val = (i 0).val := by
  unfold DotDims.lhsIdx
  rw [dif_neg (show ¬(0 : Fin S10000x512.rank) ∈ dot_S10000x512_S512x128_S10000x128_1_0_0_1_n_n.lhsBatch by decide),
    dif_pos (show (0 : Fin S10000x512.rank) ∈ dot_S10000x512_S512x128_S10000x128_1_0_0_1_n_n.lhsNonContracting by decide)]
  rfl

/-- The right operand's column is the result's column. -/
theorem dot_512x128_rhs1 (i : S10000x128.Idx) (q : dot_S10000x512_S512x128_S10000x128_1_0_0_1_n_n.contr.Idx) :
    (dot_S10000x512_S512x128_S10000x128_1_0_0_1_n_n.rhsIdx i q 1).val = (i 1).val := by
  unfold DotDims.rhsIdx
  rw [dif_neg (show ¬(1 : Fin S512x128.rank) ∈ dot_S10000x512_S512x128_S10000x128_1_0_0_1_n_n.rhsBatch by decide),
    dif_pos (show (1 : Fin S512x128.rank) ∈ dot_S10000x512_S512x128_S10000x128_1_0_0_1_n_n.rhsNonContracting by decide)]
  rfl

/-- The contraction of a 10000 × 512 array with a 512 × 128 array is their matrix product. -/
theorem dot_512x128_eq_mm (l : FVec Ideal S10000x512 .f32) (r : FVec Ideal S512x128 .f32) :
    Host.dotGeneral (F := Ideal) dot_S10000x512_S512x128_S10000x128_1_0_0_1_n_n none l r = mm 10000 512 128 l r := by
  funext i
  obtain ⟨p, q, rfl⟩ : ∃ (p : Fin 10000) (q : Fin 128), i = ix2 p q := ⟨i 0, i 1, eq_ix2 i⟩
  rw [mm_apply]
  simp only [Host.dotGeneral]
  rw [Ideal.dotGeneral_apply, ← Equiv.sum_comp (contrEquiv1 dot_S10000x512_S512x128_S10000x128_1_0_0_1_n_n 512 rfl rfl).symm]
  refine Finset.sum_congr rfl fun k _ => ?_
  have hk := contrEquiv1_symm_val dot_S10000x512_S512x128_S10000x128_1_0_0_1_n_n 512 rfl rfl k
  have el : dot_S10000x512_S512x128_S10000x128_1_0_0_1_n_n.lhsIdx (ix2 p q) ((contrEquiv1 dot_S10000x512_S512x128_S10000x128_1_0_0_1_n_n 512 rfl rfl).symm k) = ix2 p k :=
    funext fun a => Fin.ext (by
      match a with
      | ⟨0, _⟩ => exact dot_512x128_lhs0 _ _
      | ⟨1, _⟩ => exact (dot_S10000x512_S512x128_S10000x128_1_0_0_1_n_n.lhsIdx_val_of_single rfl (ix2 p q) _).trans hk)
  have er : dot_S10000x512_S512x128_S10000x128_1_0_0_1_n_n.rhsIdx (ix2 p q) ((contrEquiv1 dot_S10000x512_S512x128_S10000x128_1_0_0_1_n_n 512 rfl rfl).symm k) = ix2 k q :=
    funext fun a => Fin.ext (by
      match a with
      | ⟨0, _⟩ => exact (dot_S10000x512_S512x128_S10000x128_1_0_0_1_n_n.rhsIdx_val_of_single rfl (ix2 p q) _).trans hk
      | ⟨1, _⟩ => exact dot_512x128_rhs1 _ _)
  rw [el, er]

/-! ## 10000 × 128 times 128 × 128 -/

/-- The left operand's row is the result's row. -/
theorem dot_128x128_lhs0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide),
    dif_pos (show (0 : Fin S10000x128.rank) ∈ dot_S10000x128_S128x128_S10000x128_1_0_0_1_n_n.lhsNonContracting by decide)]
  rfl

/-- The right operand's column is the result's column. -/
theorem dot_128x128_rhs1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide),
    dif_pos (show (1 : Fin S128x128.rank) ∈ dot_S10000x128_S128x128_S10000x128_1_0_0_1_n_n.rhsNonContracting by decide)]
  rfl

/-- The contraction of a 10000 × 128 array with a 128 × 128 array is their matrix product. -/
theorem dot_128x128_eq_mm (l : FVec Ideal S10000x128 .f32) (r : FVec Ideal S128x128 .f32) :
    Host.dotGeneral (F := Ideal) dot_S10000x128_S128x128_S10000x128_1_0_0_1_n_n none l r = mm 10000 128 128 l r := by
  funext i
  obtain ⟨p, q, rfl⟩ : ∃ (p : Fin 10000) (q : Fin 128), i = ix2 p q := ⟨i 0, i 1, eq_ix2 i⟩
  rw [mm_apply]
  simp only [Host.dotGeneral]
  rw [Ideal.dotGeneral_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k :=
    funext fun a => Fin.ext (by
      match a with
      | ⟨0, _⟩ => exact dot_128x128_lhs0 _ _
      | ⟨1, _⟩ => exact (dot_S10000x128_S128x128_S10000x128_1_0_0_1_n_n.lhsIdx_val_of_single rfl (ix2 p q) _).trans hk)
  have er : dot_S10000x128_S128x128_S10000x128_1_0_0_1_n_n.rhsIdx (ix2 p q) ((contrEquiv1 dot_S10000x128_S128x128_S10000x128_1_0_0_1_n_n 128 rfl rfl).symm k) = ix2 k q :=
    funext fun a => Fin.ext (by
      match a with
      | ⟨0, _⟩ => exact (dot_S10000x128_S128x128_S10000x128_1_0_0_1_n_n.rhsIdx_val_of_single rfl (ix2 p q) _).trans hk
      | ⟨1, _⟩ => exact dot_128x128_rhs1 _ _)
  rw [el, er]

/-! ## 10000 × 128 times 128 × 512 -/

/-- The left operand's row is the result's row. -/
theorem dot_128x512_lhs0 (i : S10000x512.Idx) (q : dot_S10000x128_S128x512_S10000x512_1_0_0_1_n_n.contr.Idx) :
    (dot_S10000x128_S128x512_S10000x512_1_0_0_1_n_n.lhsIdx i q 0).val = (i 0).val := by
  unfold DotDims.lhsIdx
  rw [dif_neg (show ¬(0 : Fin S10000x128.rank) ∈ dot_S10000x128_S128x512_S10000x512_1_0_0_1_n_n.lhsBatch by decide),
    dif_pos (show (0 : Fin S10000x128.rank) ∈ dot_S10000x128_S128x512_S10000x512_1_0_0_1_n_n.lhsNonContracting by decide)]
  rfl

/-- The right operand's column is the result's column. -/
theorem dot_128x512_rhs1 (i : S10000x512.Idx) (q : dot_S10000x128_S128x512_S10000x512_1_0_0_1_n_n.contr.Idx) :
    (dot_S10000x128_S128x512_S10000x512_1_0_0_1_n_n.rhsIdx i q 1).val = (i 1).val := by
  unfold DotDims.rhsIdx
  rw [dif_neg (show ¬(1 : Fin S128x512.rank) ∈ dot_S10000x128_S128x512_S10000x512_1_0_0_1_n_n.rhsBatch by decide),
    dif_pos (show (1 : Fin S128x512.rank) ∈ dot_S10000x128_S128x512_S10000x512_1_0_0_1_n_n.rhsNonContracting by decide)]
  rfl

/-- The contraction of a 10000 × 128 array with a 128 × 512 array is their matrix product. -/
theorem dot_128x512_eq_mm (l : FVec Ideal S10000x128 .f32) (r : FVec Ideal S128x512 .f32) :
    Host.dotGeneral (F := Ideal) dot_S10000x128_S128x512_S10000x512_1_0_0_1_n_n none l r = mm 10000 128 512 l r := by
  funext i
  obtain ⟨p, q, rfl⟩ : ∃ (p : Fin 10000) (q : Fin 512), i = ix2 p q := ⟨i 0, i 1, eq_ix2 i⟩
  rw [mm_apply]
  simp only [Host.dotGeneral]
  rw [Ideal.dotGeneral_apply, ← Equiv.sum_comp (contrEquiv1 dot_S10000x128_S128x512_S10000x512_1_0_0_1_n_n 128 rfl rfl).symm]
  refine Finset.sum_congr rfl fun k _ => ?_
  have hk := contrEquiv1_symm_val dot_S10000x128_S128x512_S10000x512_1_0_0_1_n_n 128 rfl rfl k
  have el : dot_S10000x128_S128x512_S10000x512_1_0_0_1_n_n.lhsIdx (ix2 p q) ((contrEquiv1 dot_S10000x128_S128x512_S10000x512_1_0_0_1_n_n 128 rfl rfl).symm k) = ix2 p k :=
    funext fun a => Fin.ext (by
      match a with
      | ⟨0, _⟩ => exact dot_128x512_lhs0 _ _
      | ⟨1, _⟩ => exact (dot_S10000x128_S128x512_S10000x512_1_0_0_1_n_n.lhsIdx_val_of_single rfl (ix2 p q) _).trans hk)
  have er : dot_S10000x128_S128x512_S10000x512_1_0_0_1_n_n.rhsIdx (ix2 p q) ((contrEquiv1 dot_S10000x128_S128x512_S10000x512_1_0_0_1_n_n 128 rfl rfl).symm k) = ix2 k q :=
    funext fun a => Fin.ext (by
      match a with
      | ⟨0, _⟩ => exact (dot_S10000x128_S128x512_S10000x512_1_0_0_1_n_n.rhsIdx_val_of_single rfl (ix2 p q) _).trans hk
      | ⟨1, _⟩ => exact dot_128x512_rhs1 _ _)
  rw [el, er]

/-! ## 10000 × 128 times 128 × 10000 -/

/-- The left operand's row is the result's row. -/
theorem dot_128x10000_lhs0 (i : S10000x10000.Idx) (q : dot_S10000x128_S128x10000_S10000x10000_1_0_0_1_n_n.contr.Idx) :
    (dot_S10000x128_S128x10000_S10000x10000_1_0_0_1_n_n.lhsIdx i q 0).val = (i 0).val := by
  unfold DotDims.lhsIdx
  rw [dif_neg (show ¬(0 : Fin S10000x128.rank) ∈ dot_S10000x128_S128x10000_S10000x10000_1_0_0_1_n_n.lhsBatch by decide),
    dif_pos (show (0 : Fin S10000x128.rank) ∈ dot_S10000x128_S128x10000_S10000x10000_1_0_0_1_n_n.lhsNonContracting by decide)]
  rfl

/-- The right operand's column is the result's column. -/
theorem dot_128x10000_rhs1 (i : S10000x10000.Idx) (q : dot_S10000x128_S128x10000_S10000x10000_1_0_0_1_n_n.contr.Idx) :
    (dot_S10000x128_S128x10000_S10000x10000_1_0_0_1_n_n.rhsIdx i q 1).val = (i 1).val := by
  unfold DotDims.rhsIdx
  rw [dif_neg (show ¬(1 : Fin S128x10000.rank) ∈ dot_S10000x128_S128x10000_S10000x10000_1_0_0_1_n_n.rhsBatch by decide),
    dif_pos (show (1 : Fin S128x10000.rank) ∈ dot_S10000x128_S128x10000_S10000x10000_1_0_0_1_n_n.rhsNonContracting by decide)]
  rfl

/-- The contraction of a 10000 × 128 array with a 128 × 10000 array is their matrix product. -/
theorem dot_128x10000_eq_mm (l : FVec Ideal S10000x128 .f32) (r : FVec Ideal S128x10000 .f32) :
    Host.dotGeneral (F := Ideal) dot_S10000x128_S128x10000_S10000x10000_1_0_0_1_n_n none l r = mm 10000 128 10000 l r := by
  funext i
  obtain ⟨p, q, rfl⟩ : ∃ (p : Fin 10000) (q : Fin 10000), i = ix2 p q := ⟨i 0, i 1, eq_ix2 i⟩
  rw [mm_apply]
  simp only [Host.dotGeneral]
  rw [Ideal.dotGeneral_apply, ← Equiv.sum_comp (contrEquiv1 dot_S10000x128_S128x10000_S10000x10000_1_0_0_1_n_n 128 rfl rfl).symm]
  refine Finset.sum_congr rfl fun k _ => ?_
  have hk := contrEquiv1_symm_val dot_S10000x128_S128x10000_S10000x10000_1_0_0_1_n_n 128 rfl rfl k
  have el : dot_S10000x128_S128x10000_S10000x10000_1_0_0_1_n_n.lhsIdx (ix2 p q) ((contrEquiv1 dot_S10000x128_S128x10000_S10000x10000_1_0_0_1_n_n 128 rfl rfl).symm k) = ix2 p k :=
    funext fun a => Fin.ext (by
      match a with
      | ⟨0, _⟩ => exact dot_128x10000_lhs0 _ _
      | ⟨1, _⟩ => exact (dot_S10000x128_S128x10000_S10000x10000_1_0_0_1_n_n.lhsIdx_val_of_single rfl (ix2 p q) _).trans hk)
  have er : dot_S10000x128_S128x10000_S10000x10000_1_0_0_1_n_n.rhsIdx (ix2 p q) ((contrEquiv1 dot_S10000x128_S128x10000_S10000x10000_1_0_0_1_n_n 128 rfl rfl).symm k) = ix2 k q :=
    funext fun a => Fin.ext (by
      match a with
      | ⟨0, _⟩ => exact (dot_S10000x128_S128x10000_S10000x10000_1_0_0_1_n_n.rhsIdx_val_of_single rfl (ix2 p q) _).trans hk
      | ⟨1, _⟩ => exact dot_128x10000_rhs1 _ _)
  rw [el, er]

end Cert.GraphAE

end
-- ==== Proof.Region1.lean ====
/-
  Layer 1 of the network is a matrix product computed ten row blocks at a time: grid point t takes rows
  1000 t … 1000 t + 999 of the 10000 × 128 left array and the whole 128 × 128 right array, multiplies them (the
  change of float format on the way in is the identity over the extended reals, and the accumulator starts at
  zero), and writes the 1000 × 128 product to rows 1000 t … 1000 t + 999 of the result. Row r of the result is
  written by point r / 1000 and by no other, and the entry (r, q) it receives is the sum over k of
  left (r, k) * right (k, q). So the result array is `mm` of the two arrays the region starts from.
-/
import proofs.«169992_j3745211482439_2_alg».proof.Proof.Gen.KernelIdeal.Frame
import proofs.«169992_j3745211482439_2_alg».proof.Proof.Spec
import Idealize.ShloMosaic.Lib.Pipeline.Value
import Idealize.ShloMosaic.PureOps.Ideal.Laws
import Idealize.ShloMosaic.Lib.ValueIdx

noncomputable section

namespace Cert.GraphAE

open Cert.KernelIdeal Cert.KernelIdeal.Gen Idealize.ShloMosaic Idealize.ShloMosaic.TcCoe Idealize.SL.Sem
open Idealize.ShloMosaic.ValueIdx
open Idealize.ShloMosaic.Pipeline (Dat)

/-! ## One block product at an entry -/

theorem hz1 : (![0, 0] : Fin 2 → Nat) = fun _ => 0 := funext fun a => by fin_cases a <;> rfl

/-- The left operand of the block product is read in the row of the entry. -/
theorem lhs1_row (i : S1000x128.Idx) (q : dot_S1000x128_S128x128_S1000x128_1_0_0_1_n_n.contr.Idx) :
    (dot_S1000x128_S128x128_S1000x128_1_0_0_1_n_n.lhsIdx i q 0).val = (i 0).val := by
  unfold DotDims.lhsIdx
  rw [dif_neg (show ¬(0 : Fin S1000x128.rank) ∈ dot_S1000x128_S128x128_S1000x128_1_0_0_1_n_n.lhsBatch by decide),
    dif_pos (show (0 : Fin S1000x128.rank) ∈ dot_S1000x128_S128x128_S1000x128_1_0_0_1_n_n.lhsNonContracting by decide)]
  rfl

/-- The right operand of the block product is read in the column of the entry. -/
theorem rhs1_col (i : S1000x128.Idx) (q : dot_S1000x128_S128x128_S1000x128_1_0_0_1_n_n.contr.Idx) :
    (dot_S1000x128_S128x128_S1000x128_1_0_0_1_n_n.rhsIdx i q 1).val = (i 1).val := by
  unfold DotDims.rhsIdx
  rw [dif_neg (show ¬(1 : Fin S128x128.rank) ∈ dot_S1000x128_S128x128_S1000x128_1_0_0_1_n_n.rhsBatch by decide),
    dif_pos (show (1 : Fin S128x128.rank) ∈ dot_S1000x128_S128x128_S1000x128_1_0_0_1_n_n.rhsNonContracting by decide)]
  rfl

/-- Entry (p, q) of what the body stores: the sum over k of the left block at (p, k) times the right block at (k, q). -/
theorem pay1_apply (x0 : Vec Ideal S1000x128 .f32) (x1 : Vec Ideal S128x128 .f32) (p : Fin 1000) (q : Fin 128) :
    k1_pay1 (F := Ideal) x0 x1 (ix2 p q) = ∑ k : Fin 128, x0 (ix2 p k) * x1 (ix2 k q) := by
  unfold k1_pay1
  refine (Ideal.matmul_constant_zero_apply dot_S1000x128_S128x128_S1000x128_1_0_0_1_n_n none _ _ (ix2 p q)).trans ?_
  rw [← Equiv.sum_comp (contrEquiv1 dot_S1000x128_S128x128_S1000x128_1_0_0_1_n_n 128 rfl rfl).symm]
  refine Finset.sum_congr rfl fun k _ => ?_
  have hk := contrEquiv1_symm_val dot_S1000x128_S128x128_S1000x128_1_0_0_1_n_n 128 rfl rfl k
  have el : dot_S1000x128_S128x128_S1000x128_1_0_0_1_n_n.lhsIdx (ix2 p q) ((contrEquiv1 dot_S1000x128_S128x128_S1000x128_1_0_0_1_n_n 128 rfl rfl).symm k) = ix2 p k :=
    funext fun a => Fin.ext (by
      match a with
      | ⟨0, _⟩ => exact lhs1_row _ _
      | ⟨1, _⟩ => exact (dot_S1000x128_S128x128_S1000x128_1_0_0_1_n_n.lhsIdx_val_of_single rfl (ix2 p q) _).trans hk)
  have er : dot_S1000x128_S128x128_S1000x128_1_0_0_1_n_n.rhsIdx (ix2 p q) ((contrEquiv1 dot_S1000x128_S128x128_S1000x128_1_0_0_1_n_n 128 rfl rfl).symm k) = ix2 k q :=
    funext fun a => Fin.ext (by
      match a with
      | ⟨0, _⟩ => exact (dot_S1000x128_S128x128_S1000x128_1_0_0_1_n_n.rhsIdx_val_of_single rfl (ix2 p q) _).trans hk
      | ⟨1, _⟩ => exact rhs1_col _ _)
  rw [el, er]
  show shapeCast S1000x128 x0 shapeCasts_S1000x128_S1000x128 (ix2 p k) * x1 (ix2 k q) = _
  rw [shapeCast_self]

/-- A block product whose left block is rows 1000 t … of `A` and whose right block is `B`, at an entry, is the
    matrix product of `A` and `B` at the entry 1000 t rows further down. -/
theorem point1 (X0 : Vec Ideal S1000x128 .f32) (X1 : Vec Ideal S128x128 .f32)
    (A : S10000x128.Idx → EReal) (B : S128x128.Idx → EReal) (t : Nat)
    (h0 : ∀ (x : S1000x128.Idx) (k : S10000x128.Idx), (k 0).val = t * 1000 + (x 0).val → (k 1).val = (x 1).val → X0 x = A k)
    (h1 : ∀ x : S128x128.Idx, X1 x = B x)
    (j : S1000x128.Idx) (i : S10000x128.Idx) (hi0 : (i 0).val = t * 1000 + (j 0).val) (hi1 : (i 1).val = (j 1).val) :
    k1_pay1 (F := Ideal) X0 X1 j = mm 10000 128 128 A B i := by
  obtain ⟨p, q, rfl⟩ : ∃ (p : Fin 1000) (q : Fin 128), j = ix2 p q := ⟨j 0, j 1, eq_ix2 j⟩
  obtain ⟨r, s, rfl⟩ : ∃ (r : Fin 10000) (s : Fin 128), i = ix2 r s := ⟨i 0, i 1, eq_ix2 i⟩
  have hs : s = q := Fin.ext hi1
  subst hs
  rw [pay1_apply, mm_apply]
  refine Finset.sum_congr rfl fun k _ => ?_
  rw [h0 (ix2 p k) (ix2 r k) hi0 rfl, h1 (ix2 k s)]

/-! ## The blocks of the three windows -/

section Region
variable (V : (c : Dev nD) → (b : Ref sig .tc) → Buf (Elt Ideal) ((c : Thread nD τ).loc b))

/-- The block indices over the grid: the left array and the result move down one block of rows per point, the
    right array stays. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left window's block at point `t` is rows 1000 t … 1000 t + 999 of the left array. -/
theorem blk1_left (c : Dev nD) (t : Fin cfg1.N) (x : S1000x128.Idx) (k : S10000x128.Idx)
    (hk0 : (k 0).val = t.val * 1000 + (x 0).val) (hk1 : (k 1).val = (x 1).val) :
    (iblk1 V c 0 t : Vec Ideal S1000x128 .f32) x = (V c (Pipeline.arrRef spec1 0) : S10000x128.Idx → EReal) k := by
  obtain ⟨e0, e1, -, -, -, -⟩ := idx_facts1 t
  show (V c (Pipeline.arrRef spec1 0) : S10000x128.Idx → EReal) (((cfg1.win 0).blk t).view.emb x) = _
  refine congrArg _ (funext fun a => Fin.ext ?_)
  match a with
  | ⟨0, _⟩ => show win1_0.index t (0 : Fin 2) * 1000 + 1 * (x 0).val = (k 0).val; rw [e0, hk0]; omega
  | ⟨1, _⟩ => show win1_0.index t (1 : Fin 2) * 128 + 1 * (x 1).val = (k 1).val; rw [e1, hk1]; omega

/-- The right window's block at every point is the whole right array. -/
theorem blk1_right (c : Dev nD) (t : Fin cfg1.N) (x : S128x128.Idx) :
    (iblk1 V c 1 t : Vec Ideal S128x128 .f32) x = (V c (Pipeline.arrRef spec1 1) : S128x128.Idx → EReal) x := by
  obtain ⟨-, -, e2, e3, -, -⟩ := idx_facts1 t
  show (V c (Pipeline.arrRef spec1 1) : S128x128.Idx → EReal) (((cfg1.win 1).blk t).view.emb x) = _
  refine congrArg _ (funext fun a => Fin.ext ?_)
  match a with
  | ⟨0, _⟩ => show win1_1.index t (0 : Fin 2) * 128 + 1 * (x 0).val = (x 0).val; rw [e2]; omega
  | ⟨1, _⟩ => show win1_1.index t (1 : Fin 2) * 128 + 1 * (x 1).val = (x 1).val; rw [e3]; omega

/-! ## What a point writes back, and the whole result -/

/-- What point `t` writes back is block `t` of the matrix product of the arrays the region starts from. -/
theorem flushed1_eq (c : Dev nD) (t : Fin cfg1.N) :
    (dat1 (F := Ideal) V c).flushed 2 t = ((cfg1.win 2).blk t).view.read (Elt Ideal)
      (mm 10000 128 128 (V c (Pipeline.arrRef spec1 0)) (V c (Pipeline.arrRef spec1 1))) := by
  show (cfg1.win 2).cut (grid1.coords t) ((dat1 (F := Ideal) V c).after 2 t) = _
  rw [after1_2]
  unfold out1_2
  rw [View.canon_unit_zero hz1]
  simp only [View.ld_unit_zero (S := S1000x128) hz1, View.ld_unit_zero (S := S128x128) hz1]
  obtain ⟨-, -, -, -, e4, e5⟩ := idx_facts1 t
  funext j
  refine point1 (iblk1 V c 0 t) (iblk1 V c 1 t) (V c (Pipeline.arrRef spec1 0)) (V c (Pipeline.arrRef spec1 1)) t.val
    (blk1_left V c t) (blk1_right V c t) j (((cfg1.win 2).blk t).view.emb j) ?_ ?_
  · show win1_2.index t (0 : Fin 2) * 1000 + 1 * (j 0).val = t.val * 1000 + (j 0).val
    rw [e4]; omega
  · show win1_2.index t (1 : Fin 2) * 128 + 1 * (j 1).val = (j 1).val
    rw [e5]; omega

/-- An entry of the result is in point `t`'s block iff each coordinate is in the block's range on its axis. -/
theorem mem_blk1 (t : Fin cfg1.N) (i : S10000x128.Idx) :
    i ∈ ((cfg1.win 2).blk t).view.set ↔ ∀ a : Fin 2, win1_2.index t a * S1000x128.size a ≤ (i a).val ∧ (i a).val < win1_2.index t a * S1000x128.size a + S1000x128.size a := by
  show i ∈ ((View.whole main_v59).slice (win1_2.rect t)).set ↔ _
  rw [View.set_slice_whole, Rect.mem_set_unit]
  exact Iff.rfl

/-- Row r of the result is in the block of point r / 1000. -/
theorem cover1 (i : S10000x128.Idx) :
    ∃ t : Fin cfg1.N, (cfg1.win 2).flush t = true ∧ i ∈ ((cfg1.win 2).blk t).view.set := by
  have hi0 : (i 0).val < 10000 := (i 0).isLt
  have hi1 : (i 1).val < 128 := (i 1).isLt
  have hN : cfg1.N = 10 := N_1
  have hlt : (i 0).val / 1000 < cfg1.N := by rw [hN]; omega
  refine ⟨⟨(i 0).val / 1000, hlt⟩, flush1_2 _, ?_⟩
  obtain ⟨-, -, -, -, e4, e5⟩ := idx_facts1 ⟨(i 0).val / 1000, hlt⟩
  rw [mem_blk1]
  intro a
  match a with
  | ⟨0, _⟩ =>
    show win1_2.index ⟨(i 0).val / 1000, hlt⟩ (0 : Fin 2) * 1000 ≤ (i 0).val ∧ (i 0).val < win1_2.index ⟨(i 0).val / 1000, hlt⟩ (0 : Fin 2) * 1000 + 1000
    rw [e4]; show (i 0).val / 1000 * 1000 ≤ (i 0).val ∧ (i 0).val < (i 0).val / 1000 * 1000 + 1000; omega
  | ⟨1, _⟩ =>
    show win1_2.index ⟨(i 0).val / 1000, hlt⟩ (1 : Fin 2) * 128 ≤ (i 1).val ∧ (i 1).val < win1_2.index ⟨(i 0).val / 1000, hlt⟩ (1 : Fin 2) * 128 + 128
    rw [e5]; omega

/-- The result array after the region is the matrix product of the two arrays the region starts from. -/
theorem final1 (c : Dev nD) :
    (Cert.KernelIdeal.Gen.dat1 (F := Ideal) V c).arrAt 2 Cert.KernelIdeal.cfg1.N
      = mm 10000 128 128 (V c (Pipeline.arrRef spec1 0)) (V c (Pipeline.arrRef spec1 1)) :=
  (dat1 (F := Ideal) V c).arrAt_eq_of_cover 2 _ (fun t _ => flushed1_eq V c t) cover1

end Region

end Cert.GraphAE

end
-- ==== Proof.KKeepEdges.lean ====
/-
  The edge endpoints and the two normalisation coefficients are computed once, before the first region, and read by all four aggregations: they are unchanged at every later boundary where an aggregation starts.
  A host operation leaves every buffer but its result alone; a pipelined region leaves alone every buffer that is not
  one of its arrays and returns its input arrays as it found them. So a buffer that nothing writes between two
  boundaries of the idealized kernel's program holds at the later one what it held at the earlier one.
-/
import proofs.«169992_j3745211482439_2_alg».proof.Proof.Gen.KernelIdeal.Frame

-- membership in a rectangle of production extents (`View.cover_of_tiled`): the elaborator's structural look
-- recurses once per coordinate of the long axes
set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.GraphAE

open Cert.KernelIdeal Cert.KernelIdeal.Gen

variable {F : FTy → Type} [FloatOps F]
variable (m : (ℓ : Loc nD τ sig) → Buf (Elt F) ℓ) (ρ : Dev nD → PrngReg)

theorem keep_v1_1_2 (c : Dev nD) : W2 m ρ c (Proc.devRef .tc main_v1) = W1 m ρ c (Proc.devRef .tc main_v1) :=
  calc W2 m ρ c (Proc.devRef .tc main_v1)
    _ = W1 m ρ c (Proc.devRef .tc main_v1) := W2_of_ne m ρ c main_v1 (by decide)

theorem keep_v1_1_5 (c : Dev nD) : W5 m ρ c (Proc.devRef .tc main_v1) = W1 m ρ c (Proc.devRef .tc main_v1) :=
  calc W5 m ρ c (Proc.devRef .tc main_v1)
    _ = W4 m ρ c (Proc.devRef .tc main_v1) := W5_of_ne m ρ c main_v1 (by decide)
    _ = W3 m ρ c (Proc.devRef .tc main_v1) := StableHlo.after_of_forall_not_mem (b := Proc.devRef .tc main_v1) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v1) := StableHlo.after_of_forall_not_mem (b := Proc.devRef .tc main_v1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v1) := W2_of_ne m ρ c main_v1 (by decide)

theorem keep_v1_1_8 (c : Dev nD) : W8 m ρ c (Proc.devRef .tc main_v1) = W1 m ρ c (Proc.devRef .tc main_v1) :=
  calc W8 m ρ c (Proc.devRef .tc main_v1)
    _ = W7 m ρ c (Proc.devRef .tc main_v1) := W8_of_ne m ρ c main_v1 (by decide)
    _ = W6 m ρ c (Proc.devRef .tc main_v1) := StableHlo.after_of_forall_not_mem (b := Proc.devRef .tc main_v1) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v1) := StableHlo.after_of_forall_not_mem (b := Proc.devRef .tc main_v1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v1) := W5_of_ne m ρ c main_v1 (by decide)
    _ = W3 m ρ c (Proc.devRef .tc main_v1) := StableHlo.after_of_forall_not_mem (b := Proc.devRef .tc main_v1) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v1) := StableHlo.after_of_forall_not_mem (b := Proc.devRef .tc main_v1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v1) := W2_of_ne m ρ c main_v1 (by decide)

theorem keep_v1_1_10 (c : Dev nD) : W10 m ρ c (Proc.devRef .tc main_v1) = W1 m ρ c (Proc.devRef .tc main_v1) :=
  calc W10 m ρ c (Proc.devRef .tc main_v1)
    _ = W9 m ρ c (Proc.devRef .tc main_v1) := StableHlo.after_of_forall_not_mem (b := Proc.devRef .tc main_v1) _ _ (List.forall_iff_forall_mem.mp (by
          simp only [hostOps3_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_v1) := StableHlo.after_of_forall_not_mem (b := Proc.devRef .tc main_v1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v1) := W8_of_ne m ρ c main_v1 (by decide)
    _ = W6 m ρ c (Proc.devRef .tc main_v1) := StableHlo.after_of_forall_not_mem (b := Proc.devRef .tc main_v1) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v1) := StableHlo.after_of_forall_not_mem (b := Proc.devRef .tc main_v1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v1) := W5_of_ne m ρ c main_v1 (by decide)
    _ = W3 m ρ c (Proc.devRef .tc main_v1) := StableHlo.after_of_forall_not_mem (b := Proc.devRef .tc main_v1) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v1) := StableHlo.after_of_forall_not_mem (b := Proc.devRef .tc main_v1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v1) := W2_of_ne m ρ c main_v1 (by decide)

theorem keep_v3_1_2 (c : Dev nD) : W2 m ρ c (Proc.devRef .tc main_v3) = W1 m ρ c (Proc.devRef .tc main_v3) :=
  calc W2 m ρ c (Proc.devRef .tc main_v3)
    _ = W1 m ρ c (Proc.devRef .tc main_v3) := W2_of_ne m ρ c main_v3 (by decide)

theorem keep_v3_1_5 (c : Dev nD) : W5 m ρ c (Proc.devRef .tc main_v3) = W1 m ρ c (Proc.devRef .tc main_v3) :=
  calc W5 m ρ c (Proc.devRef .tc main_v3)
    _ = W4 m ρ c (Proc.devRef .tc main_v3) := W5_of_ne m ρ c main_v3 (by decide)
    _ = W3 m ρ c (Proc.devRef .tc main_v3) := StableHlo.after_of_forall_not_mem (b := Proc.devRef .tc main_v3) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := W2_of_ne m ρ c main_v3 (by decide)

theorem keep_v3_1_8 (c : Dev nD) : W8 m ρ c (Proc.devRef .tc main_v3) = W1 m ρ c (Proc.devRef .tc main_v3) :=
  calc W8 m ρ c (Proc.devRef .tc main_v3)
    _ = W7 m ρ c (Proc.devRef .tc main_v3) := W8_of_ne m ρ c main_v3 (by decide)
    _ = W6 m ρ c (Proc.devRef .tc main_v3) := StableHlo.after_of_forall_not_mem (b := Proc.devRef .tc main_v3) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v3) := StableHlo.after_of_forall_not_mem (b := Proc.devRef .tc main_v3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v3) := W5_of_ne m ρ c main_v3 (by decide)
    _ = W3 m ρ c (Proc.devRef .tc main_v3) := StableHlo.after_of_forall_not_mem (b := Proc.devRef .tc main_v3) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := W2_of_ne m ρ c main_v3 (by decide)

theorem keep_v3_1_10 (c : Dev nD) : W10 m ρ c (Proc.devRef .tc main_v3) = W1 m ρ c (Proc.devRef .tc main_v3) :=
  calc W10 m ρ c (Proc.devRef .tc main_v3)
    _ = W9 m ρ c (Proc.devRef .tc main_v3) := StableHlo.after_of_forall_not_mem (b := Proc.devRef .tc main_v3) _ _ (List.forall_iff_forall_mem.mp (by
          simp only [hostOps3_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_v3) := StableHlo.after_of_forall_not_mem (b := Proc.devRef .tc main_v3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v3) := W8_of_ne m ρ c main_v3 (by decide)
    _ = W6 m ρ c (Proc.devRef .tc main_v3) := StableHlo.after_of_forall_not_mem (b := Proc.devRef .tc main_v3) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v3) := StableHlo.after_of_forall_not_mem (b := Proc.devRef .tc main_v3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v3) := W5_of_ne m ρ c main_v3 (by decide)
    _ = W3 m ρ c (Proc.devRef .tc main_v3) := StableHlo.after_of_forall_not_mem (b := Proc.devRef .tc main_v3) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := W2_of_ne m ρ c main_v3 (by decide)

theorem keep_v30_1_2 (c : Dev nD) : W2 m ρ c (Proc.devRef .tc main_v30) = W1 m ρ c (Proc.devRef .tc main_v30) :=
  calc W2 m ρ c (Proc.devRef .tc main_v30)
    _ = W1 m ρ c (Proc.devRef .tc main_v30) := W2_of_ne m ρ c main_v30 (by decide)

theorem keep_v30_1_5 (c : Dev nD) : W5 m ρ c (Proc.devRef .tc main_v30) = W1 m ρ c (Proc.devRef .tc main_v30) :=
  calc W5 m ρ c (Proc.devRef .tc main_v30)
    _ = W4 m ρ c (Proc.devRef .tc main_v30) := W5_of_ne m ρ c main_v30 (by decide)
    _ = W3 m ρ c (Proc.devRef .tc main_v30) := StableHlo.after_of_forall_not_mem (b := Proc.devRef .tc main_v30) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v30) := StableHlo.after_of_forall_not_mem (b := Proc.devRef .tc main_v30) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v30) := W2_of_ne m ρ c main_v30 (by decide)

theorem keep_v30_1_8 (c : Dev nD) : W8 m ρ c (Proc.devRef .tc main_v30) = W1 m ρ c (Proc.devRef .tc main_v30) :=
  calc W8 m ρ c (Proc.devRef .tc main_v30)
    _ = W7 m ρ c (Proc.devRef .tc main_v30) := W8_of_ne m ρ c main_v30 (by decide)
    _ = W6 m ρ c (Proc.devRef .tc main_v30) := StableHlo.after_of_forall_not_mem (b := Proc.devRef .tc main_v30) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v30) := StableHlo.after_of_forall_not_mem (b := Proc.devRef .tc main_v30) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v30) := W5_of_ne m ρ c main_v30 (by decide)
    _ = W3 m ρ c (Proc.devRef .tc main_v30) := StableHlo.after_of_forall_not_mem (b := Proc.devRef .tc main_v30) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v30) := StableHlo.after_of_forall_not_mem (b := Proc.devRef .tc main_v30) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v30) := W2_of_ne m ρ c main_v30 (by decide)

theorem keep_v30_1_10 (c : Dev nD) : W10 m ρ c (Proc.devRef .tc main_v30) = W1 m ρ c (Proc.devRef .tc main_v30) :=
  calc W10 m ρ c (Proc.devRef .tc main_v30)
    _ = W9 m ρ c (Proc.devRef .tc main_v30) := StableHlo.after_of_forall_not_mem (b := Proc.devRef .tc main_v30) _ _ (List.forall_iff_forall_mem.mp (by
          simp only [hostOps3_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_v30) := StableHlo.after_of_forall_not_mem (b := Proc.devRef .tc main_v30) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v30) := W8_of_ne m ρ c main_v30 (by decide)
    _ = W6 m ρ c (Proc.devRef .tc main_v30) := StableHlo.after_of_forall_not_mem (b := Proc.devRef .tc main_v30) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v30) := StableHlo.after_of_forall_not_mem (b := Proc.devRef .tc main_v30) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v30) := W5_of_ne m ρ c main_v30 (by decide)
    _ = W3 m ρ c (Proc.devRef .tc main_v30) := StableHlo.after_of_forall_not_mem (b := Proc.devRef .tc main_v30) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v30) := StableHlo.after_of_forall_not_mem (b := Proc.devRef .tc main_v30) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v30) := W2_of_ne m ρ c main_v30 (by decide)

theorem keep_v31_1_2 (c : Dev nD) : W2 m ρ c (Proc.devRef .tc main_v31) = W1 m ρ c (Proc.devRef .tc main_v31) :=
  calc W2 m ρ c (Proc.devRef .tc main_v31)
    _ = W1 m ρ c (Proc.devRef .tc main_v31) := W2_of_ne m ρ c main_v31 (by decide)

theorem keep_v31_1_5 (c : Dev nD) : W5 m ρ c (Proc.devRef .tc main_v31) = W1 m ρ c (Proc.devRef .tc main_v31) :=
  calc W5 m ρ c (Proc.devRef .tc main_v31)
    _ = W4 m ρ c (Proc.devRef .tc main_v31) := W5_of_ne m ρ c main_v31 (by decide)
    _ = W3 m ρ c (Proc.devRef .tc main_v31) := StableHlo.after_of_forall_not_mem (b := Proc.devRef .tc main_v31) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v31) := StableHlo.after_of_forall_not_mem (b := Proc.devRef .tc main_v31) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v31) := W2_of_ne m ρ c main_v31 (by decide)

theorem keep_v31_1_8 (c : Dev nD) : W8 m ρ c (Proc.devRef .tc main_v31) = W1 m ρ c (Proc.devRef .tc main_v31) :=
  calc W8 m ρ c (Proc.devRef .tc main_v31)
    _ = W7 m ρ c (Proc.devRef .tc main_v31) := W8_of_ne m ρ c main_v31 (by decide)
    _ = W6 m ρ c (Proc.devRef .tc main_v31) := StableHlo.after_of_forall_not_mem (b := Proc.devRef .tc main_v31) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v31) := StableHlo.after_of_forall_not_mem (b := Proc.devRef .tc main_v31) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v31) := W5_of_ne m ρ c main_v31 (by decide)
    _ = W3 m ρ c (Proc.devRef .tc main_v31) := StableHlo.after_of_forall_not_mem (b := Proc.devRef .tc main_v31) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v31) := StableHlo.after_of_forall_not_mem (b := Proc.devRef .tc main_v31) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v31) := W2_of_ne m ρ c main_v31 (by decide)

theorem keep_v31_1_10 (c : Dev nD) : W10 m ρ c (Proc.devRef .tc main_v31) = W1 m ρ c (Proc.devRef .tc main_v31) :=
  calc W10 m ρ c (Proc.devRef .tc main_v31)
    _ = W9 m ρ c (Proc.devRef .tc main_v31) := StableHlo.after_of_forall_not_mem (b := Proc.devRef .tc main_v31) _ _ (List.forall_iff_forall_mem.mp (by
          simp only [hostOps3_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_v31) := StableHlo.after_of_forall_not_mem (b := Proc.devRef .tc main_v31) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v31) := W8_of_ne m ρ c main_v31 (by decide)
    _ = W6 m ρ c (Proc.devRef .tc main_v31) := StableHlo.after_of_forall_not_mem (b := Proc.devRef .tc main_v31) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v31) := StableHlo.after_of_forall_not_mem (b := Proc.devRef .tc main_v31) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v31) := W5_of_ne m ρ c main_v31 (by decide)
    _ = W3 m ρ c (Proc.devRef .tc main_v31) := StableHlo.after_of_forall_not_mem (b := Proc.devRef .tc main_v31) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v31) := StableHlo.after_of_forall_not_mem (b := Proc.devRef .tc main_v31) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v31) := W2_of_ne m ρ c main_v31 (by decide)

end Cert.GraphAE

end
-- ==== Proof.KKeepArgs.lean ====
/-
  Each weight and bias argument, at the boundary where a layer reads it, is as launched.
  A host operation leaves every buffer but its result alone; a pipelined region leaves alone every buffer that is not
  one of its arrays and returns its input arrays as it found them. So a buffer that nothing writes between two
  boundaries of the idealized kernel's program holds at the later one what it held at the earlier one.
-/
import proofs.«169992_j3745211482439_2_alg».proof.Proof.Gen.KernelIdeal.Frame

-- membership in a rectangle of production extents (`View.cover_of_tiled`): the elaborator's structural look
-- recurses once per coordinate of the long axes
set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.GraphAE

open Cert.KernelIdeal Cert.KernelIdeal.Gen

variable {F : FTy → Type} [FloatOps F]
variable (m : (ℓ : Loc nD τ sig) → Buf (Elt F) ℓ) (ρ : Dev nD → PrngReg)

theorem keep_arg0_0_1 (c : Dev nD) : W1 m ρ c (Proc.devRef .tc main_arg0) = m ((c : Thread nD τ).loc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem keep_arg2_0_1 (c : Dev nD) : W1 m ρ c (Proc.devRef .tc main_arg2) = m ((c : Thread nD τ).loc main_arg2) :=
  calc W1 m ρ c (Proc.devRef .tc main_arg2)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem keep_arg3_0_2 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem keep_arg4_0_4 (c : Dev nD) : W4 m ρ c (Proc.devRef .tc main_arg4) = m ((c : Thread nD τ).loc main_arg4) :=
  calc W4 m ρ c (Proc.devRef .tc main_arg4)
    _ = W3 m ρ c (Proc.devRef .tc main_arg4) := StableHlo.after_of_forall_not_mem (b := Proc.devRef .tc main_arg4) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem keep_arg5_0_5 (c : Dev nD) : W5 m ρ c (Proc.devRef .tc main_arg5) = m ((c : Thread nD τ).loc main_arg5) :=
  calc W5 m ρ c (Proc.devRef .tc main_arg5)
    _ = W4 m ρ c (Proc.devRef .tc main_arg5) := W5_of_ne m ρ c main_arg5 (by decide)
    _ = W3 m ρ c (Proc.devRef .tc main_arg5) := StableHlo.after_of_forall_not_mem (b := Proc.devRef .tc main_arg5) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem keep_arg6_0_7 (c : Dev nD) : W7 m ρ c (Proc.devRef .tc main_arg6) = m ((c : Thread nD τ).loc main_arg6) :=
  calc W7 m ρ c (Proc.devRef .tc main_arg6)
    _ = W6 m ρ c (Proc.devRef .tc main_arg6) := StableHlo.after_of_forall_not_mem (b := Proc.devRef .tc main_arg6) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg6) := StableHlo.after_of_forall_not_mem (b := Proc.devRef .tc main_arg6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg6) := W5_of_ne m ρ c main_arg6 (by decide)
    _ = W3 m ρ c (Proc.devRef .tc main_arg6) := StableHlo.after_of_forall_not_mem (b := Proc.devRef .tc main_arg6) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem keep_arg7_0_8 (c : Dev nD) : W8 m ρ c (Proc.devRef .tc main_arg7) = m ((c : Thread nD τ).loc main_arg7) :=
  calc W8 m ρ c (Proc.devRef .tc main_arg7)
    _ = W7 m ρ c (Proc.devRef .tc main_arg7) := W8_of_ne m ρ c main_arg7 (by decide)
    _ = W6 m ρ c (Proc.devRef .tc main_arg7) := StableHlo.after_of_forall_not_mem (b := Proc.devRef .tc main_arg7) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg7) := StableHlo.after_of_forall_not_mem (b := Proc.devRef .tc main_arg7) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg7) := W5_of_ne m ρ c main_arg7 (by decide)
    _ = W3 m ρ c (Proc.devRef .tc main_arg7) := StableHlo.after_of_forall_not_mem (b := Proc.devRef .tc main_arg7) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem keep_arg8_0_11 (c : Dev nD) : W11 m ρ c (Proc.devRef .tc main_arg8) = m ((c : Thread nD τ).loc main_arg8) :=
  calc W11 m ρ c (Proc.devRef .tc main_arg8)
    _ = W10 m ρ c (Proc.devRef .tc main_arg8) := StableHlo.after_of_forall_not_mem (b := Proc.devRef .tc main_arg8) _ _ (List.forall_iff_forall_mem.mp (by
          simp only [hostOps3_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg8) := StableHlo.after_of_forall_not_mem (b := Proc.devRef .tc main_arg8) _ _ (List.forall_iff_forall_mem.mp (by
          simp only [hostOps3_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg8) := StableHlo.after_of_forall_not_mem (b := Proc.devRef .tc main_arg8) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg8) := W8_of_ne m ρ c main_arg8 (by decide)
    _ = W6 m ρ c (Proc.devRef .tc main_arg8) := StableHlo.after_of_forall_not_mem (b := Proc.devRef .tc main_arg8) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg8) := StableHlo.after_of_forall_not_mem (b := Proc.devRef .tc main_arg8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg8) := W5_of_ne m ρ c main_arg8 (by decide)
    _ = W3 m ρ c (Proc.devRef .tc main_arg8) := StableHlo.after_of_forall_not_mem (b := Proc.devRef .tc main_arg8) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

theorem keep_arg9_0_12 (c : Dev nD) : W12 m ρ c (Proc.devRef .tc main_arg9) = m ((c : Thread nD τ).loc main_arg9) :=
  calc W12 m ρ c (Proc.devRef .tc main_arg9)
    _ = W11 m ρ c (Proc.devRef .tc main_arg9) := W12_of_ne m ρ c main_arg9 (by decide)
    _ = W10 m ρ c (Proc.devRef .tc main_arg9) := StableHlo.after_of_forall_not_mem (b := Proc.devRef .tc main_arg9) _ _ (List.forall_iff_forall_mem.mp (by
          simp only [hostOps3_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg9) := StableHlo.after_of_forall_not_mem (b := Proc.devRef .tc main_arg9) _ _ (List.forall_iff_forall_mem.mp (by
          simp only [hostOps3_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg9) := StableHlo.after_of_forall_not_mem (b := Proc.devRef .tc main_arg9) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg9) := W8_of_ne m ρ c main_arg9 (by decide)
    _ = W6 m ρ c (Proc.devRef .tc main_arg9) := StableHlo.after_of_forall_not_mem (b := Proc.devRef .tc main_arg9) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg9) := StableHlo.after_of_forall_not_mem (b := Proc.devRef .tc main_arg9) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg9) := W5_of_ne m ρ c main_arg9 (by decide)
    _ = W3 m ρ c (Proc.devRef .tc main_arg9) := StableHlo.after_of_forall_not_mem (b := Proc.devRef .tc main_arg9) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

theorem keep_arg10_0_15 (c : Dev nD) : W15 m ρ c (Proc.devRef .tc main_arg10) = m ((c : Thread nD τ).loc main_arg10) :=
  calc W15 m ρ c (Proc.devRef .tc main_arg10)
    _ = W14 m ρ c (Proc.devRef .tc main_arg10) := StableHlo.after_of_forall_not_mem (b := Proc.devRef .tc main_arg10) _ _ (List.forall_iff_forall_mem.mp (by
          simp only [hostOps4_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg10) := StableHlo.after_of_forall_not_mem (b := Proc.devRef .tc main_arg10) _ _ (List.forall_iff_forall_mem.mp (by
          simp only [hostOps4_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W12 m ρ c (Proc.devRef .tc main_arg10) := StableHlo.after_of_forall_not_mem (b := Proc.devRef .tc main_arg10) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg10) := W12_of_ne m ρ c main_arg10 (by decide)
    _ = W10 m ρ c (Proc.devRef .tc main_arg10) := StableHlo.after_of_forall_not_mem (b := Proc.devRef .tc main_arg10) _ _ (List.forall_iff_forall_mem.mp (by
          simp only [hostOps3_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg10) := StableHlo.after_of_forall_not_mem (b := Proc.devRef .tc main_arg10) _ _ (List.forall_iff_forall_mem.mp (by
          simp only [hostOps3_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg10) := StableHlo.after_of_forall_not_mem (b := Proc.devRef .tc main_arg10) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg10) := W8_of_ne m ρ c main_arg10 (by decide)
    _ = W6 m ρ c (Proc.devRef .tc main_arg10) := StableHlo.after_of_forall_not_mem (b := Proc.devRef .tc main_arg10) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg10) := StableHlo.after_of_forall_not_mem (b := Proc.devRef .tc main_arg10) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg10) := W5_of_ne m ρ c main_arg10 (by decide)
    _ = W3 m ρ c (Proc.devRef .tc main_arg10) := StableHlo.after_of_forall_not_mem (b := Proc.devRef .tc main_arg10) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

theorem keep_arg11_0_14 (c : Dev nD) : W14 m ρ c (Proc.devRef .tc main_arg11) = m ((c : Thread nD τ).loc main_arg11) :=
  calc W14 m ρ c (Proc.devRef .tc main_arg11)
    _ = W13 m ρ c (Proc.devRef .tc main_arg11) := StableHlo.after_of_forall_not_mem (b := Proc.devRef .tc main_arg11) _ _ (List.forall_iff_forall_mem.mp (by
          simp only [hostOps4_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W12 m ρ c (Proc.devRef .tc main_arg11) := StableHlo.after_of_forall_not_mem (b := Proc.devRef .tc main_arg11) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg11) := W12_of_ne m ρ c main_arg11 (by decide)
    _ = W10 m ρ c (Proc.devRef .tc main_arg11) := StableHlo.after_of_forall_not_mem (b := Proc.devRef .tc main_arg11) _ _ (List.forall_iff_forall_mem.mp (by
          simp only [hostOps3_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg11) := StableHlo.after_of_forall_not_mem (b := Proc.devRef .tc main_arg11) _ _ (List.forall_iff_forall_mem.mp (by
          simp only [hostOps3_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg11) := StableHlo.after_of_forall_not_mem (b := Proc.devRef .tc main_arg11) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg11) := W8_of_ne m ρ c main_arg11 (by decide)
    _ = W6 m ρ c (Proc.devRef .tc main_arg11) := StableHlo.after_of_forall_not_mem (b := Proc.devRef .tc main_arg11) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg11) := StableHlo.after_of_forall_not_mem (b := Proc.devRef .tc main_arg11) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg11) := W5_of_ne m ρ c main_arg11 (by decide)
    _ = W3 m ρ c (Proc.devRef .tc main_arg11) := StableHlo.after_of_forall_not_mem (b := Proc.devRef .tc main_arg11) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl

theorem keep_arg12_0_17 (c : Dev nD) : W17 m ρ c (Proc.devRef .tc main_arg12) = m ((c : Thread nD τ).loc main_arg12) :=
  calc W17 m ρ c (Proc.devRef .tc main_arg12)
    _ = W16 m ρ c (Proc.devRef .tc main_arg12) := StableHlo.after_of_forall_not_mem (b := Proc.devRef .tc main_arg12) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg12) := W16_of_ne m ρ c main_arg12 (by decide)
    _ = W14 m ρ c (Proc.devRef .tc main_arg12) := StableHlo.after_of_forall_not_mem (b := Proc.devRef .tc main_arg12) _ _ (List.forall_iff_forall_mem.mp (by
          simp only [hostOps4_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg12) := StableHlo.after_of_forall_not_mem (b := Proc.devRef .tc main_arg12) _ _ (List.forall_iff_forall_mem.mp (by
          simp only [hostOps4_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W12 m ρ c (Proc.devRef .tc main_arg12) := StableHlo.after_of_forall_not_mem (b := Proc.devRef .tc main_arg12) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg12) := W12_of_ne m ρ c main_arg12 (by decide)
    _ = W10 m ρ c (Proc.devRef .tc main_arg12) := StableHlo.after_of_forall_not_mem (b := Proc.devRef .tc main_arg12) _ _ (List.forall_iff_forall_mem.mp (by
          simp only [hostOps3_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg12) := StableHlo.after_of_forall_not_mem (b := Proc.devRef .tc main_arg12) _ _ (List.forall_iff_forall_mem.mp (by
          simp only [hostOps3_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg12) := StableHlo.after_of_forall_not_mem (b := Proc.devRef .tc main_arg12) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg12) := W8_of_ne m ρ c main_arg12 (by decide)
    _ = W6 m ρ c (Proc.devRef .tc main_arg12) := StableHlo.after_of_forall_not_mem (b := Proc.devRef .tc main_arg12) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg12) := StableHlo.after_of_forall_not_mem (b := Proc.devRef .tc main_arg12) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg12) := W5_of_ne m ρ c main_arg12 (by decide)
    _ = W3 m ρ c (Proc.devRef .tc main_arg12) := StableHlo.after_of_forall_not_mem (b := Proc.devRef .tc main_arg12) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg12) := StableHlo.after_of_forall_not_mem (b := Proc.devRef .tc main_arg12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := rfl

theorem keep_arg13_0_19 (c : Dev nD) : W19 m ρ c (Proc.devRef .tc main_arg13) = m ((c : Thread nD τ).loc main_arg13) :=
  calc W19 m ρ c (Proc.devRef .tc main_arg13)
    _ = W18 m ρ c (Proc.devRef .tc main_arg13) := StableHlo.after_of_forall_not_mem (b := Proc.devRef .tc main_arg13) _ _ (List.forall_iff_forall_mem.mp (by
          simp only [hostOps5_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W17 m ρ c (Proc.devRef .tc main_arg13) := StableHlo.after_of_forall_not_mem (b := Proc.devRef .tc main_arg13) _ _ (List.forall_iff_forall_mem.mp (by
          simp only [hostOps5_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W16 m ρ c (Proc.devRef .tc main_arg13) := StableHlo.after_of_forall_not_mem (b := Proc.devRef .tc main_arg13) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg13) := W16_of_ne m ρ c main_arg13 (by decide)
    _ = W14 m ρ c (Proc.devRef .tc main_arg13) := StableHlo.after_of_forall_not_mem (b := Proc.devRef .tc main_arg13) _ _ (List.forall_iff_forall_mem.mp (by
          simp only [hostOps4_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg13) := StableHlo.after_of_forall_not_mem (b := Proc.devRef .tc main_arg13) _ _ (List.forall_iff_forall_mem.mp (by
          simp only [hostOps4_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W12 m ρ c (Proc.devRef .tc main_arg13) := StableHlo.after_of_forall_not_mem (b := Proc.devRef .tc main_arg13) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg13) := W12_of_ne m ρ c main_arg13 (by decide)
    _ = W10 m ρ c (Proc.devRef .tc main_arg13) := StableHlo.after_of_forall_not_mem (b := Proc.devRef .tc main_arg13) _ _ (List.forall_iff_forall_mem.mp (by
          simp only [hostOps3_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg13) := StableHlo.after_of_forall_not_mem (b := Proc.devRef .tc main_arg13) _ _ (List.forall_iff_forall_mem.mp (by
          simp only [hostOps3_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg13) := StableHlo.after_of_forall_not_mem (b := Proc.devRef .tc main_arg13) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg13) := W8_of_ne m ρ c main_arg13 (by decide)
    _ = W6 m ρ c (Proc.devRef .tc main_arg13) := StableHlo.after_of_forall_not_mem (b := Proc.devRef .tc main_arg13) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg13) := StableHlo.after_of_forall_not_mem (b := Proc.devRef .tc main_arg13) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg13) := W5_of_ne m ρ c main_arg13 (by decide)
    _ = W3 m ρ c (Proc.devRef .tc main_arg13) := StableHlo.after_of_forall_not_mem (b := Proc.devRef .tc main_arg13) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg13) := StableHlo.after_of_forall_not_mem (b := Proc.devRef .tc main_arg13) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg13) := W2_of_ne m ρ c main_arg13 (by decide)
    _ = W0 m ρ c (Proc.devRef .tc main_arg13) := StableHlo.after_of_forall_not_mem (b := Proc.devRef .tc main_arg13) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg13) := rfl

end Cert.GraphAE

end
-- ==== Proof.KGraph.lean ====
/-
  What the idealized kernel's first stretch of host operations computes from the edge list, once, for all four
  aggregations: the two endpoint vectors (rows 0 and 1 of the edge list), the per-edge coefficient
  `coef e = dis (src e) * dis (dst e)` and the per-node self weight `dis i * dis i`, where
  `dis = rsqrt (1 + number of edges into the node)`. Each is, operation for operation, the array the reference
  recomputes in every layer.
-/
import proofs.«169992_j3745211482439_2_alg».proof.Proof.Gen.KernelIdeal.Frame
import proofs.«169992_j3745211482439_2_alg».proof.Proof.RefSpec

-- membership in a rectangle of production extents (`View.cover_of_tiled`): the elaborator's structural look
-- recurses once per coordinate of the long axes
set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.GraphAE

open Cert.KernelIdeal Cert.KernelIdeal.Gen

variable (m : (ℓ : Loc nD τ sig) → Buf (Elt Ideal) ℓ) (ρ : Dev nD → PrngReg)

/-- Row 0 of the edge list: the source endpoints. -/
theorem src_W1 (c : Dev nD) : W1 m ρ c (Proc.devRef .tc main_v1) = srcV (m ((c : Thread nD τ).loc main_arg1)) := by
  show StableHlo.after hostOps0 (W0 m ρ c) (Proc.devRef .tc main_v1) = _
  after_results_simp
  rfl

/-- Row 1 of the edge list: the destination endpoints. -/
theorem dst_W1 (c : Dev nD) : W1 m ρ c (Proc.devRef .tc main_v3) = dstV (m ((c : Thread nD τ).loc main_arg1)) := by
  show StableHlo.after hostOps0 (W0 m ρ c) (Proc.devRef .tc main_v3) = _
  after_results_simp
  rfl

/-- The per-edge coefficient `dis (src e) * dis (dst e)`. -/
theorem coef_W1 (c : Dev nD) : W1 m ρ c (Proc.devRef .tc main_v30) = coefV (m ((c : Thread nD τ).loc main_arg1)) := by
  show StableHlo.after hostOps0 (W0 m ρ c) (Proc.devRef .tc main_v30) = _
  after_results_simp
  rfl

/-- The per-node self weight `dis i * dis i`. -/
theorem selfw_W1 (c : Dev nD) : W1 m ρ c (Proc.devRef .tc main_v31) = selfwV (m ((c : Thread nD τ).loc main_arg1)) := by
  show StableHlo.after hostOps0 (W0 m ρ c) (Proc.devRef .tc main_v31) = _
  after_results_simp
  rfl

end Cert.GraphAE

end
-- ==== Proof.Region0.lean ====
/-
  Layer 0 of the network is a matrix product computed ten row blocks at a time: grid point t takes rows
  1000 t … 1000 t + 999 of the 10000 × 512 left array and the whole 512 × 128 right array, multiplies them (the
  change of float format on the way in is the identity over the extended reals, and the accumulator starts at
  zero), and writes the 1000 × 128 product to rows 1000 t … 1000 t + 999 of the result. Row r of the result is
  written by point r / 1000 and by no other, and the entry (r, q) it receives is the sum over k of
  left (r, k) * right (k, q). So the result array is `mm` of the two arrays the region starts from.
-/
import proofs.«169992_j3745211482439_2_alg».proof.Proof.Gen.KernelIdeal.Frame
import proofs.«169992_j3745211482439_2_alg».proof.Proof.Spec
import Idealize.ShloMosaic.Lib.Pipeline.Value
import Idealize.ShloMosaic.PureOps.Ideal.Laws
import Idealize.ShloMosaic.Lib.ValueIdx

noncomputable section

namespace Cert.GraphAE

open Cert.KernelIdeal Cert.KernelIdeal.Gen Idealize.ShloMosaic Idealize.ShloMosaic.TcCoe Idealize.SL.Sem
open Idealize.ShloMosaic.ValueIdx
open Idealize.ShloMosaic.Pipeline (Dat)

/-! ## One block product at an entry -/

theorem hz0 : (![0, 0] : Fin 2 → Nat) = fun _ => 0 := funext fun a => by fin_cases a <;> rfl

/-- The left operand of the block product is read in the row of the entry. -/
theorem lhs0_row (i : S1000x128.Idx) (q : dot_S1000x512_S512x128_S1000x128_1_0_0_1_n_n.contr.Idx) :
    (dot_S1000x512_S512x128_S1000x128_1_0_0_1_n_n.lhsIdx i q 0).val = (i 0).val := by
  unfold DotDims.lhsIdx
  rw [dif_neg (show ¬(0 : Fin S1000x512.rank) ∈ dot_S1000x512_S512x128_S1000x128_1_0_0_1_n_n.lhsBatch by decide),
    dif_pos (show (0 : Fin S1000x512.rank) ∈ dot_S1000x512_S512x128_S1000x128_1_0_0_1_n_n.lhsNonContracting by decide)]
  rfl

/-- The right operand of the block product is read in the column of the entry. -/
theorem rhs0_col (i : S1000x128.Idx) (q : dot_S1000x512_S512x128_S1000x128_1_0_0_1_n_n.contr.Idx) :
    (dot_S1000x512_S512x128_S1000x128_1_0_0_1_n_n.rhsIdx i q 1).val = (i 1).val := by
  unfold DotDims.rhsIdx
  rw [dif_neg (show ¬(1 : Fin S512x128.rank) ∈ dot_S1000x512_S512x128_S1000x128_1_0_0_1_n_n.rhsBatch by decide),
    dif_pos (show (1 : Fin S512x128.rank) ∈ dot_S1000x512_S512x128_S1000x128_1_0_0_1_n_n.rhsNonContracting by decide)]
  rfl

/-- Entry (p, q) of what the body stores: the sum over k of the left block at (p, k) times the right block at (k, q). -/
theorem pay0_apply (x0 : Vec Ideal S1000x512 .f32) (x1 : Vec Ideal S512x128 .f32) (p : Fin 1000) (q : Fin 128) :
    k0_pay1 (F := Ideal) x0 x1 (ix2 p q) = ∑ k : Fin 512, x0 (ix2 p k) * x1 (ix2 k q) := by
  unfold k0_pay1
  refine (Ideal.matmul_constant_zero_apply dot_S1000x512_S512x128_S1000x128_1_0_0_1_n_n none _ _ (ix2 p q)).trans ?_
  rw [← Equiv.sum_comp (contrEquiv1 dot_S1000x512_S512x128_S1000x128_1_0_0_1_n_n 512 rfl rfl).symm]
  refine Finset.sum_congr rfl fun k _ => ?_
  have hk := contrEquiv1_symm_val dot_S1000x512_S512x128_S1000x128_1_0_0_1_n_n 512 rfl rfl k
  have el : dot_S1000x512_S512x128_S1000x128_1_0_0_1_n_n.lhsIdx (ix2 p q) ((contrEquiv1 dot_S1000x512_S512x128_S1000x128_1_0_0_1_n_n 512 rfl rfl).symm k) = ix2 p k :=
    funext fun a => Fin.ext (by
      match a with
      | ⟨0, _⟩ => exact lhs0_row _ _
      | ⟨1, _⟩ => exact (dot_S1000x512_S512x128_S1000x128_1_0_0_1_n_n.lhsIdx_val_of_single rfl (ix2 p q) _).trans hk)
  have er : dot_S1000x512_S512x128_S1000x128_1_0_0_1_n_n.rhsIdx (ix2 p q) ((contrEquiv1 dot_S1000x512_S512x128_S1000x128_1_0_0_1_n_n 512 rfl rfl).symm k) = ix2 k q :=
    funext fun a => Fin.ext (by
      match a with
      | ⟨0, _⟩ => exact (dot_S1000x512_S512x128_S1000x128_1_0_0_1_n_n.rhsIdx_val_of_single rfl (ix2 p q) _).trans hk
      | ⟨1, _⟩ => exact rhs0_col _ _)
  rw [el, er]
  rfl

/-- A block product whose left block is rows 1000 t … of `A` and whose right block is `B`, at an entry, is the
    matrix product of `A` and `B` at the entry 1000 t rows further down. -/
theorem point0 (X0 : Vec Ideal S1000x512 .f32) (X1 : Vec Ideal S512x128 .f32)
    (A : S10000x512.Idx → EReal) (B : S512x128.Idx → EReal) (t : Nat)
    (h0 : ∀ (x : S1000x512.Idx) (k : S10000x512.Idx), (k 0).val = t * 1000 + (x 0).val → (k 1).val = (x 1).val → X0 x = A k)
    (h1 : ∀ x : S512x128.Idx, X1 x = B x)
    (j : S1000x128.Idx) (i : S10000x128.Idx) (hi0 : (i 0).val = t * 1000 + (j 0).val) (hi1 : (i 1).val = (j 1).val) :
    k0_pay1 (F := Ideal) X0 X1 j = mm 10000 512 128 A B i := by
  obtain ⟨p, q, rfl⟩ : ∃ (p : Fin 1000) (q : Fin 128), j = ix2 p q := ⟨j 0, j 1, eq_ix2 j⟩
  obtain ⟨r, s, rfl⟩ : ∃ (r : Fin 10000) (s : Fin 128), i = ix2 r s := ⟨i 0, i 1, eq_ix2 i⟩
  have hs : s = q := Fin.ext hi1
  subst hs
  rw [pay0_apply, mm_apply]
  refine Finset.sum_congr rfl fun k _ => ?_
  rw [h0 (ix2 p k) (ix2 r k) hi0 rfl, h1 (ix2 k s)]

/-! ## The blocks of the three windows -/

section Region
variable (V : (c : Dev nD) → (b : Ref sig .tc) → Buf (Elt Ideal) ((c : Thread nD τ).loc b))

/-- The block indices over the grid: the left array and the result move down one block of rows per point, the
    right array stays. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left window's block at point `t` is rows 1000 t … 1000 t + 999 of the left array. -/
theorem blk0_left (c : Dev nD) (t : Fin cfg0.N) (x : S1000x512.Idx) (k : S10000x512.Idx)
    (hk0 : (k 0).val = t.val * 1000 + (x 0).val) (hk1 : (k 1).val = (x 1).val) :
    (iblk0 V c 0 t : Vec Ideal S1000x512 .f32) x = (V c (Pipeline.arrRef spec0 0) : S10000x512.Idx → EReal) k := by
  obtain ⟨e0, e1, -, -, -, -⟩ := idx_facts0 t
  show (V c (Pipeline.arrRef spec0 0) : S10000x512.Idx → EReal) (((cfg0.win 0).blk t).view.emb x) = _
  refine congrArg _ (funext fun a => Fin.ext ?_)
  match a with
  | ⟨0, _⟩ => show win0_0.index t (0 : Fin 2) * 1000 + 1 * (x 0).val = (k 0).val; rw [e0, hk0]; omega
  | ⟨1, _⟩ => show win0_0.index t (1 : Fin 2) * 512 + 1 * (x 1).val = (k 1).val; rw [e1, hk1]; omega

/-- The right window's block at every point is the whole right array. -/
theorem blk0_right (c : Dev nD) (t : Fin cfg0.N) (x : S512x128.Idx) :
    (iblk0 V c 1 t : Vec Ideal S512x128 .f32) x = (V c (Pipeline.arrRef spec0 1) : S512x128.Idx → EReal) x := by
  obtain ⟨-, -, e2, e3, -, -⟩ := idx_facts0 t
  show (V c (Pipeline.arrRef spec0 1) : S512x128.Idx → EReal) (((cfg0.win 1).blk t).view.emb x) = _
  refine congrArg _ (funext fun a => Fin.ext ?_)
  match a with
  | ⟨0, _⟩ => show win0_1.index t (0 : Fin 2) * 512 + 1 * (x 0).val = (x 0).val; rw [e2]; omega
  | ⟨1, _⟩ => show win0_1.index t (1 : Fin 2) * 128 + 1 * (x 1).val = (x 1).val; rw [e3]; omega

/-! ## What a point writes back, and the whole result -/

/-- What point `t` writes back is block `t` of the matrix product of the arrays the region starts from. -/
theorem flushed0_eq (c : Dev nD) (t : Fin cfg0.N) :
    (dat0 (F := Ideal) V c).flushed 2 t = ((cfg0.win 2).blk t).view.read (Elt Ideal)
      (mm 10000 512 128 (V c (Pipeline.arrRef spec0 0)) (V c (Pipeline.arrRef spec0 1))) := by
  show (cfg0.win 2).cut (grid0.coords t) ((dat0 (F := Ideal) V c).after 2 t) = _
  rw [after0_2]
  unfold out0_2
  rw [View.canon_unit_zero hz0]
  simp only [View.ld_unit_zero (S := S1000x512) hz0, View.ld_unit_zero (S := S512x128) hz0]
  obtain ⟨-, -, -, -, e4, e5⟩ := idx_facts0 t
  funext j
  refine point0 (iblk0 V c 0 t) (iblk0 V c 1 t) (V c (Pipeline.arrRef spec0 0)) (V c (Pipeline.arrRef spec0 1)) t.val
    (blk0_left V c t) (blk0_right V c t) j (((cfg0.win 2).blk t).view.emb j) ?_ ?_
  · show win0_2.index t (0 : Fin 2) * 1000 + 1 * (j 0).val = t.val * 1000 + (j 0).val
    rw [e4]; omega
  · show win0_2.index t (1 : Fin 2) * 128 + 1 * (j 1).val = (j 1).val
    rw [e5]; omega

/-- An entry of the result is in point `t`'s block iff each coordinate is in the block's range on its axis. -/
theorem mem_blk0 (t : Fin cfg0.N) (i : S10000x128.Idx) :
    i ∈ ((cfg0.win 2).blk t).view.set ↔ ∀ a : Fin 2, win0_2.index t a * S1000x128.size a ≤ (i a).val ∧ (i a).val < win0_2.index t a * S1000x128.size a + S1000x128.size a := by
  show i ∈ ((View.whole main_v32).slice (win0_2.rect t)).set ↔ _
  rw [View.set_slice_whole, Rect.mem_set_unit]
  exact Iff.rfl

/-- Row r of the result is in the block of point r / 1000. -/
theorem cover0 (i : S10000x128.Idx) :
    ∃ t : Fin cfg0.N, (cfg0.win 2).flush t = true ∧ i ∈ ((cfg0.win 2).blk t).view.set := by
  have hi0 : (i 0).val < 10000 := (i 0).isLt
  have hi1 : (i 1).val < 128 := (i 1).isLt
  have hN : cfg0.N = 10 := N_0
  have hlt : (i 0).val / 1000 < cfg0.N := by rw [hN]; omega
  refine ⟨⟨(i 0).val / 1000, hlt⟩, flush0_2 _, ?_⟩
  obtain ⟨-, -, -, -, e4, e5⟩ := idx_facts0 ⟨(i 0).val / 1000, hlt⟩
  rw [mem_blk0]
  intro a
  match a with
  | ⟨0, _⟩ =>
    show win0_2.index ⟨(i 0).val / 1000, hlt⟩ (0 : Fin 2) * 1000 ≤ (i 0).val ∧ (i 0).val < win0_2.index ⟨(i 0).val / 1000, hlt⟩ (0 : Fin 2) * 1000 + 1000
    rw [e4]; show (i 0).val / 1000 * 1000 ≤ (i 0).val ∧ (i 0).val < (i 0).val / 1000 * 1000 + 1000; omega
  | ⟨1, _⟩ =>
    show win0_2.index ⟨(i 0).val / 1000, hlt⟩ (1 : Fin 2) * 128 ≤ (i 1).val ∧ (i 1).val < win0_2.index ⟨(i 0).val / 1000, hlt⟩ (1 : Fin 2) * 128 + 128
    rw [e5]; omega

/-- The result array after the region is the matrix product of the two arrays the region starts from. -/
theorem final0 (c : Dev nD) :
    (Cert.KernelIdeal.Gen.dat0 (F := Ideal) V c).arrAt 2 Cert.KernelIdeal.cfg0.N
      = mm 10000 512 128 (V c (Pipeline.arrRef spec0 0)) (V c (Pipeline.arrRef spec0 1)) :=
  (dat0 (F := Ideal) V c).arrAt_eq_of_cover 2 _ (fun t _ => flushed0_eq V c t) cover0

end Region

end Cert.GraphAE

end
-- ==== Proof.KLayer1.lean ====
/-
  Graph-convolution layer 1 of the idealized kernel, project first: region 0 multiplies the layer's input rows by the
  weight, block of 1000 rows by block — as a whole array, the matrix product —, then the host operations aggregate
  along the edges (gather the source rows, scale by the edge coefficient, scatter-add into the destination rows, add
  the self term), add the bias and apply the rectifier: operation for operation the reference's layer, over the
  coefficients computed once before region 0.
-/
import proofs.«169992_j3745211482439_2_alg».proof.Proof.Gen.KernelIdeal.Frame
import proofs.«169992_j3745211482439_2_alg».proof.Proof.RefSpec
import proofs.«169992_j3745211482439_2_alg».proof.Proof.Spec
import proofs.«169992_j3745211482439_2_alg».proof.Proof.RefMatmul
import proofs.«169992_j3745211482439_2_alg».proof.Proof.Region0
import proofs.«169992_j3745211482439_2_alg».proof.Proof.KKeepEdges
import proofs.«169992_j3745211482439_2_alg».proof.Proof.KKeepArgs
import proofs.«169992_j3745211482439_2_alg».proof.Proof.KGraph

-- membership in a rectangle of production extents (`View.cover_of_tiled`): the elaborator's structural look
-- recurses once per coordinate of the long axes
set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.GraphAE

open Cert.KernelIdeal Cert.KernelIdeal.Gen

variable (m : (ℓ : Loc nD τ sig) → Buf (Elt Ideal) ℓ) (ρ : Dev nD → PrngReg)

/-- Region 0's output array is the product of the layer's input rows with its weight. -/
theorem mm1_W2 (c : Dev nD) : W2 m ρ c (Proc.devRef .tc main_v32) = mm 10000 512 128 (m ((c : Thread nD τ).loc main_arg0)) (m ((c : Thread nD τ).loc main_arg2)) := by
  refine (W2_arr m ρ c 2).trans ?_
  rw [final0 (V1 m ρ) c]
  show mm 10000 512 128 (W1 m ρ c (Proc.devRef .tc main_arg0)) (W1 m ρ c (Proc.devRef .tc main_arg2)) = _
  rw [keep_arg0_0_1 m ρ c, keep_arg2_0_1 m ρ c]

/-- After the aggregation, the bias and the rectifier that follow region 0, the layer's output is the reference's. -/
theorem h1_W4 (c : Dev nD) : W4 m ρ c (Proc.devRef .tc main_v58) = h1S (m ((c : Thread nD τ).loc main_arg0)) (m ((c : Thread nD τ).loc main_arg1)) (m ((c : Thread nD τ).loc main_arg2)) (m ((c : Thread nD τ).loc main_arg3)) := by
  show StableHlo.after hostOps1_1 (StableHlo.after hostOps1 (W2 m ρ c)) (Proc.devRef .tc main_v58) = _
  after_results_simp
  rw [keep_v1_1_2 m ρ c, keep_v3_1_2 m ρ c, keep_v30_1_2 m ρ c, keep_v31_1_2 m ρ c, keep_arg3_0_2 m ρ c,
    src_W1 m ρ c, dst_W1 m ρ c, coef_W1 m ρ c, selfw_W1 m ρ c, mm1_W2 m ρ c, ← dot_512x128_eq_mm]
  rfl

end Cert.GraphAE

end
-- ==== Proof.KLayer2.lean ====
/-
  Graph-convolution layer 2 of the idealized kernel, project first: region 1 multiplies the layer's input rows by the
  weight, block of 1000 rows by block — as a whole array, the matrix product —, then the host operations aggregate
  along the edges (gather the source rows, scale by the edge coefficient, scatter-add into the destination rows, add
  the self term), add the bias and apply the rectifier: operation for operation the reference's layer, over the
  coefficients computed once before region 0.
-/
import proofs.«169992_j3745211482439_2_alg».proof.Proof.Gen.KernelIdeal.Frame
import proofs.«169992_j3745211482439_2_alg».proof.Proof.RefSpec
import proofs.«169992_j3745211482439_2_alg».proof.Proof.Spec
import proofs.«169992_j3745211482439_2_alg».proof.Proof.RefMatmul
import proofs.«169992_j3745211482439_2_alg».proof.Proof.Region1
import proofs.«169992_j3745211482439_2_alg».proof.Proof.KKeepEdges
import proofs.«169992_j3745211482439_2_alg».proof.Proof.KKeepArgs
import proofs.«169992_j3745211482439_2_alg».proof.Proof.KGraph
import proofs.«169992_j3745211482439_2_alg».proof.Proof.KLayer1

-- membership in a rectangle of production extents (`View.cover_of_tiled`): the elaborator's structural look
-- recurses once per coordinate of the long axes
set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.GraphAE

open Cert.KernelIdeal Cert.KernelIdeal.Gen

variable (m : (ℓ : Loc nD τ sig) → Buf (Elt Ideal) ℓ) (ρ : Dev nD → PrngReg)

/-- Region 1's output array is the product of the layer's input rows with its weight. -/
theorem mm2_W5 (c : Dev nD) : W5 m ρ c (Proc.devRef .tc main_v59) = mm 10000 128 128 (h1S (m ((c : Thread nD τ).loc main_arg0)) (m ((c : Thread nD τ).loc main_arg1)) (m ((c : Thread nD τ).loc main_arg2)) (m ((c : Thread nD τ).loc main_arg3))) (m ((c : Thread nD τ).loc main_arg4)) := by
  refine (W5_arr m ρ c 2).trans ?_
  rw [final1 (V4 m ρ) c]
  show mm 10000 128 128 (W4 m ρ c (Proc.devRef .tc main_v58)) (W4 m ρ c (Proc.devRef .tc main_arg4)) = _
  rw [h1_W4 m ρ c, keep_arg4_0_4 m ρ c]

/-- After the aggregation, the bias and the rectifier that follow region 1, the layer's output is the reference's. -/
theorem h2_W7 (c : Dev nD) : W7 m ρ c (Proc.devRef .tc main_v85) = zS (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps2_1 (StableHlo.after hostOps2 (W5 m ρ c)) (Proc.devRef .tc main_v85) = _
  after_results_simp
  rw [keep_v1_1_5 m ρ c, keep_v3_1_5 m ρ c, keep_v30_1_5 m ρ c, keep_v31_1_5 m ρ c, keep_arg5_0_5 m ρ c,
    src_W1 m ρ c, dst_W1 m ρ c, coef_W1 m ρ c, selfw_W1 m ρ c, mm2_W5 m ρ c, ← dot_128x128_eq_mm]
  rfl

end Cert.GraphAE

end
-- ==== Proof.Region3.lean ====
/-
  Layer 3 of the network is a matrix product computed ten row blocks at a time: grid point t takes rows
  1000 t … 1000 t + 999 of the 10000 × 128 left array and the whole 128 × 512 right array, multiplies them (the
  change of float format on the way in is the identity over the extended reals, and the accumulator starts at
  zero), and writes the 1000 × 512 product to rows 1000 t … 1000 t + 999 of the result. Row r of the result is
  written by point r / 1000 and by no other, and the entry (r, q) it receives is the sum over k of
  left (r, k) * right (k, q). So the result array is `mm` of the two arrays the region starts from.
-/
import proofs.«169992_j3745211482439_2_alg».proof.Proof.Gen.KernelIdeal.Frame
import proofs.«169992_j3745211482439_2_alg».proof.Proof.Spec
import Idealize.ShloMosaic.Lib.Pipeline.Value
import Idealize.ShloMosaic.PureOps.Ideal.Laws
import Idealize.ShloMosaic.Lib.ValueIdx

noncomputable section

namespace Cert.GraphAE

open Cert.KernelIdeal Cert.KernelIdeal.Gen Idealize.ShloMosaic Idealize.ShloMosaic.TcCoe Idealize.SL.Sem
open Idealize.ShloMosaic.ValueIdx
open Idealize.ShloMosaic.Pipeline (Dat)

/-! ## One block product at an entry -/

theorem hz3 : (![0, 0] : Fin 2 → Nat) = fun _ => 0 := funext fun a => by fin_cases a <;> rfl

/-- The left operand of the block product is read in the row of the entry. -/
theorem lhs3_row (i : S1000x512.Idx) (q : dot_S1000x128_S128x512_S1000x512_1_0_0_1_n_n.contr.Idx) :
    (dot_S1000x128_S128x512_S1000x512_1_0_0_1_n_n.lhsIdx i q 0).val = (i 0).val := by
  unfold DotDims.lhsIdx
  rw [dif_neg (show ¬(0 : Fin S1000x128.rank) ∈ dot_S1000x128_S128x512_S1000x512_1_0_0_1_n_n.lhsBatch by decide),
    dif_pos (show (0 : Fin S1000x128.rank) ∈ dot_S1000x128_S128x512_S1000x512_1_0_0_1_n_n.lhsNonContracting by decide)]
  rfl

/-- The right operand of the block product is read in the column of the entry. -/
theorem rhs3_col (i : S1000x512.Idx) (q : dot_S1000x128_S128x512_S1000x512_1_0_0_1_n_n.contr.Idx) :
    (dot_S1000x128_S128x512_S1000x512_1_0_0_1_n_n.rhsIdx i q 1).val = (i 1).val := by
  unfold DotDims.rhsIdx
  rw [dif_neg (show ¬(1 : Fin S128x512.rank) ∈ dot_S1000x128_S128x512_S1000x512_1_0_0_1_n_n.rhsBatch by decide),
    dif_pos (show (1 : Fin S128x512.rank) ∈ dot_S1000x128_S128x512_S1000x512_1_0_0_1_n_n.rhsNonContracting by decide)]
  rfl

/-- Entry (p, q) of what the body stores: the sum over k of the left block at (p, k) times the right block at (k, q). -/
theorem pay3_apply (x0 : Vec Ideal S1000x128 .f32) (x1 : Vec Ideal S128x512 .f32) (p : Fin 1000) (q : Fin 512) :
    k3_pay1 (F := Ideal) x0 x1 (ix2 p q) = ∑ k : Fin 128, x0 (ix2 p k) * x1 (ix2 k q) := by
  unfold k3_pay1
  refine (Ideal.matmul_constant_zero_apply dot_S1000x128_S128x512_S1000x512_1_0_0_1_n_n none _ _ (ix2 p q)).trans ?_
  rw [← Equiv.sum_comp (contrEquiv1 dot_S1000x128_S128x512_S1000x512_1_0_0_1_n_n 128 rfl rfl).symm]
  refine Finset.sum_congr rfl fun k _ => ?_
  have hk := contrEquiv1_symm_val dot_S1000x128_S128x512_S1000x512_1_0_0_1_n_n 128 rfl rfl k
  have el : dot_S1000x128_S128x512_S1000x512_1_0_0_1_n_n.lhsIdx (ix2 p q) ((contrEquiv1 dot_S1000x128_S128x512_S1000x512_1_0_0_1_n_n 128 rfl rfl).symm k) = ix2 p k :=
    funext fun a => Fin.ext (by
      match a with
      | ⟨0, _⟩ => exact lhs3_row _ _
      | ⟨1, _⟩ => exact (dot_S1000x128_S128x512_S1000x512_1_0_0_1_n_n.lhsIdx_val_of_single rfl (ix2 p q) _).trans hk)
  have er : dot_S1000x128_S128x512_S1000x512_1_0_0_1_n_n.rhsIdx (ix2 p q) ((contrEquiv1 dot_S1000x128_S128x512_S1000x512_1_0_0_1_n_n 128 rfl rfl).symm k) = ix2 k q :=
    funext fun a => Fin.ext (by
      match a with
      | ⟨0, _⟩ => exact (dot_S1000x128_S128x512_S1000x512_1_0_0_1_n_n.rhsIdx_val_of_single rfl (ix2 p q) _).trans hk
      | ⟨1, _⟩ => exact rhs3_col _ _)
  rw [el, er]
  show shapeCast S1000x128 x0 shapeCasts_S1000x128_S1000x128 (ix2 p k) * x1 (ix2 k q) = _
  rw [shapeCast_self]

/-- A block product whose left block is rows 1000 t … of `A` and whose right block is `B`, at an entry, is the
    matrix product of `A` and `B` at the entry 1000 t rows further down. -/
theorem point3 (X0 : Vec Ideal S1000x128 .f32) (X1 : Vec Ideal S128x512 .f32)
    (A : S10000x128.Idx → EReal) (B : S128x512.Idx → EReal) (t : Nat)
    (h0 : ∀ (x : S1000x128.Idx) (k : S10000x128.Idx), (k 0).val = t * 1000 + (x 0).val → (k 1).val = (x 1).val → X0 x = A k)
    (h1 : ∀ x : S128x512.Idx, X1 x = B x)
    (j : S1000x512.Idx) (i : S10000x512.Idx) (hi0 : (i 0).val = t * 1000 + (j 0).val) (hi1 : (i 1).val = (j 1).val) :
    k3_pay1 (F := Ideal) X0 X1 j = mm 10000 128 512 A B i := by
  obtain ⟨p, q, rfl⟩ : ∃ (p : Fin 1000) (q : Fin 512), j = ix2 p q := ⟨j 0, j 1, eq_ix2 j⟩
  obtain ⟨r, s, rfl⟩ : ∃ (r : Fin 10000) (s : Fin 512), i = ix2 r s := ⟨i 0, i 1, eq_ix2 i⟩
  have hs : s = q := Fin.ext hi1
  subst hs
  rw [pay3_apply, mm_apply]
  refine Finset.sum_congr rfl fun k _ => ?_
  rw [h0 (ix2 p k) (ix2 r k) hi0 rfl, h1 (ix2 k s)]

/-! ## The blocks of the three windows -/

section Region
variable (V : (c : Dev nD) → (b : Ref sig .tc) → Buf (Elt Ideal) ((c : Thread nD τ).loc b))

/-- The block indices over the grid: the left array and the result move down one block of rows per point, the
    right array stays. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The left window's block at point `t` is rows 1000 t … 1000 t + 999 of the left array. -/
theorem blk3_left (c : Dev nD) (t : Fin cfg3.N) (x : S1000x128.Idx) (k : S10000x128.Idx)
    (hk0 : (k 0).val = t.val * 1000 + (x 0).val) (hk1 : (k 1).val = (x 1).val) :
    (iblk3 V c 0 t : Vec Ideal S1000x128 .f32) x = (V c (Pipeline.arrRef spec3 0) : S10000x128.Idx → EReal) k := by
  obtain ⟨e0, e1, -, -, -, -⟩ := idx_facts3 t
  show (V c (Pipeline.arrRef spec3 0) : S10000x128.Idx → EReal) (((cfg3.win 0).blk t).view.emb x) = _
  refine congrArg _ (funext fun a => Fin.ext ?_)
  match a with
  | ⟨0, _⟩ => show win3_0.index t (0 : Fin 2) * 1000 + 1 * (x 0).val = (k 0).val; rw [e0, hk0]; omega
  | ⟨1, _⟩ => show win3_0.index t (1 : Fin 2) * 128 + 1 * (x 1).val = (k 1).val; rw [e1, hk1]; omega

/-- The right window's block at every point is the whole right array. -/
theorem blk3_right (c : Dev nD) (t : Fin cfg3.N) (x : S128x512.Idx) :
    (iblk3 V c 1 t : Vec Ideal S128x512 .f32) x = (V c (Pipeline.arrRef spec3 1) : S128x512.Idx → EReal) x := by
  obtain ⟨-, -, e2, e3, -, -⟩ := idx_facts3 t
  show (V c (Pipeline.arrRef spec3 1) : S128x512.Idx → EReal) (((cfg3.win 1).blk t).view.emb x) = _
  refine congrArg _ (funext fun a => Fin.ext ?_)
  match a with
  | ⟨0, _⟩ => show win3_1.index t (0 : Fin 2) * 128 + 1 * (x 0).val = (x 0).val; rw [e2]; omega
  | ⟨1, _⟩ => show win3_1.index t (1 : Fin 2) * 512 + 1 * (x 1).val = (x 1).val; rw [e3]; omega

/-! ## What a point writes back, and the whole result -/

/-- What point `t` writes back is block `t` of the matrix product of the arrays the region starts from. -/
theorem flushed3_eq (c : Dev nD) (t : Fin cfg3.N) :
    (dat3 (F := Ideal) V c).flushed 2 t = ((cfg3.win 2).blk t).view.read (Elt Ideal)
      (mm 10000 128 512 (V c (Pipeline.arrRef spec3 0)) (V c (Pipeline.arrRef spec3 1))) := by
  show (cfg3.win 2).cut (grid3.coords t) ((dat3 (F := Ideal) V c).after 2 t) = _
  rw [after3_2]
  unfold out3_2
  rw [View.canon_unit_zero hz3]
  simp only [View.ld_unit_zero (S := S1000x128) hz3, View.ld_unit_zero (S := S128x512) hz3]
  obtain ⟨-, -, -, -, e4, e5⟩ := idx_facts3 t
  funext j
  refine point3 (iblk3 V c 0 t) (iblk3 V c 1 t) (V c (Pipeline.arrRef spec3 0)) (V c (Pipeline.arrRef spec3 1)) t.val
    (blk3_left V c t) (blk3_right V c t) j (((cfg3.win 2).blk t).view.emb j) ?_ ?_
  · show win3_2.index t (0 : Fin 2) * 1000 + 1 * (j 0).val = t.val * 1000 + (j 0).val
    rw [e4]; omega
  · show win3_2.index t (1 : Fin 2) * 512 + 1 * (j 1).val = (j 1).val
    rw [e5]; omega

/-- An entry of the result is in point `t`'s block iff each coordinate is in the block's range on its axis. -/
theorem mem_blk3 (t : Fin cfg3.N) (i : S10000x512.Idx) :
    i ∈ ((cfg3.win 2).blk t).view.set ↔ ∀ a : Fin 2, win3_2.index t a * S1000x512.size a ≤ (i a).val ∧ (i a).val < win3_2.index t a * S1000x512.size a + S1000x512.size a := by
  show i ∈ ((View.whole main_v135).slice (win3_2.rect t)).set ↔ _
  rw [View.set_slice_whole, Rect.mem_set_unit]
  exact Iff.rfl

/-- Row r of the result is in the block of point r / 1000. -/
theorem cover3 (i : S10000x512.Idx) :
    ∃ t : Fin cfg3.N, (cfg3.win 2).flush t = true ∧ i ∈ ((cfg3.win 2).blk t).view.set := by
  have hi0 : (i 0).val < 10000 := (i 0).isLt
  have hi1 : (i 1).val < 512 := (i 1).isLt
  have hN : cfg3.N = 10 := N_3
  have hlt : (i 0).val / 1000 < cfg3.N := by rw [hN]; omega
  refine ⟨⟨(i 0).val / 1000, hlt⟩, flush3_2 _, ?_⟩
  obtain ⟨-, -, -, -, e4, e5⟩ := idx_facts3 ⟨(i 0).val / 1000, hlt⟩
  rw [mem_blk3]
  intro a
  match a with
  | ⟨0, _⟩ =>
    show win3_2.index ⟨(i 0).val / 1000, hlt⟩ (0 : Fin 2) * 1000 ≤ (i 0).val ∧ (i 0).val < win3_2.index ⟨(i 0).val / 1000, hlt⟩ (0 : Fin 2) * 1000 + 1000
    rw [e4]; show (i 0).val / 1000 * 1000 ≤ (i 0).val ∧ (i 0).val < (i 0).val / 1000 * 1000 + 1000; omega
  | ⟨1, _⟩ =>
    show win3_2.index ⟨(i 0).val / 1000, hlt⟩ (1 : Fin 2) * 512 ≤ (i 1).val ∧ (i 1).val < win3_2.index ⟨(i 0).val / 1000, hlt⟩ (1 : Fin 2) * 512 + 512
    rw [e5]; omega

/-- The result array after the region is the matrix product of the two arrays the region starts from. -/
theorem final3 (c : Dev nD) :
    (Cert.KernelIdeal.Gen.dat3 (F := Ideal) V c).arrAt 2 Cert.KernelIdeal.cfg3.N
      = mm 10000 128 512 (V c (Pipeline.arrRef spec3 0)) (V c (Pipeline.arrRef spec3 1)) :=
  (dat3 (F := Ideal) V c).arrAt_eq_of_cover 2 _ (fun t _ => flushed3_eq V c t) cover3

end Region

end Cert.GraphAE

end
-- ==== Proof.Region2.lean ====
/-
  Layer 2 of the network is a matrix product computed ten row blocks at a time: grid point t takes rows
  1000 t … 1000 t + 999 of the 10000 × 128 left array and the whole 128 × 128 right array, multiplies them (the
  change of float format on the way in is the identity over the extended reals, and the accumulator starts at
  zero), and writes the 1000 × 128 product to rows 1000 t … 1000 t + 999 of the result. Row r of the result is
  written by point r / 1000 and by no other, and the entry (r, q) it receives is the sum over k of
  left (r, k) * right (k, q). So the result array is `mm` of the two arrays the region starts from.
-/
import proofs.«169992_j3745211482439_2_alg».proof.Proof.Gen.KernelIdeal.Frame
import proofs.«169992_j3745211482439_2_alg».proof.Proof.Spec
import Idealize.ShloMosaic.Lib.Pipeline.Value
import Idealize.ShloMosaic.PureOps.Ideal.Laws
import Idealize.ShloMosaic.Lib.ValueIdx

noncomputable section

namespace Cert.GraphAE

open Cert.KernelIdeal Cert.KernelIdeal.Gen Idealize.ShloMosaic Idealize.ShloMosaic.TcCoe Idealize.SL.Sem
open Idealize.ShloMosaic.ValueIdx
open Idealize.ShloMosaic.Pipeline (Dat)

/-! ## One block product at an entry -/

theorem hz2 : (![0, 0] : Fin 2 → Nat) = fun _ => 0 := funext fun a => by fin_cases a <;> rfl

/-- The left operand of the block product is read in the row of the entry. -/
theorem lhs2_row (i : S1000x128.Idx) (q : dot_S1000x128_S128x128_S1000x128_1_0_0_1_n_n.contr.Idx) :
    (dot_S1000x128_S128x128_S1000x128_1_0_0_1_n_n.lhsIdx i q 0).val = (i 0).val := by
  unfold DotDims.lhsIdx
  rw [dif_neg (show ¬(0 : Fin S1000x128.rank) ∈ dot_S1000x128_S128x128_S1000x128_1_0_0_1_n_n.lhsBatch by decide),
    dif_pos (show (0 : Fin S1000x128.rank) ∈ dot_S1000x128_S128x128_S1000x128_1_0_0_1_n_n.lhsNonContracting by decide)]
  rfl

/-- The right operand of the block product is read in the column of the entry. -/
theorem rhs2_col (i : S1000x128.Idx) (q : dot_S1000x128_S128x128_S1000x128_1_0_0_1_n_n.contr.Idx) :
    (dot_S1000x128_S128x128_S1000x128_1_0_0_1_n_n.rhsIdx i q 1).val = (i 1).val := by
  unfold DotDims.rhsIdx
  rw [dif_neg (show ¬(1 : Fin S128x128.rank) ∈ dot_S1000x128_S128x128_S1000x128_1_0_0_1_n_n.rhsBatch by decide),
    dif_pos (show (1 : Fin S128x128.rank) ∈ dot_S1000x128_S128x128_S1000x128_1_0_0_1_n_n.rhsNonContracting by decide)]
  rfl

/-- Entry (p, q) of what the body stores: the sum over k of the left block at (p, k) times the right block at (k, q). -/
theorem pay2_apply (x0 : Vec Ideal S1000x128 .f32) (x1 : Vec Ideal S128x128 .f32) (p : Fin 1000) (q : Fin 128) :
    k2_pay1 (F := Ideal) x0 x1 (ix2 p q) = ∑ k : Fin 128, x0 (ix2 p k) * x1 (ix2 k q) := by
  unfold k2_pay1
  refine (Ideal.matmul_constant_zero_apply dot_S1000x128_S128x128_S1000x128_1_0_0_1_n_n none _ _ (ix2 p q)).trans ?_
  rw [← Equiv.sum_comp (contrEquiv1 dot_S1000x128_S128x128_S1000x128_1_0_0_1_n_n 128 rfl rfl).symm]
  refine Finset.sum_congr rfl fun k _ => ?_
  have hk := contrEquiv1_symm_val dot_S1000x128_S128x128_S1000x128_1_0_0_1_n_n 128 rfl rfl k
  have el : dot_S1000x128_S128x128_S1000x128_1_0_0_1_n_n.lhsIdx (ix2 p q) ((contrEquiv1 dot_S1000x128_S128x128_S1000x128_1_0_0_1_n_n 128 rfl rfl).symm k) = ix2 p k :=
    funext fun a => Fin.ext (by
      match a with
      | ⟨0, _⟩ => exact lhs2_row _ _
      | ⟨1, _⟩ => exact (dot_S1000x128_S128x128_S1000x128_1_0_0_1_n_n.lhsIdx_val_of_single rfl (ix2 p q) _).trans hk)
  have er : dot_S1000x128_S128x128_S1000x128_1_0_0_1_n_n.rhsIdx (ix2 p q) ((contrEquiv1 dot_S1000x128_S128x128_S1000x128_1_0_0_1_n_n 128 rfl rfl).symm k) = ix2 k q :=
    funext fun a => Fin.ext (by
      match a with
      | ⟨0, _⟩ => exact (dot_S1000x128_S128x128_S1000x128_1_0_0_1_n_n.rhsIdx_val_of_single rfl (ix2 p q) _).trans hk
      | ⟨1, _⟩ => exact rhs2_col _ _)
  rw [el, er]
  show shapeCast S1000x128 x0 shapeCasts_S1000x128_S1000x128 (ix2 p k) * x1 (ix2 k q) = _
  rw [shapeCast_self]

/-- A block product whose left block is rows 1000 t … of `A` and whose right block is `B`, at an entry, is the
    matrix product of `A` and `B` at the entry 1000 t rows further down. -/
theorem point2 (X0 : Vec Ideal S1000x128 .f32) (X1 : Vec Ideal S128x128 .f32)
    (A : S10000x128.Idx → EReal) (B : S128x128.Idx → EReal) (t : Nat)
    (h0 : ∀ (x : S1000x128.Idx) (k : S10000x128.Idx), (k 0).val = t * 1000 + (x 0).val → (k 1).val = (x 1).val → X0 x = A k)
    (h1 : ∀ x : S128x128.Idx, X1 x = B x)
    (j : S1000x128.Idx) (i : S10000x128.Idx) (hi0 : (i 0).val = t * 1000 + (j 0).val) (hi1 : (i 1).val = (j 1).val) :
    k2_pay1 (F := Ideal) X0 X1 j = mm 10000 128 128 A B i := by
  obtain ⟨p, q, rfl⟩ : ∃ (p : Fin 1000) (q : Fin 128), j = ix2 p q := ⟨j 0, j 1, eq_ix2 j⟩
  obtain ⟨r, s, rfl⟩ : ∃ (r : Fin 10000) (s : Fin 128), i = ix2 r s := ⟨i 0, i 1, eq_ix2 i⟩
  have hs : s = q := Fin.ext hi1
  subst hs
  rw [pay2_apply, mm_apply]
  refine Finset.sum_congr rfl fun k _ => ?_
  rw [h0 (ix2 p k) (ix2 r k) hi0 rfl, h1 (ix2 k s)]

/-! ## The blocks of the three windows -/

section Region
variable (V : (c : Dev nD) → (b : Ref sig .tc) → Buf (Elt Ideal) ((c : Thread nD τ).loc b))

/-- The block indices over the grid: the left array and the result move down one block of rows per point, the
    right array stays. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left window's block at point `t` is rows 1000 t … 1000 t + 999 of the left array. -/
theorem blk2_left (c : Dev nD) (t : Fin cfg2.N) (x : S1000x128.Idx) (k : S10000x128.Idx)
    (hk0 : (k 0).val = t.val * 1000 + (x 0).val) (hk1 : (k 1).val = (x 1).val) :
    (iblk2 V c 0 t : Vec Ideal S1000x128 .f32) x = (V c (Pipeline.arrRef spec2 0) : S10000x128.Idx → EReal) k := by
  obtain ⟨e0, e1, -, -, -, -⟩ := idx_facts2 t
  show (V c (Pipeline.arrRef spec2 0) : S10000x128.Idx → EReal) (((cfg2.win 0).blk t).view.emb x) = _
  refine congrArg _ (funext fun a => Fin.ext ?_)
  match a with
  | ⟨0, _⟩ => show win2_0.index t (0 : Fin 2) * 1000 + 1 * (x 0).val = (k 0).val; rw [e0, hk0]; omega
  | ⟨1, _⟩ => show win2_0.index t (1 : Fin 2) * 128 + 1 * (x 1).val = (k 1).val; rw [e1, hk1]; omega

/-- The right window's block at every point is the whole right array. -/
theorem blk2_right (c : Dev nD) (t : Fin cfg2.N) (x : S128x128.Idx) :
    (iblk2 V c 1 t : Vec Ideal S128x128 .f32) x = (V c (Pipeline.arrRef spec2 1) : S128x128.Idx → EReal) x := by
  obtain ⟨-, -, e2, e3, -, -⟩ := idx_facts2 t
  show (V c (Pipeline.arrRef spec2 1) : S128x128.Idx → EReal) (((cfg2.win 1).blk t).view.emb x) = _
  refine congrArg _ (funext fun a => Fin.ext ?_)
  match a with
  | ⟨0, _⟩ => show win2_1.index t (0 : Fin 2) * 128 + 1 * (x 0).val = (x 0).val; rw [e2]; omega
  | ⟨1, _⟩ => show win2_1.index t (1 : Fin 2) * 128 + 1 * (x 1).val = (x 1).val; rw [e3]; omega

/-! ## What a point writes back, and the whole result -/

/-- What point `t` writes back is block `t` of the matrix product of the arrays the region starts from. -/
theorem flushed2_eq (c : Dev nD) (t : Fin cfg2.N) :
    (dat2 (F := Ideal) V c).flushed 2 t = ((cfg2.win 2).blk t).view.read (Elt Ideal)
      (mm 10000 128 128 (V c (Pipeline.arrRef spec2 0)) (V c (Pipeline.arrRef spec2 1))) := by
  show (cfg2.win 2).cut (grid2.coords t) ((dat2 (F := Ideal) V c).after 2 t) = _
  rw [after2_2]
  unfold out2_2
  rw [View.canon_unit_zero hz2]
  simp only [View.ld_unit_zero (S := S1000x128) hz2, View.ld_unit_zero (S := S128x128) hz2]
  obtain ⟨-, -, -, -, e4, e5⟩ := idx_facts2 t
  funext j
  refine point2 (iblk2 V c 0 t) (iblk2 V c 1 t) (V c (Pipeline.arrRef spec2 0)) (V c (Pipeline.arrRef spec2 1)) t.val
    (blk2_left V c t) (blk2_right V c t) j (((cfg2.win 2).blk t).view.emb j) ?_ ?_
  · show win2_2.index t (0 : Fin 2) * 1000 + 1 * (j 0).val = t.val * 1000 + (j 0).val
    rw [e4]; omega
  · show win2_2.index t (1 : Fin 2) * 128 + 1 * (j 1).val = (j 1).val
    rw [e5]; omega

/-- An entry of the result is in point `t`'s block iff each coordinate is in the block's range on its axis. -/
theorem mem_blk2 (t : Fin cfg2.N) (i : S10000x128.Idx) :
    i ∈ ((cfg2.win 2).blk t).view.set ↔ ∀ a : Fin 2, win2_2.index t a * S1000x128.size a ≤ (i a).val ∧ (i a).val < win2_2.index t a * S1000x128.size a + S1000x128.size a := by
  show i ∈ ((View.whole main_v86).slice (win2_2.rect t)).set ↔ _
  rw [View.set_slice_whole, Rect.mem_set_unit]
  exact Iff.rfl

/-- Row r of the result is in the block of point r / 1000. -/
theorem cover2 (i : S10000x128.Idx) :
    ∃ t : Fin cfg2.N, (cfg2.win 2).flush t = true ∧ i ∈ ((cfg2.win 2).blk t).view.set := by
  have hi0 : (i 0).val < 10000 := (i 0).isLt
  have hi1 : (i 1).val < 128 := (i 1).isLt
  have hN : cfg2.N = 10 := N_2
  have hlt : (i 0).val / 1000 < cfg2.N := by rw [hN]; omega
  refine ⟨⟨(i 0).val / 1000, hlt⟩, flush2_2 _, ?_⟩
  obtain ⟨-, -, -, -, e4, e5⟩ := idx_facts2 ⟨(i 0).val / 1000, hlt⟩
  rw [mem_blk2]
  intro a
  match a with
  | ⟨0, _⟩ =>
    show win2_2.index ⟨(i 0).val / 1000, hlt⟩ (0 : Fin 2) * 1000 ≤ (i 0).val ∧ (i 0).val < win2_2.index ⟨(i 0).val / 1000, hlt⟩ (0 : Fin 2) * 1000 + 1000
    rw [e4]; show (i 0).val / 1000 * 1000 ≤ (i 0).val ∧ (i 0).val < (i 0).val / 1000 * 1000 + 1000; omega
  | ⟨1, _⟩ =>
    show win2_2.index ⟨(i 0).val / 1000, hlt⟩ (1 : Fin 2) * 128 ≤ (i 1).val ∧ (i 1).val < win2_2.index ⟨(i 0).val / 1000, hlt⟩ (1 : Fin 2) * 128 + 128
    rw [e5]; omega

/-- The result array after the region is the matrix product of the two arrays the region starts from. -/
theorem final2 (c : Dev nD) :
    (Cert.KernelIdeal.Gen.dat2 (F := Ideal) V c).arrAt 2 Cert.KernelIdeal.cfg2.N
      = mm 10000 128 128 (V c (Pipeline.arrRef spec2 0)) (V c (Pipeline.arrRef spec2 1)) :=
  (dat2 (F := Ideal) V c).arrAt_eq_of_cover 2 _ (fun t _ => flushed2_eq V c t) cover2

end Region

end Cert.GraphAE

end
-- ==== Proof.KLayer3.lean ====
/-
  Graph-convolution layer 3 of the idealized kernel, project first: region 2 multiplies the layer's input rows by the
  weight, block of 1000 rows by block — as a whole array, the matrix product —, then the host operations aggregate
  along the edges (gather the source rows, scale by the edge coefficient, scatter-add into the destination rows, add
  the self term), add the bias and apply the rectifier: operation for operation the reference's layer, over the
  coefficients computed once before region 0.
-/
import proofs.«169992_j3745211482439_2_alg».proof.Proof.Gen.KernelIdeal.Frame
import proofs.«169992_j3745211482439_2_alg».proof.Proof.RefSpec
import proofs.«169992_j3745211482439_2_alg».proof.Proof.Spec
import proofs.«169992_j3745211482439_2_alg».proof.Proof.RefMatmul
import proofs.«169992_j3745211482439_2_alg».proof.Proof.Region2
import proofs.«169992_j3745211482439_2_alg».proof.Proof.KKeepEdges
import proofs.«169992_j3745211482439_2_alg».proof.Proof.KKeepArgs
import proofs.«169992_j3745211482439_2_alg».proof.Proof.KGraph
import proofs.«169992_j3745211482439_2_alg».proof.Proof.KLayer2

-- membership in a rectangle of production extents (`View.cover_of_tiled`): the elaborator's structural look
-- recurses once per coordinate of the long axes
set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.GraphAE

open Cert.KernelIdeal Cert.KernelIdeal.Gen

variable (m : (ℓ : Loc nD τ sig) → Buf (Elt Ideal) ℓ) (ρ : Dev nD → PrngReg)

/-- Region 2's output array is the product of the layer's input rows with its weight. -/
theorem mm3_W8 (c : Dev nD) : W8 m ρ c (Proc.devRef .tc main_v86) = mm 10000 128 128 (zS (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6)) := by
  refine (W8_arr m ρ c 2).trans ?_
  rw [final2 (V7 m ρ) c]
  show mm 10000 128 128 (W7 m ρ c (Proc.devRef .tc main_v85)) (W7 m ρ c (Proc.devRef .tc main_arg6)) = _
  rw [h2_W7 m ρ c, keep_arg6_0_7 m ρ c]

/-- After the aggregation, the bias and the rectifier that follow region 2, the layer's output is the reference's. -/
theorem h3_W10 (c : Dev nD) : W10 m ρ c (Proc.devRef .tc main_v112) = d1S (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps3_1 (StableHlo.after hostOps3 (W8 m ρ c)) (Proc.devRef .tc main_v112) = _
  after_results_simp
  rw [keep_v1_1_8 m ρ c, keep_v3_1_8 m ρ c, keep_v30_1_8 m ρ c, keep_v31_1_8 m ρ c, keep_arg7_0_8 m ρ c,
    src_W1 m ρ c, dst_W1 m ρ c, coef_W1 m ρ c, selfw_W1 m ρ c, mm3_W8 m ρ c, ← dot_128x128_eq_mm]
  rfl

end Cert.GraphAE

end
-- ==== Proof.GatherScatter.lean ====
/-
  The graph aggregation's two index operations, read at one entry.

  Every layer gathers rows of a node array along the edges and adds the gathered rows back into a node array.
  The edge ends are arbitrary signed 32-bit words. A gather CLAMPS its word into the node range: edge `e` reads
  row `row idx e`, the word at `(e, 0)` read signed and brought into `[0, 9999]`. A scatter-add DROPS an update
  whose word is out of range: edge `e` lands on row `land idx e`, which is `some i` exactly when the signed word is
  `i` with `0 ≤ i < 10000`, and `none` otherwise. Both are defined once from the word and serve every row width.

  * gather: entry `(e, k)` of the gathered array is entry `(row idx e, k)` of the operand (for a flat operand,
    entry `e` is the operand's entry `row idx e`);
  * scatter-add: entry `(i, k)` of the result is the operand's entry plus the sum, over the edges `e` that land
    on row `i`, of the update's entry `(e, k)` — the defining sum over the update indices `(e, k')` landing on
    `(i, k)`, re-indexed through the bijection that fixes `k' = k`.

  The statements are proved once for any number of nodes, edges and columns, and then read off for the
  dimension records of the two programs.
-/
import proofs.«169992_j3745211482439_2_alg».proof.KernelIdeal
import proofs.«169992_j3745211482439_2_alg».proof.ReferenceIdeal
import Idealize.ShloMosaic.PureOps.Ideal
import Idealize.ShloMosaic.Lib.ValueIdx

noncomputable section

open scoped BigOperators

namespace Cert.GraphAE

open Idealize.ShloMosaic Idealize.ShloMosaic.ValueIdx

/-! ## The clamped row and the landing row, for any sizes -/

/-- The row a gather reads for edge `e`: the word at `(e, 0)`, read signed, clamped into `[0, N − 1]`. -/
def rowG (N : Nat) (hN : 0 < N) {E w : Nat} (idx : IVec ⟨2, ![E, 1]⟩ w) (e : Fin E) : Fin N :=
  ⟨min (idx (ix2 e (0 : Fin 1))).toInt.toNat (N - 1), by omega⟩

/-- The row a scatter update of edge `e` lands on: the word at `(e, 0)`, read signed, when it lies in `[0, N)`;
    none otherwise (the update is dropped). -/
def landG (N : Nat) {E w : Nat} (idx : IVec ⟨2, ![E, 1]⟩ w) (e : Fin E) : Option (Fin N) :=
  if h : 0 ≤ (idx (ix2 e (0 : Fin 1))).toInt ∧ (idx (ix2 e (0 : Fin 1))).toInt < (N : Int) then
    some ⟨(idx (ix2 e (0 : Fin 1))).toInt.toNat, by omega⟩
  else none

/-- An axis is kept exactly when it is not one of the listed axes. -/
theorem mem_kept {s : Shape} (axes : List (Fin s.rank)) (a : Fin s.rank) : a ∈ s.kept axes ↔ a ∉ axes := by
  simp [Shape.kept, List.mem_filter, List.mem_finRange]

/-- Two rank-2 indices are equal exactly when their coordinates are. -/
theorem ix2_inj {n0 n1 : Nat} (a a' : Fin n0) (b b' : Fin n1) : ix2 a b = ix2 a' b' ↔ a = a' ∧ b = b' := by
  constructor
  · intro h
    exact ⟨congrFun h 0, congrFun h 1⟩
  · rintro ⟨rfl, rfl⟩; rfl

/-- Two rank-1 indices are equal exactly when their coordinates are. -/
theorem ix1_inj {n : Nat} (a a' : Fin n) : ix1 a = ix1 a' ↔ a = a' := by
  constructor
  · intro h
    exact congrFun h 0
  · rintro rfl; rfl

/-- A sum over a rank-1 index set is the sum over its coordinate. -/
theorem sum_idx1 {M : Type*} [AddCommMonoid M] {n : Nat} (f : (⟨1, ![n]⟩ : Shape).Idx → M) :
    ∑ i, f i = ∑ a : Fin n, f (ix1 a) := by
  let eqv : (⟨1, ![n]⟩ : Shape).Idx ≃ Fin n :=
    { toFun := fun i => i 0, invFun := fun a => ix1 a, left_inv := fun i => (eq_ix1 i).symm, right_inv := fun _ => rfl }
  rw [← Equiv.sum_comp eqv.symm f]
  rfl

/-! ## Gather of rows: operand `[N, C]`, start indices `[E, 1]`, result `[E, C]` -/

/-- The dimension numbers of a row gather: one offset axis (the columns), the row axis collapsed and indexed. -/
abbrev rowsDims (N E C : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Entry `(e, k)` of a row gather is entry `(rowG e, k)` of the operand. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowsDims N E C wf) x idx (ix2 e k) = x (ix2 (rowG N hN idx e) k) := by
  have h10 : ¬ (1 : Fin 2) = 0 := by decide
  -- the row axis: the clamped start, no batching coordinate, no offset coordinate
  have h0 : (rowsDims N E C wf).start (ix2 e k) idx 0 + (rowsDims N E C wf).batchCoord (ix2 e k) 0
      + (rowsDims N E C wf).offCoord (ix2 e k) 0 = min (idx (ix2 e (0 : Fin 1))).toInt.toNat (N - 1) := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N E C wf).startIndexMap from List.mem_singleton.mpr rfl)]
    have hsi : (rowsDims N E C wf).siIdx (ix2 e k) ⟨List.idxOf (0 : Fin 2) (rowsDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  -- the column axis: start 0, no batching coordinate, the offset coordinate k
  have h1 : (rowsDims N E C wf).start (ix2 e k) idx 1 + (rowsDims N E C wf).batchCoord (ix2 e k) 1
      + (rowsDims N E C wf).offCoord (ix2 e k) 1 = k.val := by
    rw [GatherDims.batchCoord_eq_zero _ _ _ List.not_mem_nil]
    unfold GatherDims.start
    rw [dif_neg (show ¬ (1 : Fin 2) ∈ (rowsDims N E C wf).startIndexMap from
      fun h => h10 (List.mem_singleton.mp h))]
    simp only [Nat.add_zero, Nat.zero_add]
    unfold GatherDims.offCoord
    rw [dif_pos (show (1 : Fin 2) ∈ (rowsDims N E C wf).sKept from (GatherDims.mem_sKept _ _).mpr
      ⟨fun h => h10 (List.mem_singleton.mp h), List.not_mem_nil⟩)]
    rfl
  unfold Host.gather
  congr 1
  funext a
  refine Fin.ext ?_
  match a with
  | ⟨0, _⟩ => exact h0
  | ⟨1, _⟩ => exact h1

/-! ## Gather of entries of a flat operand: operand `[N]`, start indices `[E, 1]`, result `[E]` -/

/-- The dimension numbers of an entry gather: no offset axis, the one operand axis collapsed and indexed. -/
abbrev entriesDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry `e` of an entry gather is entry `rowG e` of the operand. -/
theorem gather_entries_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (entriesDims N E wf) x idx (ix1 e) = x (ix1 (rowG N hN idx e)) := by
  unfold Host.gather
  congr 1
  funext a
  obtain rfl : a = 0 := Subsingleton.elim _ _
  refine Fin.ext ?_
  show (entriesDims N E wf).start (ix1 e) idx 0 + (entriesDims N E wf).batchCoord (ix1 e) 0
    + (entriesDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entriesDims N E wf).startIndexMap from List.mem_singleton.mpr rfl)]
  have hsi : (entriesDims N E wf).siIdx (ix1 e) ⟨List.idxOf (0 : Fin 1) (entriesDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## Scatter-add of rows: operand `[N, C]`, scatter indices `[E, 1]`, updates `[E, C]` -/

/-- The dimension numbers of a row scatter: one window axis (the columns), the row axis inserted and indexed. -/
abbrev rowsScatter (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Update `(e, k)` of a row scatter lands on `(i, k)` when edge `e` lands on row `i`, and nowhere when it lands
    on no row: the column is inside the operand always. -/
theorem resultIdx_rows {N E C w : Nat}
    (wf : ScatterDims.WF ⟨2, ![N, C]⟩ ⟨2, ![E, 1]⟩ ⟨2, ![E, C]⟩ [1] [0] [0] 1)
    (idx : IVec ⟨2, ![E, 1]⟩ w) (e : Fin E) (k : Fin C) :
    (rowsScatter N E C wf).resultIdx? (ix2 e k) idx = (landG N idx e).map (fun i => ix2 i k) := by
  have h10 : ¬ (1 : Fin 2) = 0 := by decide
  have hs0 : (rowsScatter N E C wf).start (ix2 e k) idx 0 = (idx (ix2 e (0 : Fin 1))).toInt := by
    unfold ScatterDims.start
    rw [dif_pos (show (0 : Fin 2) ∈ (rowsScatter N E C wf).scatterDimsToOperandDims from List.mem_singleton.mpr rfl)]
    have hsi : (rowsScatter N E C wf).siIdx (ix2 e k)
        ⟨List.idxOf (0 : Fin 2) (rowsScatter N E C wf).scatterDimsToOperandDims,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hs1 : (rowsScatter N E C wf).start (ix2 e k) idx 1 = 0 := by
    unfold ScatterDims.start
    rw [dif_neg (show ¬ (1 : Fin 2) ∈ (rowsScatter N E C wf).scatterDimsToOperandDims from
      fun h => h10 (List.mem_singleton.mp h))]
  have hw0 : (rowsScatter N E C wf).window (ix2 e k) 0 = 0 := by
    unfold ScatterDims.window
    rw [dif_neg (show ¬ (0 : Fin 2) ∈ (rowsScatter N E C wf).sKept from
      fun h => (mem_kept _ _).mp h (List.mem_singleton.mpr rfl))]
  have hw1 : (rowsScatter N E C wf).window (ix2 e k) 1 = k.val := by
    unfold ScatterDims.window
    rw [dif_pos (show (1 : Fin 2) ∈ (rowsScatter N E C wf).sKept from
      (mem_kept _ _).mpr (fun h => h10 (List.mem_singleton.mp h)))]
    rfl
  unfold ScatterDims.resultIdx? landG
  by_cases h : 0 ≤ (idx (ix2 e (0 : Fin 1))).toInt ∧ (idx (ix2 e (0 : Fin 1))).toInt < (N : Int)
  · have hall : ∀ a, 0 ≤ (rowsScatter N E C wf).start (ix2 e k) idx a + (rowsScatter N E C wf).window (ix2 e k) a ∧
        (rowsScatter N E C wf).start (ix2 e k) idx a + (rowsScatter N E C wf).window (ix2 e k) a
          < (⟨2, ![N, C]⟩ : Shape).size a := by
      intro a
      match a with
      | ⟨0, _⟩ =>
        show 0 ≤ (rowsScatter N E C wf).start (ix2 e k) idx 0 + (rowsScatter N E C wf).window (ix2 e k) 0 ∧
          (rowsScatter N E C wf).start (ix2 e k) idx 0 + (rowsScatter N E C wf).window (ix2 e k) 0 < (N : Int)
        rw [hs0, hw0]; simpa using h
      | ⟨1, _⟩ =>
        show 0 ≤ (rowsScatter N E C wf).start (ix2 e k) idx 1 + (rowsScatter N E C wf).window (ix2 e k) 1 ∧
          (rowsScatter N E C wf).start (ix2 e k) idx 1 + (rowsScatter N E C wf).window (ix2 e k) 1 < (C : Int)
        rw [hs1, hw1]; have := k.isLt; omega
    rw [dif_pos hall, dif_pos h]
    show some _ = some _
    congr 1
    funext a
    refine Fin.ext ?_
    match a with
    | ⟨0, _⟩ =>
      show ((rowsScatter N E C wf).start (ix2 e k) idx 0 + (rowsScatter N E C wf).window (ix2 e k) 0).toNat = _
      rw [hs0, hw0]; simp
    | ⟨1, _⟩ =>
      show ((rowsScatter N E C wf).start (ix2 e k) idx 1 + (rowsScatter N E C wf).window (ix2 e k) 1).toNat = _
      rw [hs1, hw1]; simp
  · rw [dif_neg h, dif_neg]
    · rfl
    · intro hall
      have h0 := hall 0
      change 0 ≤ (rowsScatter N E C wf).start (ix2 e k) idx 0 + (rowsScatter N E C wf).window (ix2 e k) 0 ∧
          (rowsScatter N E C wf).start (ix2 e k) idx 0 + (rowsScatter N E C wf).window (ix2 e k) 0 < (N : Int) at h0
      rw [hs0, hw0] at h0
      exact h (by simpa using h0)

/-- Entry `(i, k)` of a row scatter-add: the operand's entry plus the sum over the edges landing on row `i` of the
    update's entry in column `k`. -/
theorem scatterAdd_rows_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (u : (⟨2, ![E, C]⟩ : Shape).Idx → EReal) (i : Fin N) (k : Fin C) :
    Ideal.hostScatterAdd (rowsScatter N E C wf) x idx u (ix2 i k)
      = x (ix2 i k) + ∑ e ∈ Finset.univ.filter (fun e : Fin E => landG N idx e = some i), u (ix2 e k) := by
  unfold Ideal.hostScatterAdd
  congr 1
  rw [Finset.sum_filter, Finset.sum_filter, sum_idx2]
  refine Finset.sum_congr rfl fun e _ => ?_
  simp only [resultIdx_rows]
  cases hl : landG N idx e with
  | none => simp
  | some i' =>
    simp only [Option.map_some, Option.some.injEq, ix2_inj]
    by_cases hi : i' = i
    · subst hi; simp
    · simp [hi]

/-! ## Scatter-add of entries: operand `[N]`, scatter indices `[E, 1]`, updates `[E]` -/

/-- The dimension numbers of an entry scatter: no window axis, the one operand axis inserted and indexed. -/
abbrev entriesScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Update `e` of an entry scatter lands on entry `i` when edge `e` lands on row `i`, and nowhere otherwise. -/
theorem resultIdx_entries {N E w : Nat}
    (wf : ScatterDims.WF ⟨1, ![N]⟩ ⟨2, ![E, 1]⟩ ⟨1, ![E]⟩ [] [0] [0] 1)
    (idx : IVec ⟨2, ![E, 1]⟩ w) (e : Fin E) :
    (entriesScatter N E wf).resultIdx? (ix1 e) idx = (landG N idx e).map (fun i => ix1 i) := by
  have hs0 : (entriesScatter N E wf).start (ix1 e) idx 0 = (idx (ix2 e (0 : Fin 1))).toInt := by
    unfold ScatterDims.start
    rw [dif_pos (show (0 : Fin 1) ∈ (entriesScatter N E wf).scatterDimsToOperandDims from List.mem_singleton.mpr rfl)]
    have hsi : (entriesScatter N E wf).siIdx (ix1 e)
        ⟨List.idxOf (0 : Fin 1) (entriesScatter N E wf).scatterDimsToOperandDims,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw0 : (entriesScatter N E wf).window (ix1 e) 0 = 0 := by
    unfold ScatterDims.window
    rw [dif_neg (show ¬ (0 : Fin 1) ∈ (entriesScatter N E wf).sKept from
      fun h => (mem_kept _ _).mp h (List.mem_singleton.mpr rfl))]
  unfold ScatterDims.resultIdx? landG
  by_cases h : 0 ≤ (idx (ix2 e (0 : Fin 1))).toInt ∧ (idx (ix2 e (0 : Fin 1))).toInt < (N : Int)
  · have hall : ∀ a, 0 ≤ (entriesScatter N E wf).start (ix1 e) idx a + (entriesScatter N E wf).window (ix1 e) a ∧
        (entriesScatter N E wf).start (ix1 e) idx a + (entriesScatter N E wf).window (ix1 e) a
          < (⟨1, ![N]⟩ : Shape).size a := by
      intro a
      obtain rfl : a = 0 := Subsingleton.elim _ _
      show 0 ≤ (entriesScatter N E wf).start (ix1 e) idx 0 + (entriesScatter N E wf).window (ix1 e) 0 ∧
        (entriesScatter N E wf).start (ix1 e) idx 0 + (entriesScatter N E wf).window (ix1 e) 0 < (N : Int)
      rw [hs0, hw0]; simpa using h
    rw [dif_pos hall, dif_pos h]
    show some _ = some _
    congr 1
    funext a
    obtain rfl : a = 0 := Subsingleton.elim _ _
    refine Fin.ext ?_
    show ((entriesScatter N E wf).start (ix1 e) idx 0 + (entriesScatter N E wf).window (ix1 e) 0).toNat
      = (idx (ix2 e (0 : Fin 1))).toInt.toNat
    rw [hs0, hw0]; simp
  · rw [dif_neg h, dif_neg]
    · rfl
    · intro hall
      have h0 := hall 0
      change 0 ≤ (entriesScatter N E wf).start (ix1 e) idx 0 + (entriesScatter N E wf).window (ix1 e) 0 ∧
          (entriesScatter N E wf).start (ix1 e) idx 0 + (entriesScatter N E wf).window (ix1 e) 0 < (N : Int) at h0
      rw [hs0, hw0] at h0
      exact h (by simpa using h0)

/-- Entry `i` of an entry scatter-add: the operand's entry plus the sum over the edges landing on row `i` of the
    update's entry. -/
theorem scatterAdd_entries_apply {N E w : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w)
    (u : (⟨1, ![E]⟩ : Shape).Idx → EReal) (i : Fin N) :
    Ideal.hostScatterAdd (entriesScatter N E wf) x idx u (ix1 i)
      = x (ix1 i) + ∑ e ∈ Finset.univ.filter (fun e : Fin E => landG N idx e = some i), u (ix1 e) := by
  unfold Ideal.hostScatterAdd
  congr 1
  rw [Finset.sum_filter, Finset.sum_filter, sum_idx1]
  refine Finset.sum_congr rfl fun e _ => ?_
  simp only [resultIdx_entries]
  cases hl : landG N idx e with
  | none => simp
  | some i' =>
    simp only [Option.map_some, Option.some.injEq, ix1_inj]

/-! ## The graph's own sizes: 10000 nodes, 320000 edges -/

/-- The row the gather reads for edge `e`: the signed word at `(e, 0)` clamped into `[0, 9999]`. -/
def row (idx : IVec ⟨2, ![320000, 1]⟩ 32) (e : Fin 320000) : Fin 10000 :=
  ⟨min (idx (ix2 e (0 : Fin 1))).toInt.toNat (10000 - 1), by omega⟩

/-- The row the scatter update of edge `e` lands on: the signed word at `(e, 0)` when it lies in `[0, 10000)`,
    none otherwise. -/
def land (idx : IVec ⟨2, ![320000, 1]⟩ 32) (e : Fin 320000) : Option (Fin 10000) :=
  if h : 0 ≤ (idx (ix2 e (0 : Fin 1))).toInt ∧ (idx (ix2 e (0 : Fin 1))).toInt < ((10000 : Nat) : Int) then
    some ⟨(idx (ix2 e (0 : Fin 1))).toInt.toNat, by omega⟩
  else none

theorem row_eq (idx : IVec ⟨2, ![320000, 1]⟩ 32) (e : Fin 320000) : row idx e = rowG 10000 (by decide) idx e := rfl
theorem land_eq (idx : IVec ⟨2, ![320000, 1]⟩ 32) (e : Fin 320000) : land idx e = landG 10000 idx e := rfl

/-- Edge `e` lands on row `i` exactly when its signed word is `i`. -/
theorem land_eq_some_iff (idx : IVec ⟨2, ![320000, 1]⟩ 32) (e : Fin 320000) (i : Fin 10000) :
    land idx e = some i ↔ (idx (ix2 e (0 : Fin 1))).toInt = (i.val : Int) := by
  unfold land
  have hi := i.isLt
  split
  · rename_i h
    rw [Option.some.injEq, Fin.ext_iff]
    show (idx (ix2 e (0 : Fin 1))).toInt.toNat = i.val ↔ _
    omega
  · rename_i h
    constructor
    · intro h'; cases h'
    · intro h'; exact absurd ⟨by omega, by omega⟩ h

section Kernel
variable [Cert.KernelIdeal.Facts₀]

/-- The kernel program's gather of 128-wide rows at `(e, k)`. -/
theorem kernel_gather128_apply {α : Type} (x : Cert.KernelIdeal.S10000x128.Idx → α)
    (idx : IVec Cert.KernelIdeal.S320000x1 32) (e : Fin 320000) (k : Fin 128) :
    Host.gather Cert.KernelIdeal.gather_S10000x128_S320000x1_S320000x128_1_0_n_n_0_1_1128 x idx (ix2 e k)
      = x (ix2 (row idx e) k) :=
  gather_rows_apply (N := 10000) (E := 320000) (C := 128) (by decide)
    Cert.KernelIdeal.Facts₀.gather_S10000x128_S320000x1_S320000x128_1_0_n_n_0_1_1128_wf x idx e k

/-- The kernel program's gather of a flat node array at `e`. -/
theorem kernel_gather1_apply {α : Type} (x : Cert.KernelIdeal.S10000.Idx → α)
    (idx : IVec Cert.KernelIdeal.S320000x1 32) (e : Fin 320000) :
    Host.gather Cert.KernelIdeal.gather_S10000_S320000x1_S320000_n_0_n_n_0_1_1 x idx (ix1 e)
      = x (ix1 (row idx e)) :=
  gather_entries_apply (N := 10000) (E := 320000) (by decide)
    Cert.KernelIdeal.Facts₀.gather_S10000_S320000x1_S320000_n_0_n_n_0_1_1_wf x idx e

/-- The kernel program's scatter-add of 128-wide rows at `(i, k)`, over the extended reals. -/
theorem kernel_scatterAdd128_apply {φ : FTy} (x : FVec Ideal Cert.KernelIdeal.S10000x128 φ)
    (idx : IVec Cert.KernelIdeal.S320000x1 32) (u : FVec Ideal Cert.KernelIdeal.S320000x128 φ)
    (i : Fin 10000) (k : Fin 128) :
    Host.scatterAdd (F := Ideal) Cert.KernelIdeal.scatter_S10000x128_S320000x1_S320000x128_1_0_0_1 x idx u (ix2 i k)
      = x (ix2 i k) + ∑ e ∈ Finset.univ.filter (fun e : Fin 320000 => land idx e = some i), u (ix2 e k) :=
  scatterAdd_rows_apply (N := 10000) (E := 320000) (C := 128)
    Cert.KernelIdeal.Facts₀.scatter_S10000x128_S320000x1_S320000x128_1_0_0_1_wf x idx u i k

/-- The kernel program's scatter-add into a flat node array at `i`, over the extended reals. -/
theorem kernel_scatterAdd1_apply {φ : FTy} (x : FVec Ideal Cert.KernelIdeal.S10000 φ)
    (idx : IVec Cert.KernelIdeal.S320000x1 32) (u : FVec Ideal Cert.KernelIdeal.S320000 φ) (i : Fin 10000) :
    Host.scatterAdd (F := Ideal) Cert.KernelIdeal.scatter_S10000_S320000x1_S320000_n_0_0_1 x idx u (ix1 i)
      = x (ix1 i) + ∑ e ∈ Finset.univ.filter (fun e : Fin 320000 => land idx e = some i), u (ix1 e) :=
  scatterAdd_entries_apply (N := 10000) (E := 320000)
    Cert.KernelIdeal.Facts₀.scatter_S10000_S320000x1_S320000_n_0_0_1_wf x idx u i

end Kernel

section Reference
variable [Cert.ReferenceIdeal.Facts₀]

/-- The reference program's gather of 128-wide rows at `(e, k)`. -/
theorem reference_gather128_apply {α : Type} (x : Cert.ReferenceIdeal.S10000x128.Idx → α)
    (idx : IVec Cert.ReferenceIdeal.S320000x1 32) (e : Fin 320000) (k : Fin 128) :
    Host.gather Cert.ReferenceIdeal.gather_S10000x128_S320000x1_S320000x128_1_0_n_n_0_1_1128 x idx (ix2 e k)
      = x (ix2 (row idx e) k) :=
  gather_rows_apply (N := 10000) (E := 320000) (C := 128) (by decide)
    Cert.ReferenceIdeal.Facts₀.gather_S10000x128_S320000x1_S320000x128_1_0_n_n_0_1_1128_wf x idx e k

/-- The reference program's gather of 512-wide rows at `(e, k)`. -/
theorem reference_gather512_apply {α : Type} (x : Cert.ReferenceIdeal.S10000x512.Idx → α)
    (idx : IVec Cert.ReferenceIdeal.S320000x1 32) (e : Fin 320000) (k : Fin 512) :
    Host.gather Cert.ReferenceIdeal.gather_S10000x512_S320000x1_S320000x512_1_0_n_n_0_1_1512 x idx (ix2 e k)
      = x (ix2 (row idx e) k) :=
  gather_rows_apply (N := 10000) (E := 320000) (C := 512) (by decide)
    Cert.ReferenceIdeal.Facts₀.gather_S10000x512_S320000x1_S320000x512_1_0_n_n_0_1_1512_wf x idx e k

/-- The reference program's gather of a flat node array at `e`. -/
theorem reference_gather1_apply {α : Type} (x : Cert.ReferenceIdeal.S10000.Idx → α)
    (idx : IVec Cert.ReferenceIdeal.S320000x1 32) (e : Fin 320000) :
    Host.gather Cert.ReferenceIdeal.gather_S10000_S320000x1_S320000_n_0_n_n_0_1_1 x idx (ix1 e)
      = x (ix1 (row idx e)) :=
  gather_entries_apply (N := 10000) (E := 320000) (by decide)
    Cert.ReferenceIdeal.Facts₀.gather_S10000_S320000x1_S320000_n_0_n_n_0_1_1_wf x idx e

/-- The reference program's scatter-add of 128-wide rows at `(i, k)`, over the extended reals. -/
theorem reference_scatterAdd128_apply {φ : FTy} (x : FVec Ideal Cert.ReferenceIdeal.S10000x128 φ)
    (idx : IVec Cert.ReferenceIdeal.S320000x1 32) (u : FVec Ideal Cert.ReferenceIdeal.S320000x128 φ)
    (i : Fin 10000) (k : Fin 128) :
    Host.scatterAdd (F := Ideal) Cert.ReferenceIdeal.scatter_S10000x128_S320000x1_S320000x128_1_0_0_1 x idx u (ix2 i k)
      = x (ix2 i k) + ∑ e ∈ Finset.univ.filter (fun e : Fin 320000 => land idx e = some i), u (ix2 e k) :=
  scatterAdd_rows_apply (N := 10000) (E := 320000) (C := 128)
    Cert.ReferenceIdeal.Facts₀.scatter_S10000x128_S320000x1_S320000x128_1_0_0_1_wf x idx u i k

/-- The reference program's scatter-add of 512-wide rows at `(i, k)`, over the extended reals. -/
theorem reference_scatterAdd512_apply {φ : FTy} (x : FVec Ideal Cert.ReferenceIdeal.S10000x512 φ)
    (idx : IVec Cert.ReferenceIdeal.S320000x1 32) (u : FVec Ideal Cert.ReferenceIdeal.S320000x512 φ)
    (i : Fin 10000) (k : Fin 512) :
    Host.scatterAdd (F := Ideal) Cert.ReferenceIdeal.scatter_S10000x512_S320000x1_S320000x512_1_0_0_1 x idx u (ix2 i k)
      = x (ix2 i k) + ∑ e ∈ Finset.univ.filter (fun e : Fin 320000 => land idx e = some i), u (ix2 e k) :=
  scatterAdd_rows_apply (N := 10000) (E := 320000) (C := 512)
    Cert.ReferenceIdeal.Facts₀.scatter_S10000x512_S320000x1_S320000x512_1_0_0_1_wf x idx u i k

/-- The reference program's scatter-add into a flat node array at `i`, over the extended reals. -/
theorem reference_scatterAdd1_apply {φ : FTy} (x : FVec Ideal Cert.ReferenceIdeal.S10000 φ)
    (idx : IVec Cert.ReferenceIdeal.S320000x1 32) (u : FVec Ideal Cert.ReferenceIdeal.S320000 φ) (i : Fin 10000) :
    Host.scatterAdd (F := Ideal) Cert.ReferenceIdeal.scatter_S10000_S320000x1_S320000_n_0_0_1 x idx u (ix1 i)
      = x (ix1 i) + ∑ e ∈ Finset.univ.filter (fun e : Fin 320000 => land idx e = some i), u (ix1 e) :=
  scatterAdd_entries_apply (N := 10000) (E := 320000)
    Cert.ReferenceIdeal.Facts₀.scatter_S10000_S320000x1_S320000_n_0_0_1_wf x idx u i

end Reference

end Cert.GraphAE

end
-- ==== Proof.LibAggregateExchange.lean ====
/-
  A matrix product moves across a weighted aggregation, over the extended reals.

  For every node the aggregation of a row array is a finite weighted sum of gathered rows plus a multiple of the
  node's own row. Multiplying the aggregated row by a weight column afterwards gives the same extended real as
  aggregating the products of the rows with that column: both are the same finite double sum, summed in the two
  orders. Multiplication of extended reals does not distribute over addition in general (an infinite factor
  against a sum of opposite signs), so the law is stated for data that are real numbers: every entry is the
  coercion of a real, and the identity is then the real one.
-/
import Mathlib

noncomputable section

open scoped BigOperators

namespace Cert.GraphAE

/-- A finite sum of coerced reals is the coercion of the real sum. -/
theorem coe_real_sum {ι : Type*} (T : Finset ι) (f : ι → ℝ) :
    (∑ i ∈ T, ((f i : ℝ) : EReal)) = ((∑ i ∈ T, f i : ℝ) : EReal) := by
  classical
  refine Finset.induction_on T ?_ ?_
  · simp
  · intro i T hi ih
    rw [Finset.sum_insert hi, Finset.sum_insert hi, ih, EReal.coe_add]

/-- The real identity behind the exchange: multiply the aggregated row by a weight column, or aggregate the
    products of the rows with that column. -/
theorem aggregate_exchange_real {E K : Type*} [Fintype K] (S : Finset E)
    (a : E → K → ℝ) (c : E → ℝ) (d : K → ℝ) (s : ℝ) (w : K → ℝ) :
    ∑ k, ((∑ e ∈ S, a e k * c e) + d k * s) * w k
      = (∑ e ∈ S, (∑ k, a e k * w k) * c e) + (∑ k, d k * w k) * s := by
  simp only [add_mul, Finset.sum_add_distrib, Finset.sum_mul]
  rw [Finset.sum_comm]
  congr 1
  · refine Finset.sum_congr rfl fun e _ => Finset.sum_congr rfl fun k _ => ?_
    ring
  · refine Finset.sum_congr rfl fun k _ => ?_
    ring

/-- THE EXCHANGE, for explicit real data: the product of the aggregated row (base `0`, plus the weighted sum over the
    edges in `S` of the gathered rows, plus the node's own row times `s`) with the weight column `w` is the
    aggregation (same base, same edges, same weights) of the products of the rows with `w`. -/
theorem aggregate_exchange {E K : Type*} [Fintype K] (S : Finset E)
    (a : E → K → ℝ) (c : E → ℝ) (d : K → ℝ) (s : ℝ) (w : K → ℝ) :
    ∑ k, ((0 + ∑ e ∈ S, ((a e k : ℝ) : EReal) * ((c e : ℝ) : EReal)) + ((d k : ℝ) : EReal) * ((s : ℝ) : EReal))
          * ((w k : ℝ) : EReal)
      = (0 + ∑ e ∈ S, (∑ k, ((a e k : ℝ) : EReal) * ((w k : ℝ) : EReal)) * ((c e : ℝ) : EReal))
          + (∑ k, ((d k : ℝ) : EReal) * ((w k : ℝ) : EReal)) * ((s : ℝ) : EReal) := by
  simp only [zero_add, ← EReal.coe_mul, coe_real_sum, ← EReal.coe_add]
  exact congrArg _ (aggregate_exchange_real S a c d s w)

/-- THE EXCHANGE, for extended-real data every entry of which is a real number: the same identity, with the
    realness of the gathered rows `A`, the edge weights `c`, the node's own row `D`, its weight `s` and the weight
    column `W` as hypotheses. -/
theorem aggregate_exchange_of_real {E K : Type*} [Fintype K] (S : Finset E)
    (A : E → K → EReal) (c : E → EReal) (D : K → EReal) (s : EReal) (W : K → EReal)
    (hA : ∀ e k, ∃ r : ℝ, A e k = (r : EReal)) (hc : ∀ e, ∃ r : ℝ, c e = (r : EReal))
    (hD : ∀ k, ∃ r : ℝ, D k = (r : EReal)) (hs : ∃ r : ℝ, s = (r : EReal))
    (hW : ∀ k, ∃ r : ℝ, W k = (r : EReal)) :
    ∑ k, ((0 + ∑ e ∈ S, A e k * c e) + D k * s) * W k
      = (0 + ∑ e ∈ S, (∑ k, A e k * W k) * c e) + (∑ k, D k * W k) * s := by
  choose a ha using hA
  choose c' hc' using hc
  choose d hd using hD
  obtain ⟨s', rfl⟩ := hs
  choose w hw using hW
  simp only [ha, hc', hd, hw]
  exact aggregate_exchange S a c' d s' w

end Cert.GraphAE

end
-- ==== Proof.LibRealEntries.lean ====
/-
  Families of extended reals all of whose members are real numbers (neither infinity), and what keeps that property:
  sums, products and maxima of two such families, re-indexing, finite sums (so matrix products, and a scatter that
  adds), and the reciprocal square root of a real number that is positive. A count of finitely many ones, plus one,
  is a real number at least one, so its reciprocal square root is real.
-/
import Idealize.ShloMosaic.PureOps.Ideal

noncomputable section

namespace Cert.GraphAE

open Idealize.ShloMosaic

/-! ## One extended real -/

/-- The sum of two real numbers, taken in the extended reals, is a real number. -/
theorem real_add {x y : EReal} (hx : ∃ a : ℝ, x = (a : EReal)) (hy : ∃ b : ℝ, y = (b : EReal)) :
    ∃ r : ℝ, x + y = (r : EReal) := by
  obtain ⟨a, rfl⟩ := hx
  obtain ⟨b, rfl⟩ := hy
  exact ⟨a + b, (EReal.coe_add a b).symm⟩

/-- The product of two real numbers, taken in the extended reals, is a real number. -/
theorem real_mul {x y : EReal} (hx : ∃ a : ℝ, x = (a : EReal)) (hy : ∃ b : ℝ, y = (b : EReal)) :
    ∃ r : ℝ, x * y = (r : EReal) := by
  obtain ⟨a, rfl⟩ := hx
  obtain ⟨b, rfl⟩ := hy
  exact ⟨a * b, (EReal.coe_mul a b).symm⟩

/-- The larger of two real numbers is a real number. -/
theorem real_max {x y : EReal} (hx : ∃ a : ℝ, x = (a : EReal)) (hy : ∃ b : ℝ, y = (b : EReal)) :
    ∃ r : ℝ, max x y = (r : EReal) := by
  rcases le_total x y with h | h
  · rw [max_eq_right h]; exact hy
  · rw [max_eq_left h]; exact hx

/-- Zero is a real number. -/
theorem real_zero : ∃ r : ℝ, (0 : EReal) = (r : EReal) := ⟨0, rfl⟩

/-- One is a real number. -/
theorem real_one : ∃ r : ℝ, (1 : EReal) = (r : EReal) := ⟨1, rfl⟩

/-- A real number cut off below at zero is a real number. -/
theorem real_max_zero {x : EReal} (hx : ∃ a : ℝ, x = (a : EReal)) : ∃ r : ℝ, max x 0 = (r : EReal) :=
  real_max hx real_zero

/-- A finite sum of real numbers embedded in the extended reals is the embedding of their sum. -/
theorem coe_sum {κ : Type*} (s : Finset κ) (g : κ → ℝ) :
    ∑ e ∈ s, ((g e : ℝ) : EReal) = ((∑ e ∈ s, g e : ℝ) : EReal) := by
  classical
  induction s using Finset.induction_on with
  | empty => simp
  | insert a s ha ih => rw [Finset.sum_insert ha, Finset.sum_insert ha, ih, EReal.coe_add]

/-- A finite sum of extended reals each of which is a real number is a real number. -/
theorem real_sum {κ : Type*} (s : Finset κ) (f : κ → EReal) (h : ∀ e ∈ s, ∃ r : ℝ, f e = (r : EReal)) :
    ∃ r : ℝ, ∑ e ∈ s, f e = (r : EReal) := by
  classical
  induction s using Finset.induction_on with
  | empty => exact ⟨0, by simp⟩
  | insert a s ha ih =>
    rw [Finset.sum_insert ha]
    exact real_add (h a (Finset.mem_insert_self a s)) (ih fun e he => h e (Finset.mem_insert_of_mem he))

/-! ## Families -/

/-- Every member of the family `f` is a real number. -/
def AllReal {ι : Type*} (f : ι → EReal) : Prop := ∀ i, ∃ r : ℝ, f i = (r : EReal)

/-- A family all of whose members are real is the embedding of a family of real numbers. -/
theorem AllReal.exists_eq_coe {ι : Type*} {f : ι → EReal} (hf : AllReal f) : ∃ g : ι → ℝ, f = fun i => (g i : EReal) :=
  ⟨fun i => (hf i).choose, funext fun i => (hf i).choose_spec⟩

/-- The embedding of a family of real numbers has only real members. -/
theorem allReal_coe {ι : Type*} (g : ι → ℝ) : AllReal (fun i => (g i : EReal)) := fun i => ⟨g i, rfl⟩

/-- A constant family at a real number has only real members. -/
theorem allReal_const {ι : Type*} (r : ℝ) : AllReal (fun _ : ι => (r : EReal)) := fun _ => ⟨r, rfl⟩

/-- The constant family at zero has only real members. -/
theorem allReal_zero {ι : Type*} : AllReal (fun _ : ι => (0 : EReal)) := fun _ => real_zero

/-- The constant family at one has only real members. -/
theorem allReal_one {ι : Type*} : AllReal (fun _ : ι => (1 : EReal)) := fun _ => real_one

/-- Re-indexing keeps every member real: the members of `fun j => f (g j)` are members of `f`. -/
theorem AllReal.comp {ι κ : Type*} {f : ι → EReal} (hf : AllReal f) (g : κ → ι) : AllReal (fun j => f (g j)) :=
  fun j => hf (g j)

/-- The pointwise sum of two families with real members has real members. -/
theorem AllReal.add {ι : Type*} {f g : ι → EReal} (hf : AllReal f) (hg : AllReal g) : AllReal (fun i => f i + g i) :=
  fun i => real_add (hf i) (hg i)

/-- The pointwise product of two families with real members has real members. -/
theorem AllReal.mul {ι : Type*} {f g : ι → EReal} (hf : AllReal f) (hg : AllReal g) : AllReal (fun i => f i * g i) :=
  fun i => real_mul (hf i) (hg i)

/-- The pointwise maximum of two families with real members has real members. -/
theorem AllReal.maximum {ι : Type*} {f g : ι → EReal} (hf : AllReal f) (hg : AllReal g) :
    AllReal (fun i => Max.max (f i) (g i)) :=
  fun i => real_max (hf i) (hg i)

/-- Cutting a family with real members off below at zero keeps its members real. -/
theorem AllReal.max_zero {ι : Type*} {f : ι → EReal} (hf : AllReal f) : AllReal (fun i => max (f i) 0) :=
  fun i => real_max_zero (hf i)

/-- A finite sum, index by index, of families with real members has real members. -/
theorem AllReal.sum {ι κ : Type*} (s : ι → Finset κ) {F : ι → κ → EReal}
    (hF : ∀ i, ∀ e ∈ s i, ∃ r : ℝ, F i e = (r : EReal)) : AllReal (fun i => ∑ e ∈ s i, F i e) :=
  fun i => real_sum (s i) (F i) (hF i)

/-- A family with real members plus, index by index, a finite sum of real numbers has real members. -/
theorem AllReal.add_sum {ι κ : Type*} {x : ι → EReal} (hx : AllReal x) (s : ι → Finset κ) {F : ι → κ → EReal}
    (hF : ∀ i, ∀ e ∈ s i, ∃ r : ℝ, F i e = (r : EReal)) : AllReal (fun i => x i + ∑ e ∈ s i, F i e) :=
  fun i => real_add (hx i) (real_sum (s i) (F i) (hF i))

/-- A sum over a shared finite axis of products of members of two families with real members is real: the entries
    of a matrix product, whatever the two index maps `p` and `q` into the operands are. -/
theorem AllReal.sum_mul {ι α β κ : Type*} [Fintype κ] {A : α → EReal} {B : β → EReal} (hA : AllReal A) (hB : AllReal B)
    (p : ι → κ → α) (q : ι → κ → β) : AllReal (fun i => ∑ k : κ, A (p i k) * B (q i k)) :=
  fun i => real_sum Finset.univ _ fun k _ => real_mul (hA (p i k)) (hB (q i k))

/-- The same with an accumulator added in front: the matrix unit's product into an accumulator with real members. -/
theorem AllReal.add_sum_mul {ι α β κ : Type*} [Fintype κ] {C : ι → EReal} {A : α → EReal} {B : β → EReal}
    (hC : AllReal C) (hA : AllReal A) (hB : AllReal B) (p : ι → κ → α) (q : ι → κ → β) :
    AllReal (fun i => C i + ∑ k : κ, A (p i k) * B (q i k)) :=
  fun i => real_add (hC i) (real_sum Finset.univ _ fun k _ => real_mul (hA (p i k)) (hB (q i k)))

/-- The ideal matrix product of two operands with real entries into an accumulator with real entries has real entries. -/
theorem AllReal.matmul {sl sr so : Shape} (d : DotDims sl sr so) {lhs : sl.Idx → EReal} {rhs : sr.Idx → EReal}
    {acc : so.Idx → EReal} (hl : AllReal lhs) (hr : AllReal rhs) (ha : AllReal acc) :
    AllReal (Ideal.matmul d lhs rhs acc) :=
  AllReal.add_sum_mul ha hl hr (fun j k => d.lhsIdx j k) (fun j k => d.rhsIdx j k)

/-- A scatter that adds updates with real entries into an operand with real entries leaves real entries. -/
theorem AllReal.hostScatterAdd {s si su : Shape} (d : ScatterDims s si su) {w : Nat} {x : s.Idx → EReal} (idx : IVec si w)
    {upd : su.Idx → EReal} (hx : AllReal x) (hu : AllReal upd) : AllReal (Ideal.hostScatterAdd d x idx upd) :=
  AllReal.add_sum hx _ fun _ j _ => hu j

/-! ## The reciprocal square root, and a count plus one -/

/-- The reciprocal square root of a positive real number is the real number `(√r)⁻¹`. -/
theorem rsqrt_coe_of_pos {r : ℝ} (h : 0 < r) : Ideal.rsqrt (r : EReal) = (((Real.sqrt r)⁻¹ : ℝ) : EReal) := by
  rw [Ideal.rsqrt_coe, if_neg (not_lt.2 h.le), if_neg h.ne']

/-- The reciprocal square root of a real number at least one is a real number. -/
theorem real_rsqrt_of_one_le {x : EReal} (hx : ∃ r : ℝ, 1 ≤ r ∧ x = (r : EReal)) : ∃ q : ℝ, Ideal.rsqrt x = (q : EReal) := by
  obtain ⟨r, hr, rfl⟩ := hx
  exact ⟨(Real.sqrt r)⁻¹, rsqrt_coe_of_pos (lt_of_lt_of_le one_pos hr)⟩

/-- Zero plus a sum of finitely many ones, plus one, is the real number "how many, plus one". -/
theorem zero_add_sum_one_add_one {κ : Type*} (s : Finset κ) :
    (0 : EReal) + ∑ _e ∈ s, (1 : EReal) + 1 = (((s.card : ℝ) + 1 : ℝ) : EReal) := by
  have h : ∑ _e ∈ s, (1 : EReal) = ((s.card : ℝ) : EReal) := by
    have := coe_sum s (fun _ => (1 : ℝ))
    simpa using this
  rw [zero_add, h, EReal.coe_add, EReal.coe_one]

/-- A count plus one is at least one. -/
theorem one_le_card_add_one {κ : Type*} (s : Finset κ) : (1 : ℝ) ≤ (s.card : ℝ) + 1 :=
  le_add_of_nonneg_left (Nat.cast_nonneg _)

/-- Zero plus a sum of finitely many ones, plus one, is a real number at least one. -/
theorem count_add_one_real {κ : Type*} (s : Finset κ) :
    ∃ r : ℝ, 1 ≤ r ∧ (0 : EReal) + ∑ _e ∈ s, (1 : EReal) + 1 = (r : EReal) :=
  ⟨(s.card : ℝ) + 1, one_le_card_add_one s, zero_add_sum_one_add_one s⟩

/-- The reciprocal square root of zero plus a count of ones plus one is a real number. -/
theorem real_rsqrt_count_add_one {κ : Type*} (s : Finset κ) :
    ∃ q : ℝ, Ideal.rsqrt ((0 : EReal) + ∑ _e ∈ s, (1 : EReal) + 1) = (q : EReal) :=
  real_rsqrt_of_one_le (count_add_one_real s)

end Cert.GraphAE

end
-- ==== Proof.FiniteInputs.lean ====
/-
  The precondition says of each of the thirteen float arguments that the absolute value of every entry is less than
  +∞ (the integer edge list is not constrained). An extended real whose absolute value is less than +∞ is a real
  number: so every entry of every float argument is a real number. The matrix product of two arrays with real entries
  has real entries.
-/
import proofs.«169992_j3745211482439_2_alg».proof.Defs
import proofs.«169992_j3745211482439_2_alg».proof.Proof.Gen.Pre_finite_inputs
import proofs.«169992_j3745211482439_2_alg».proof.Proof.Spec
import proofs.«169992_j3745211482439_2_alg».proof.Proof.LibRealEntries
import Idealize.ShloMosaic.Lib.ReduceAll
import Idealize.ShloMosaic.Lib.ValueIdx

noncomputable section

namespace Cert.GraphAE

open Idealize.ShloMosaic Idealize.SL.Sem Idealize.ShloMosaic.ValueIdx

/-- The shape with no axes has one index. -/
instance subsingleton_scalar_idx : Subsingleton Cert.Pre_finite_inputs.S_.Idx := ⟨fun _ _ => funext fun d => d.elim0⟩

/-- The word `0x7F800000` read as a float is +∞. -/
theorem ofBits_inf_f32 : Ideal.ofBits .f32 0x7F800000#32 = (⊤ : EReal) := by
  simp [Ideal.ofBits, Ideal.ieee]

/-- An extended real whose absolute value `max x (-x)` compares less than +∞ is a real number. -/
theorem real_of_abs_lt_inf (x : EReal)
    (h : Ideal.cmp .olt (max x (-x)) (Ideal.ofBits .f32 0x7F800000#32) = 1#1) : ∃ r : ℝ, x = (r : EReal) := by
  rw [ofBits_inf_f32] at h
  induction x using EReal.rec with
  | bot => simp [Ideal.cmp] at h
  | coe r => exact ⟨r, rfl⟩
  | top => simp [Ideal.cmp] at h

/-- `all (|x| < +∞)`, as the precondition prints it — the conjunction over every index of the comparison of the
    absolute value with the constant +∞ — being one, every entry of `x` is a real number. -/
theorem all_real_of_all_lt_inf {S : Shape} {axes : List (Fin S.rank)} (x : FVec Ideal S .f32)
    (bc : Cert.Pre_finite_inputs.S_.BroadcastsInDim S (![] : Fin 0 → Fin S.rank))
    (rd : S.ReducesTo axes Cert.Pre_finite_inputs.S_) (hu : 0 < Cert.Pre_finite_inputs.S_.numel)
    (h : Host.reduce IntOp.andi
          (cmpf .olt (Host.absf x)
            (broadcastInDim S ![] bc (constant (F := Ideal) Cert.Pre_finite_inputs.S_ .f32 0x7F800000#32)))
          (constantI Cert.Pre_finite_inputs.S_ 1 1#1) rd hu ix0 = 1#1) :
    ∀ i, ∃ r : ℝ, x i = (r : EReal) := fun i =>
  real_of_abs_lt_inf (x i) (Host.reduce_andi_all _ _ rd hu ix0 h i)

variable [Cert.Pre_finite_inputs.Facts]

/-- Under the precondition every entry of every float argument is a real number, on every device. -/
theorem real_args (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg2) i = (r : EReal))
    ∧ (∀ i, ∃ r : ℝ, m ((c.tc : Thread Cert.KernelIdeal.nD Cert.KernelIdeal.τ).loc Cert.KernelIdeal.main_arg3) i = (r : EReal))
    ∧ (∀ i, ∃ r : ℝ, m ((c.tc : Thread Cert.KernelIdeal.nD Cert.KernelIdeal.τ).loc Cert.KernelIdeal.main_arg4) i = (r : EReal))
    ∧ (∀ i, ∃ r : ℝ, m ((c.tc : Thread Cert.KernelIdeal.nD Cert.KernelIdeal.τ).loc Cert.KernelIdeal.main_arg5) i = (r : EReal))
    ∧ (∀ i, ∃ r : ℝ, m ((c.tc : Thread Cert.KernelIdeal.nD Cert.KernelIdeal.τ).loc Cert.KernelIdeal.main_arg6) i = (r : EReal))
    ∧ (∀ i, ∃ r : ℝ, m ((c.tc : Thread Cert.KernelIdeal.nD Cert.KernelIdeal.τ).loc Cert.KernelIdeal.main_arg7) i = (r : EReal))
    ∧ (∀ i, ∃ r : ℝ, m ((c.tc : Thread Cert.KernelIdeal.nD Cert.KernelIdeal.τ).loc Cert.KernelIdeal.main_arg8) i = (r : EReal))
    ∧ (∀ i, ∃ r : ℝ, m ((c.tc : Thread Cert.KernelIdeal.nD Cert.KernelIdeal.τ).loc Cert.KernelIdeal.main_arg9) i = (r : EReal))
    ∧ (∀ i, ∃ r : ℝ, m ((c.tc : Thread Cert.KernelIdeal.nD Cert.KernelIdeal.τ).loc Cert.KernelIdeal.main_arg10) i = (r : EReal))
    ∧ (∀ i, ∃ r : ℝ, m ((c.tc : Thread Cert.KernelIdeal.nD Cert.KernelIdeal.τ).loc Cert.KernelIdeal.main_arg11) i = (r : EReal))
    ∧ (∀ i, ∃ r : ℝ, m ((c.tc : Thread Cert.KernelIdeal.nD Cert.KernelIdeal.τ).loc Cert.KernelIdeal.main_arg12) i = (r : EReal))
    ∧ (∀ i, ∃ r : ℝ, m ((c.tc : Thread Cert.KernelIdeal.nD Cert.KernelIdeal.τ).loc Cert.KernelIdeal.main_arg13) i = (r : EReal)) := by
  have h0 := congrFun (h c) ix0
  dsimp only [Cert.Pre_finite_inputs.fn, Cert.Pre_finite_inputs.fn_part1, Cert.Pre_finite_inputs.fn_part2,
    Cert.Pre_finite_inputs.fn_part3] at h0
  obtain ⟨h0, h13⟩ := IntOp.andi_eq_one.1 h0
  obtain ⟨h0, h12⟩ := IntOp.andi_eq_one.1 h0
  obtain ⟨h0, h11⟩ := IntOp.andi_eq_one.1 h0
  obtain ⟨h0, h10⟩ := IntOp.andi_eq_one.1 h0
  obtain ⟨h0, h9⟩ := IntOp.andi_eq_one.1 h0
  obtain ⟨h0, h8⟩ := IntOp.andi_eq_one.1 h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  exact ⟨all_real_of_all_lt_inf _ _ _ _ h0,
    all_real_of_all_lt_inf _ _ _ _ h2,
    all_real_of_all_lt_inf _ _ _ _ h3,
    all_real_of_all_lt_inf _ _ _ _ h4,
    all_real_of_all_lt_inf _ _ _ _ h5,
    all_real_of_all_lt_inf _ _ _ _ h6,
    all_real_of_all_lt_inf _ _ _ _ h7,
    all_real_of_all_lt_inf _ _ _ _ h8,
    all_real_of_all_lt_inf _ _ _ _ h9,
    all_real_of_all_lt_inf _ _ _ _ h10,
    all_real_of_all_lt_inf _ _ _ _ h11,
    all_real_of_all_lt_inf _ _ _ _ h12,
    all_real_of_all_lt_inf _ _ _ _ h13⟩

/-- Every entry of argument 0 (the node features) is a real number. -/
theorem real_arg0 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg0) i = (r : EReal) :=
  (real_args m h c).1

/-- Every entry of argument 2 (the first encoder weight) is a real number. -/
theorem real_arg2 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg2) i = (r : EReal) :=
  (real_args m h c).2.1

/-- Every entry of argument 3 (the first encoder bias) is a real number. -/
theorem real_arg3 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg3) i = (r : EReal) :=
  (real_args m h c).2.2.1

/-- Every entry of argument 4 (the second encoder weight) is a real number. -/
theorem real_arg4 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg4) i = (r : EReal) :=
  (real_args m h c).2.2.2.1

/-- Every entry of argument 5 (the second encoder bias) is a real number. -/
theorem real_arg5 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg5) i = (r : EReal) :=
  (real_args m h c).2.2.2.2.1

/-- Every entry of argument 6 (the first decoder weight) is a real number. -/
theorem real_arg6 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg6) i = (r : EReal) :=
  (real_args m h c).2.2.2.2.2.1

/-- Every entry of argument 7 (the first decoder bias) is a real number. -/
theorem real_arg7 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg7) i = (r : EReal) :=
  (real_args m h c).2.2.2.2.2.2.1

/-- Every entry of argument 8 (the second decoder weight) is a real number. -/
theorem real_arg8 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg8) i = (r : EReal) :=
  (real_args m h c).2.2.2.2.2.2.2.1

/-- Every entry of argument 9 (the second decoder bias) is a real number. -/
theorem real_arg9 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg9) i = (r : EReal) :=
  (real_args m h c).2.2.2.2.2.2.2.2.1

/-- Every entry of argument 10 (the link predictor's hidden weight) is a real number. -/
theorem real_arg10 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg10) i = (r : EReal) :=
  (real_args m h c).2.2.2.2.2.2.2.2.2.1

/-- Every entry of argument 11 (the link predictor's hidden bias) is a real number. -/
theorem real_arg11 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg11) i = (r : EReal) :=
  (real_args m h c).2.2.2.2.2.2.2.2.2.2.1

/-- Every entry of argument 12 (the link predictor's final weight) is a real number. -/
theorem real_arg12 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg12) i = (r : EReal) :=
  (real_args m h c).2.2.2.2.2.2.2.2.2.2.2.1

/-- Every entry of argument 13 (the link predictor's final bias) is a real number. -/
theorem real_arg13 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg13) i = (r : EReal) :=
  (real_args m h c).2.2.2.2.2.2.2.2.2.2.2.2

omit [Cert.Pre_finite_inputs.Facts] in
/-- The matrix product of two arrays with real entries has real entries. -/
theorem allReal_mm (M K N : Nat) {A : (⟨2, ![M, K]⟩ : Shape).Idx → EReal} {B : (⟨2, ![K, N]⟩ : Shape).Idx → EReal}
    (hA : AllReal A) (hB : AllReal B) : AllReal (mm M K N A B) :=
  AllReal.sum_mul hA hB (fun (i : (⟨2, ![M, N]⟩ : Shape).Idx) (k : Fin K) => ix2 (n0 := M) (n1 := K) (i 0) k)
    (fun (i : (⟨2, ![M, N]⟩ : Shape).Idx) (k : Fin K) => ix2 (n0 := K) (n1 := N) k (i 1))

end Cert.GraphAE

end
-- ==== Proof.LibRealOps.lean ====
/-
  Arrays of extended reals with real entries, under the array operations of a network read at the ideal values: the
  pointwise sum, product and maximum of two float arrays; a splat of the zero word or of the one word; a broadcast and a
  gather (each reads its operand at some index); a scatter that adds; a dot product on the host; and the reciprocal
  square root of "the number of updates that land on an element, plus one".
-/
import proofs.«169992_j3745211482439_2_alg».proof.Proof.LibRealEntries
import Idealize.ShloMosaic.PureOps.Ideal.Laws
import Idealize.ShloMosaic.Lib.IdealHost

noncomputable section

namespace Cert.GraphAE

open Idealize.ShloMosaic Idealize.ShloMosaic.ValueIdx

variable {s t : Shape} {φ : FTy}

/-- The sum of two float arrays with real entries has real entries. -/
theorem allReal_addf {a b : FVec Ideal s φ} (ha : AllReal a) (hb : AllReal b) : AllReal (addf a b) :=
  AllReal.add ha hb

/-- The product, entry by entry, of two float arrays with real entries has real entries. -/
theorem allReal_mulf {a b : FVec Ideal s φ} (ha : AllReal a) (hb : AllReal b) : AllReal (mulf a b) :=
  AllReal.mul ha hb

/-- The maximum, entry by entry, of two float arrays with real entries has real entries. -/
theorem allReal_maximumf {a b : FVec Ideal s φ} (ha : AllReal a) (hb : AllReal b) : AllReal (maximumf a b) :=
  AllReal.maximum ha hb

/-- The splat of the word of 0.0 has real entries. -/
theorem allReal_constant_zero (s : Shape) : AllReal (constant (F := Ideal) s .f32 0x00000000#32) :=
  fun _ => ⟨0, Ideal.ofBits_zero_f32⟩

/-- The splat of the word of 1.0 has real entries. -/
theorem allReal_constant_one (s : Shape) : AllReal (constant (F := Ideal) s .f32 0x3F800000#32) :=
  fun _ => ⟨1, Ideal.ofBits_one_f32⟩

/-- A broadcast of an array with real entries has real entries: each entry is an entry of the operand. -/
theorem allReal_broadcastInDim (dims : Fin s.rank → Fin t.rank) (h : s.BroadcastsInDim t dims) {x : s.Idx → EReal}
    (hx : AllReal x) : AllReal (broadcastInDim t dims h x) :=
  fun _ => hx _

/-- A gather from an array with real entries has real entries: each entry is an entry of the operand. -/
theorem allReal_gather {si : Shape} {w : Nat} (d : GatherDims s si t) (idx : IVec si w) {x : s.Idx → EReal}
    (hx : AllReal x) : AllReal (Host.gather d x idx) :=
  fun _ => hx _

/-- A scatter that adds updates with real entries into an operand with real entries leaves real entries. -/
theorem allReal_scatterAdd {si u : Shape} {w : Nat} (d : ScatterDims s si u) (idx : IVec si w) {x : FVec Ideal s φ}
    {upd : FVec Ideal u φ} (hx : AllReal x) (hu : AllReal upd) : AllReal (Host.scatterAdd d x idx upd) :=
  AllReal.hostScatterAdd d idx hx hu

/-- The host's dot product of two operands with real entries has real entries. -/
theorem allReal_dotGeneral {sl sr so : Shape} {φ₁ φ₂ : FTy} (d : DotDims sl sr so) (prec : Option ContractPrecision)
    {l : FVec Ideal sl φ₁} {r : FVec Ideal sr φ₂} (hl : AllReal l) (hr : AllReal r) :
    AllReal (Host.dotGeneral d prec l r) :=
  AllReal.matmul d hl hr allReal_zero

/-- Scatter ones into zeros by adding, add one, take the reciprocal square root: every entry is the reciprocal square
    root of a count plus one, a real number. -/
theorem allReal_rsqrt_count_add_one {si u : Shape} {w : Nat} (d : ScatterDims s si u) (idx : IVec si w)
    {z : FVec Ideal s .f32} {o : FVec Ideal u .f32} {o' : FVec Ideal s .f32}
    (hz : ∀ i, z i = 0) (ho : ∀ j, o j = 1) (ho' : ∀ i, o' i = 1) :
    AllReal (Host.rsqrt (addf (Host.scatterAdd d z idx o) o')) := by
  intro i
  show ∃ q : ℝ, Ideal.rsqrt (Ideal.hostScatterAdd d z idx o i + o' i) = (q : EReal)
  simp only [Ideal.hostScatterAdd]
  rw [hz i, ho' i, Finset.sum_congr rfl fun j _ => ho j]
  exact real_rsqrt_count_add_one _

end Cert.GraphAE

end
-- ==== Proof.RealLayers.lean ====
/-
  Every array the reference computes on the way to the third layer's output has real entries, given that the float
  arguments do. The in-degree of a node plus one is a count plus one, so its reciprocal square root is real; the edge
  coefficients and the self weights are products of those. An aggregation gathers rows, multiplies by coefficients,
  adds them up along the edges and adds a weighted copy of the rows; a layer's tail adds a bias and cuts off at zero; a
  projection is a matrix product. Each keeps entries real.
-/
import proofs.«169992_j3745211482439_2_alg».proof.Proof.RefSpec
import proofs.«169992_j3745211482439_2_alg».proof.Proof.FiniteInputs
import proofs.«169992_j3745211482439_2_alg».proof.Proof.LibRealEntries
import proofs.«169992_j3745211482439_2_alg».proof.Proof.LibRealOps

noncomputable section

namespace Cert.GraphAE

open Idealize.ShloMosaic Cert.ReferenceIdeal

/-- The reciprocal square root of "in-degree plus one" is a real number at every node. -/
theorem allReal_dis (x1 : IVec S2x320000 32) : AllReal (disV x1) := by
  unfold disV
  exact allReal_rsqrt_count_add_one _ _ (fun _ => Ideal.ofBits_zero_f32) (fun _ => Ideal.ofBits_one_f32)
    (fun _ => Ideal.ofBits_one_f32)

/-- The coefficient of every edge — the product of the two endpoints' reciprocal square roots — is a real number. -/
theorem allReal_coef (x1 : IVec S2x320000 32) : AllReal (coefV x1) := by
  unfold coefV
  exact allReal_mulf (allReal_gather _ _ (allReal_dis x1)) (allReal_gather _ _ (allReal_dis x1))

/-- The self weight of every node — the square of its reciprocal square root — is a real number. -/
theorem allReal_selfw (x1 : IVec S2x320000 32) : AllReal (selfwV x1) := by
  unfold selfwV
  exact allReal_mulf (allReal_dis x1) (allReal_dis x1)

/-- The aggregation of 128-wide rows with real entries has real entries. -/
theorem allReal_agg128 (x1 : IVec S2x320000 32) {h : FVec Ideal S10000x128 .f32} (hh : AllReal h) :
    AllReal (agg128 x1 h) := by
  unfold agg128
  exact allReal_addf
    (allReal_scatterAdd _ _ (allReal_broadcastInDim _ _ (allReal_constant_zero _))
      (allReal_mulf (allReal_gather _ _ hh)
        (allReal_broadcastInDim _ _ (allReal_broadcastInDim _ _ (allReal_coef x1)))))
    (allReal_mulf hh (allReal_broadcastInDim _ _ (allReal_broadcastInDim _ _ (allReal_selfw x1))))

/-- The aggregation of 512-wide rows with real entries has real entries. -/
theorem allReal_agg512 (x1 : IVec S2x320000 32) {h : FVec Ideal S10000x512 .f32} (hh : AllReal h) :
    AllReal (agg512 x1 h) := by
  unfold agg512
  exact allReal_addf
    (allReal_scatterAdd _ _ (allReal_broadcastInDim _ _ (allReal_constant_zero _))
      (allReal_mulf (allReal_gather _ _ hh)
        (allReal_broadcastInDim _ _ (allReal_broadcastInDim _ _ (allReal_coef x1)))))
    (allReal_mulf hh (allReal_broadcastInDim _ _ (allReal_broadcastInDim _ _ (allReal_selfw x1))))

/-- Adding a bias row with real entries to 128-wide rows with real entries, then cutting off at zero, leaves real entries. -/
theorem allReal_biasRelu128 {h : FVec Ideal S10000x128 .f32} {b : FVec Ideal S128 .f32} (hh : AllReal h) (hb : AllReal b) :
    AllReal (biasRelu128 h b) := by
  unfold biasRelu128
  exact allReal_maximumf
    (allReal_addf hh (allReal_broadcastInDim _ _ (allReal_broadcastInDim _ _ hb)))
    (allReal_broadcastInDim _ _ (allReal_constant_zero _))

/-- The same for 512-wide rows. -/
theorem allReal_biasRelu512 {h : FVec Ideal S10000x512 .f32} {b : FVec Ideal S512 .f32} (hh : AllReal h) (hb : AllReal b) :
    AllReal (biasRelu512 h b) := by
  unfold biasRelu512
  exact allReal_maximumf
    (allReal_addf hh (allReal_broadcastInDim _ _ (allReal_broadcastInDim _ _ hb)))
    (allReal_broadcastInDim _ _ (allReal_constant_zero _))

/-- The first layer's output has real entries. -/
theorem allReal_h1 (x0 : FVec Ideal S10000x512 .f32) (x1 : IVec S2x320000 32) (x2 : FVec Ideal S512x128 .f32)
    (x3 : FVec Ideal S128 .f32) (h0 : AllReal x0) (h2 : AllReal x2) (h3 : AllReal x3) :
    AllReal (h1S x0 x1 x2 x3) := by
  unfold h1S
  exact allReal_biasRelu128 (allReal_agg128 x1 (allReal_dotGeneral _ _ h0 h2)) h3

/-- The second layer's output, the embedding, has real entries. -/
theorem allReal_z (x0 : FVec Ideal S10000x512 .f32) (x1 : IVec S2x320000 32) (x2 : FVec Ideal S512x128 .f32)
    (x3 : FVec Ideal S128 .f32) (x4 : FVec Ideal S128x128 .f32) (x5 : FVec Ideal S128 .f32)
    (h0 : AllReal x0) (h2 : AllReal x2) (h3 : AllReal x3) (h4 : AllReal x4) (h5 : AllReal x5) :
    AllReal (zS x0 x1 x2 x3 x4 x5) := by
  unfold zS
  exact allReal_biasRelu128 (allReal_agg128 x1 (allReal_dotGeneral _ _ (allReal_h1 x0 x1 x2 x3 h0 h2 h3) h4)) h5

/-- The third layer's output has real entries. -/
theorem allReal_d1 (x0 : FVec Ideal S10000x512 .f32) (x1 : IVec S2x320000 32) (x2 : FVec Ideal S512x128 .f32)
    (x3 : FVec Ideal S128 .f32) (x4 : FVec Ideal S128x128 .f32) (x5 : FVec Ideal S128 .f32)
    (x6 : FVec Ideal S128x128 .f32) (x7 : FVec Ideal S128 .f32)
    (h0 : AllReal x0) (h2 : AllReal x2) (h3 : AllReal x3) (h4 : AllReal x4) (h5 : AllReal x5) (h6 : AllReal x6)
    (h7 : AllReal x7) : AllReal (d1S x0 x1 x2 x3 x4 x5 x6 x7) := by
  unfold d1S
  exact allReal_biasRelu128
    (allReal_agg128 x1 (allReal_dotGeneral _ _ (allReal_z x0 x1 x2 x3 x4 x5 h0 h2 h3 h4 h5) h6)) h7

/-- The fourth layer's output, the reconstructed features, has real entries. -/
theorem allReal_xhat (x0 : FVec Ideal S10000x512 .f32) (x1 : IVec S2x320000 32) (x2 : FVec Ideal S512x128 .f32)
    (x3 : FVec Ideal S128 .f32) (x4 : FVec Ideal S128x128 .f32) (x5 : FVec Ideal S128 .f32)
    (x6 : FVec Ideal S128x128 .f32) (x7 : FVec Ideal S128 .f32) (x8 : FVec Ideal S128x512 .f32) (x9 : FVec Ideal S512 .f32)
    (h0 : AllReal x0) (h2 : AllReal x2) (h3 : AllReal x3) (h4 : AllReal x4) (h5 : AllReal x5) (h6 : AllReal x6)
    (h7 : AllReal x7) (h8 : AllReal x8) (h9 : AllReal x9) : AllReal (xhatS x0 x1 x2 x3 x4 x5 x6 x7 x8 x9) := by
  unfold xhatS
  exact allReal_biasRelu512
    (allReal_agg512 x1 (allReal_dotGeneral _ _ (allReal_d1 x0 x1 x2 x3 x4 x5 x6 x7 h0 h2 h3 h4 h5 h6 h7) h8)) h9

end Cert.GraphAE

end
-- ==== Proof.Exchange.lean ====
/-
  The matrix product moves across the graph aggregation. At entry (i, k) the aggregate of a row array h is

      (0 + ∑ over the edges e that land on node i of  h (src e, k) * coef e)  +  h (i, k) * selfw i,

  the same formula for 128-wide and for 512-wide rows (the gather reads a clamped row, the scatter-add drops an edge whose
  destination is out of range; neither depends on the column). So, for a real-valued h and a real-valued 128 x 512
  weight w, entry (i, n) of  (agg h) · w  is  ∑ k ((0 + ∑ e h (src e, k) coef e) + h (i, k) selfw i) w (k, n),  and
  exchanging the two finite sums and distributing — which is where every entry being a real number is used — gives
  (0 + ∑ e (∑ k h (src e, k) w (k, n)) coef e) + (∑ k h (i, k) w (k, n)) selfw i,  entry (i, n) of  agg (h · w).
-/
import proofs.«169992_j3745211482439_2_alg».proof.Proof.Spec
import proofs.«169992_j3745211482439_2_alg».proof.Proof.RefSpec
import proofs.«169992_j3745211482439_2_alg».proof.Proof.GatherScatter
import proofs.«169992_j3745211482439_2_alg».proof.Proof.LibAggregateExchange
import proofs.«169992_j3745211482439_2_alg».proof.Proof.LibRealEntries
import proofs.«169992_j3745211482439_2_alg».proof.Proof.RealLayers
import Idealize.ShloMosaic.Lib.Pipeline.Value
import Idealize.ShloMosaic.Lib.ValueIdx
import Idealize.ShloMosaic.PureOps.Ideal.Laws

noncomputable section

namespace Cert.GraphAE

open Idealize.ShloMosaic Idealize.ShloMosaic.ValueIdx Cert.ReferenceIdeal Cert.ReferenceIdeal.Facts₀

/-- A per-edge coefficient broadcast along the 128 columns, read at an entry. -/
theorem coef_cols128 {α : Type} (c : S320000.Idx → α) (e : Fin 320000) (k : Fin 128) :
    broadcastInDim S320000x128 ![0, 1] bcast_S320000x1_S320000x128_0_1 (broadcastInDim S320000x1 ![0] bcast_S320000_S320000x1_0 c) (ix2 e k) = c (ix1 e) := by
  rw [broadcastInDim_apply (s := S320000x1) (t := S320000x128) ![0, 1] bcast_S320000x1_S320000x128_0_1 _ (ix2 e k) (ix2 e (0 : Fin 1))
        (fun a => by match a with | ⟨0, _⟩ => rfl | ⟨1, _⟩ => rfl),
      broadcastInDim_apply (s := S320000) (t := S320000x1) ![0] bcast_S320000_S320000x1_0 _ (ix2 e (0 : Fin 1)) (ix1 e)
        (fun a => by match a with | ⟨0, _⟩ => rfl)]

/-- A per-edge coefficient broadcast along the 512 columns, read at an entry. -/
theorem coef_cols512 {α : Type} (c : S320000.Idx → α) (e : Fin 320000) (k : Fin 512) :
    broadcastInDim S320000x512 ![0, 1] bcast_S320000x1_S320000x512_0_1 (broadcastInDim S320000x1 ![0] bcast_S320000_S320000x1_0 c) (ix2 e k) = c (ix1 e) := by
  rw [broadcastInDim_apply (s := S320000x1) (t := S320000x512) ![0, 1] bcast_S320000x1_S320000x512_0_1 _ (ix2 e k) (ix2 e (0 : Fin 1))
        (fun a => by match a with | ⟨0, _⟩ => rfl | ⟨1, _⟩ => rfl),
      broadcastInDim_apply (s := S320000) (t := S320000x1) ![0] bcast_S320000_S320000x1_0 _ (ix2 e (0 : Fin 1)) (ix1 e)
        (fun a => by match a with | ⟨0, _⟩ => rfl)]

/-- A per-node coefficient broadcast along the 128 columns, read at an entry. -/
theorem selfw_cols128 {α : Type} (c : S10000.Idx → α) (i : Fin 10000) (k : Fin 128) :
    broadcastInDim S10000x128 ![0, 1] bcast_S10000x1_S10000x128_0_1 (broadcastInDim S10000x1 ![0] bcast_S10000_S10000x1_0 c) (ix2 i k) = c (ix1 i) := by
  rw [broadcastInDim_apply (s := S10000x1) (t := S10000x128) ![0, 1] bcast_S10000x1_S10000x128_0_1 _ (ix2 i k) (ix2 i (0 : Fin 1))
        (fun a => by match a with | ⟨0, _⟩ => rfl | ⟨1, _⟩ => rfl),
      broadcastInDim_apply (s := S10000) (t := S10000x1) ![0] bcast_S10000_S10000x1_0 _ (ix2 i (0 : Fin 1)) (ix1 i)
        (fun a => by match a with | ⟨0, _⟩ => rfl)]

/-- A per-node coefficient broadcast along the 512 columns, read at an entry. -/
theorem selfw_cols512 {α : Type} (c : S10000.Idx → α) (i : Fin 10000) (k : Fin 512) :
    broadcastInDim S10000x512 ![0, 1] bcast_S10000x1_S10000x512_0_1 (broadcastInDim S10000x1 ![0] bcast_S10000_S10000x1_0 c) (ix2 i k) = c (ix1 i) := by
  rw [broadcastInDim_apply (s := S10000x1) (t := S10000x512) ![0, 1] bcast_S10000x1_S10000x512_0_1 _ (ix2 i k) (ix2 i (0 : Fin 1))
        (fun a => by match a with | ⟨0, _⟩ => rfl | ⟨1, _⟩ => rfl),
      broadcastInDim_apply (s := S10000) (t := S10000x1) ![0] bcast_S10000_S10000x1_0 _ (ix2 i (0 : Fin 1)) (ix1 i)
        (fun a => by match a with | ⟨0, _⟩ => rfl)]

/-- The zero array the scatter-add starts from. -/
theorem zero_base128 (j : S10000x128.Idx) :
    broadcastInDim S10000x128 ![] bcast_S_S10000x128 (constant (F := Ideal) S_ .f32 0x00000000#32) j = 0 := by
  rw [broadcastInDim_apply (s := S_) (t := S10000x128) ![] bcast_S_S10000x128 _ j (fun a => a.elim0) (fun a => a.elim0), constant_apply,
    Ideal.ofBits_zero_f32]

/-- The zero array the scatter-add starts from. -/
theorem zero_base512 (j : S10000x512.Idx) :
    broadcastInDim S10000x512 ![] bcast_S_S10000x512 (constant (F := Ideal) S_ .f32 0x00000000#32) j = 0 := by
  rw [broadcastInDim_apply (s := S_) (t := S10000x512) ![] bcast_S_S10000x512 _ j (fun a => a.elim0) (fun a => a.elim0), constant_apply,
    Ideal.ofBits_zero_f32]

/-- The aggregate of 128-wide rows at entry (i, k): the coefficient-weighted sum, over the edges that land on node i,
    of the source rows' entries k, plus the node's own entry times its self weight. -/
theorem agg128_apply (x1 : IVec S2x320000 32) (h : FVec Ideal S10000x128 .f32) (i : Fin 10000) (k : Fin 128) :
    agg128 x1 h (ix2 i k)
      = (0 + ∑ e ∈ Finset.univ.filter (fun e : Fin 320000 => land (idxOf (dstV x1)) e = some i),
            h (ix2 (row (idxOf (srcV x1)) e) k) * coefV x1 (ix1 e))
        + h (ix2 i k) * selfwV x1 (ix1 i) := by
  unfold agg128
  rw [addf_apply, reference_scatterAdd128_apply, zero_base128, mulf_apply, selfw_cols128]
  refine congrArg (fun s => (0 + s) + h (ix2 i k) * selfwV x1 (ix1 i)) ?_
  refine Finset.sum_congr rfl fun e _ => ?_
  rw [mulf_apply, reference_gather128_apply, coef_cols128]

/-- The aggregate of 512-wide rows at entry (i, k): the coefficient-weighted sum, over the edges that land on node i,
    of the source rows' entries k, plus the node's own entry times its self weight. -/
theorem agg512_apply (x1 : IVec S2x320000 32) (h : FVec Ideal S10000x512 .f32) (i : Fin 10000) (k : Fin 512) :
    agg512 x1 h (ix2 i k)
      = (0 + ∑ e ∈ Finset.univ.filter (fun e : Fin 320000 => land (idxOf (dstV x1)) e = some i),
            h (ix2 (row (idxOf (srcV x1)) e) k) * coefV x1 (ix1 e))
        + h (ix2 i k) * selfwV x1 (ix1 i) := by
  unfold agg512
  rw [addf_apply, reference_scatterAdd512_apply, zero_base512, mulf_apply, selfw_cols512]
  refine congrArg (fun s => (0 + s) + h (ix2 i k) * selfwV x1 (ix1 i)) ?_
  refine Finset.sum_congr rfl fun e _ => ?_
  rw [mulf_apply, reference_gather512_apply, coef_cols512]

/-- The product of the aggregate with a weight is the aggregate of the product, when every entry is real. -/
theorem agg_exchange (x1 : IVec S2x320000 32) (d : FVec Ideal S10000x128 .f32) (w : FVec Ideal S128x512 .f32)
    (hd : AllReal d) (hw : AllReal w) :
    mm 10000 128 512 (agg128 x1 d) w = agg512 x1 (mm 10000 128 512 d w) := by
  funext j
  obtain ⟨i, n, rfl⟩ : ∃ (i : Fin 10000) (n : Fin 512), j = ix2 i n := ⟨j 0, j 1, eq_ix2 j⟩
  rw [mm_apply, agg512_apply]
  simp only [agg128_apply, mm_apply]
  exact aggregate_exchange_of_real
    (Finset.univ.filter (fun e : Fin 320000 => land (idxOf (dstV x1)) e = some i))
    (fun e k => d (ix2 (row (idxOf (srcV x1)) e) k)) (fun e => coefV x1 (ix1 e)) (fun k => d (ix2 i k))
    (selfwV x1 (ix1 i)) (fun k => w (ix2 k n))
    (fun _ _ => hd _) (fun _ => allReal_coef x1 _) (fun _ => hd _) (allReal_selfw x1 _) (fun _ => hw _)

end Cert.GraphAE

end
-- ==== Proof.KLayer4.lean ====
/-
  The fourth graph-convolution layer of the idealized kernel aggregates FIRST and projects AFTER: the host operations
  aggregate the third layer's 128-wide output along the edges, region 3 multiplies the aggregate by the 128 x 512
  weight, and the bias and the rectifier follow. The reference projects first and aggregates the 512-wide product.
  The two agree because aggregation is linear in the rows and every entry is a real number: the matrix product of the
  aggregate is the aggregate of the matrix product (`agg_exchange`).
-/
import proofs.«169992_j3745211482439_2_alg».proof.Proof.Gen.KernelIdeal.Frame
import proofs.«169992_j3745211482439_2_alg».proof.Proof.RefSpec
import proofs.«169992_j3745211482439_2_alg».proof.Proof.Spec
import proofs.«169992_j3745211482439_2_alg».proof.Proof.RefMatmul
import proofs.«169992_j3745211482439_2_alg».proof.Proof.Region3
import proofs.«169992_j3745211482439_2_alg».proof.Proof.KKeepEdges
import proofs.«169992_j3745211482439_2_alg».proof.Proof.KKeepArgs
import proofs.«169992_j3745211482439_2_alg».proof.Proof.KGraph
import proofs.«169992_j3745211482439_2_alg».proof.Proof.KLayer3
import proofs.«169992_j3745211482439_2_alg».proof.Proof.Exchange
import proofs.«169992_j3745211482439_2_alg».proof.Proof.RealLayers
import proofs.«169992_j3745211482439_2_alg».proof.Proof.FiniteInputs

-- membership in a rectangle of production extents (`View.cover_of_tiled`): the elaborator's structural look
-- recurses once per coordinate of the long axes
set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.GraphAE

open Cert.KernelIdeal Cert.KernelIdeal.Gen

variable (m : (ℓ : Loc nD τ sig) → Buf (Elt Ideal) ℓ) (ρ : Dev nD → PrngReg)

variable [hPre : Cert.Pre_finite_inputs.Facts]

/-- The aggregate of the third layer's output, as the host operations before region 3 leave it. -/
theorem agg4_W11 (c : Dev nD) : W11 m ρ c (Proc.devRef .tc main_v134) = agg128 (m ((c : Thread nD τ).loc main_arg1)) (d1S (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  show StableHlo.after hostOps3_2 (StableHlo.after hostOps3_1 (StableHlo.after hostOps3 (W8 m ρ c))) (Proc.devRef .tc main_v134) = _
  after_results_simp
  rw [keep_v1_1_8 m ρ c, keep_v3_1_8 m ρ c, keep_v30_1_8 m ρ c, keep_v31_1_8 m ρ c, keep_arg7_0_8 m ρ c,
    src_W1 m ρ c, dst_W1 m ρ c, coef_W1 m ρ c, selfw_W1 m ρ c, mm3_W8 m ρ c, ← dot_128x128_eq_mm]
  rfl

/-- Region 3's output array is the product of that aggregate with the 128 x 512 weight. -/
theorem mm4_W12 (c : Dev nD) : W12 m ρ c (Proc.devRef .tc main_v135)
    = mm 10000 128 512 (agg128 (m ((c : Thread nD τ).loc main_arg1)) (d1S (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)))) (m ((c : Thread nD τ).loc main_arg8)) := by
  refine (W12_arr m ρ c 2).trans ?_
  rw [final3 (V11 m ρ) c]
  show mm 10000 128 512 (W11 m ρ c (Proc.devRef .tc main_v134)) (W11 m ρ c (Proc.devRef .tc main_arg8)) = _
  rw [agg4_W11 m ρ c, keep_arg8_0_11 m ρ c]

/-- With the bias and the rectifier, the layer's output is the reference's reconstructed features. -/
theorem xhat_W14 (hpre : Cert.Pre_KernelIdeal m) (c : Dev nD) :
    W14 m ρ c (Proc.devRef .tc main_v139) = xhatS (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  show StableHlo.after hostOps4_1 (StableHlo.after hostOps4 (W12 m ρ c)) (Proc.devRef .tc main_v139) = _
  after_results_simp
  rw [keep_arg9_0_12 m ρ c, mm4_W12 m ρ c,
    agg_exchange _ _ _ (allReal_d1 _ _ _ _ _ _ _ _ (real_arg0 m hpre c) (real_arg2 m hpre c) (real_arg3 m hpre c) (real_arg4 m hpre c)
      (real_arg5 m hpre c) (real_arg6 m hpre c) (real_arg7 m hpre c)) (real_arg8 m hpre c),
    ← dot_128x512_eq_mm]
  rfl

end Cert.GraphAE

end
-- ==== Proof.Region5.lean ====
/-
  The last dense layer of the network as one function of whole arrays. The region works on a ten-by-ten grid of output blocks of 1000 rows by
  1024 columns: at block `(b0, b1)` it multiplies rows `1000 b0 … 1000 b0 + 999` of the input `X` (10000 × 128) by columns
  `1024 b1 … 1024 b1 + 1023` of the weights `Wp` (128 × 10240: the 10000 true columns followed by 240 columns of padding), accumulating from
  zero, adds the matching stretch of the bias row `Bp` (1 × 10240, padded likewise) to every row and applies the logistic function. Over the
  extended reals a change of float format is the identity and the block product is a finite sum over the shared axis, so entry `(p, q)` of the
  block is `logistic (∑ k, X (1000 b0 + p, k) * Wp (k, 1024 b1 + q) + Bp (0, 1024 b1 + q))`.

  The output array is 10000 × 10000, and 10 * 1024 = 10240 > 10000: the tenth column block starts at column 9216 and only its first 784 columns
  lie inside the array. What a point writes back is the part of its block inside the array, so the columns computed from the padding are never
  written, and every entry that is written sits at a column `s < 10000`, where the padded arrays are read at the same column `s`. Each
  written part is therefore the restriction of the whole-array function
  `layer5 X Wp Bp = fun i => logistic (∑ k, X (i 0, k) * Wp (k, i 1) + Bp (0, i 1))` (columns included among the padded ones by `col5`).
  The hundred parts fill the array — entry `(r, s)` lies in the block of row index `r / 1000` and column index `s / 1024`, and for the tenth
  column block `9216 + 784 = 10000` — hence after the region the output array is `layer5` of the three arrays the region found (`final5`).
-/
import proofs.«169992_j3745211482439_2_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

noncomputable section

namespace Cert.GraphAE

open Idealize.ShloMosaic Idealize.ShloMosaic.ValueIdx Idealize.ShloMosaic.TcCoe
open Cert.KernelIdeal Cert.KernelIdeal.Gen
open Idealize.ShloMosaic.Pipeline (Dat Cfg Window)

/-- The left operand's index of the block product at output `i` and contraction position `r`: row `i 0` … -/
theorem lhs5_0 (i : S1000x1024.Idx) (r : dot_S1000x128_S128x1024_S1000x1024_1_0_0_1_n_n.contr.Idx) :
    (dot_S1000x128_S128x1024_S1000x1024_1_0_0_1_n_n.lhsIdx i r 0).val = (i 0).val := by
  unfold DotDims.lhsIdx
  rw [dif_neg (show ¬(0 : Fin S1000x128.rank) ∈ dot_S1000x128_S128x1024_S1000x1024_1_0_0_1_n_n.lhsBatch by decide), dif_pos (show (0 : Fin S1000x128.rank) ∈ dot_S1000x128_S128x1024_S1000x1024_1_0_0_1_n_n.lhsNonContracting by decide)]
  rfl
/-- … column the contraction position; -/
theorem lhs5_1 (i : S1000x1024.Idx) (r : dot_S1000x128_S128x1024_S1000x1024_1_0_0_1_n_n.contr.Idx) :
    (dot_S1000x128_S128x1024_S1000x1024_1_0_0_1_n_n.lhsIdx i r 1).val = (r ⟨0, by decide⟩).val :=
  dot_S1000x128_S128x1024_S1000x1024_1_0_0_1_n_n.lhsIdx_val_of_single rfl i r
/-- the right operand's: row the contraction position … -/
theorem rhs5_0 (i : S1000x1024.Idx) (r : dot_S1000x128_S128x1024_S1000x1024_1_0_0_1_n_n.contr.Idx) :
    (dot_S1000x128_S128x1024_S1000x1024_1_0_0_1_n_n.rhsIdx i r 0).val = (r ⟨0, by decide⟩).val :=
  dot_S1000x128_S128x1024_S1000x1024_1_0_0_1_n_n.rhsIdx_val_of_single rfl i r
/-- … column `i 1`. -/
theorem rhs5_1 (i : S1000x1024.Idx) (r : dot_S1000x128_S128x1024_S1000x1024_1_0_0_1_n_n.contr.Idx) :
    (dot_S1000x128_S128x1024_S1000x1024_1_0_0_1_n_n.rhsIdx i r 1).val = (i 1).val := by
  unfold DotDims.rhsIdx
  rw [dif_neg (show ¬(1 : Fin S128x1024.rank) ∈ dot_S1000x128_S128x1024_S1000x1024_1_0_0_1_n_n.rhsBatch by decide), dif_pos (show (1 : Fin S128x1024.rank) ∈ dot_S1000x128_S128x1024_S1000x1024_1_0_0_1_n_n.rhsNonContracting by decide)]
  rfl

/-- The block product accumulated into zero, at entry `(p, q)`: the sum over `k` of `a (p, k) * b (k, q)`. -/
theorem matmul5_apply (a : FVec Ideal S1000x128 .bf16) (b : FVec Ideal S128x1024 .bf16) (p : Fin 1000) (q : Fin 1024) :
    matmul dot_S1000x128_S128x1024_S1000x1024_1_0_0_1_n_n none a b (constant (F := Ideal) S1000x1024 .f32 0x00000000#32) (ix2 p q)
      = ∑ k : Fin 128, a (ix2 p k) * b (ix2 k q) := by
  simp only [matmul]
  rw [Ideal.matmul_constant_zero_apply, ← Equiv.sum_comp (contrEquiv1 dot_S1000x128_S128x1024_S1000x1024_1_0_0_1_n_n 128 rfl rfl).symm]
  refine Finset.sum_congr rfl fun k _ => ?_
  have hk := contrEquiv1_symm_val dot_S1000x128_S128x1024_S1000x1024_1_0_0_1_n_n 128 rfl rfl k
  have el : dot_S1000x128_S128x1024_S1000x1024_1_0_0_1_n_n.lhsIdx (ix2 p q) ((contrEquiv1 dot_S1000x128_S128x1024_S1000x1024_1_0_0_1_n_n 128 rfl rfl).symm k) = ix2 p k := funext fun d => Fin.ext (by
    match d with
    | ⟨0, _⟩ => exact lhs5_0 _ _
    | ⟨1, _⟩ => exact (lhs5_1 _ _).trans hk)
  have er : dot_S1000x128_S128x1024_S1000x1024_1_0_0_1_n_n.rhsIdx (ix2 p q) ((contrEquiv1 dot_S1000x128_S128x1024_S1000x1024_1_0_0_1_n_n 128 rfl rfl).symm k) = ix2 k q := funext fun d => Fin.ext (by
    match d with
    | ⟨0, _⟩ => exact (rhs5_0 _ _).trans hk
    | ⟨1, _⟩ => exact rhs5_1 _ _)
  rw [el, er]

/-- The body's stored value at entry `(p, q)` of the block: the logistic function of row `p` of the row block against column `q` of the
    weight block, plus the bias block's entry `q`. -/
theorem pay5_apply (x0 : Vec Ideal S1000x128 .f32) (x1 : Vec Ideal S128x1024 .f32) (x2 : Vec Ideal S1x1024 .f32)
    (p : Fin 1000) (q : Fin 1024) :
    k5_pay1 (F := Ideal) x0 x1 x2 (ix2 p q)
      = Ideal.logistic ((∑ k : Fin 128, x0 (ix2 p k) * x1 (ix2 k q)) + x2 (ix2 0 q)) := by
  unfold k5_pay1
  refine congrArg Ideal.logistic ?_
  rw [addf_apply, matmul5_apply, shapeCast_self, shapeCast_self, shapeCast_self, broadcastTo_1b_ab_apply]
  -- a change of float format is the identity on extended reals
  rfl

/-- The inclusion of the output's 10000 columns among the padded weights' 10240. -/
def col5 : Fin 10000 → Fin 10240 := Fin.castLE (by decide)

theorem col5_val (q : Fin 10000) : (col5 q).val = q.val := rfl

/-- The layer as one function of its three whole arrays: entry `(r, s)` is the logistic function of row `r` of `X` against column `s` of the
    padded weights `Wp`, plus the padded bias row's entry `s`. -/
def layer5 (X : S10000x128.Idx → EReal) (Wp : S128x10240.Idx → EReal) (Bp : S1x10240.Idx → EReal) : S10000x10000.Idx → EReal :=
  fun i => Ideal.logistic ((∑ k : Fin 128, X (ix2 (i 0) k) * Wp (ix2 k (col5 (i 1)))) + Bp (ix2 0 (col5 (i 1))))

theorem hz5 : (![0, 0] : Fin 2 → Nat) = fun _ => 0 := funext fun a => by fin_cases a <;> rfl

/-- Row `p` of the `b`-th block of a thousand rows is a row of the array. -/
theorem row5_lt (b : Nat) (hb : b < 10) (p : Fin 1000) : b * 1000 + p.val < 10000 := by have := p.isLt; omega
/-- Column `q` of the `b`-th block of 1024 columns is a column of the padded arrays. -/
theorem colp5_lt (b : Nat) (hb : b < 10) (q : Fin 1024) : b * 1024 + q.val < 10240 := by have := q.isLt; omega

/-- One block's stored values are the layer's on that block: if the staged row block holds rows `b0 * 1000 …` of `X` and the staged weight and
    bias blocks hold columns `b1 * 1024 …` of `Wp` and `Bp`, the stored entry `y` is the layer's entry at row `b0 * 1000 + y 0`, column
    `b1 * 1024 + y 1` — whenever that column is one of the output's. -/
theorem pay5_block (X : S10000x128.Idx → EReal) (Wp : S128x10240.Idx → EReal) (Bp : S1x10240.Idx → EReal)
    (x0 : Vec Ideal S1000x128 .f32) (x1 : Vec Ideal S128x1024 .f32) (x2 : Vec Ideal S1x1024 .f32)
    (b0 b1 : Nat) (hb0 : b0 < 10) (hb1 : b1 < 10)
    (h0 : ∀ (p : Fin 1000) (k : Fin 128), x0 (ix2 p k) = X (ix2 (⟨b0 * 1000 + p.val, row5_lt b0 hb0 p⟩ : Fin 10000) k))
    (h1 : ∀ (k : Fin 128) (q : Fin 1024), x1 (ix2 k q) = Wp (ix2 k (⟨b1 * 1024 + q.val, colp5_lt b1 hb1 q⟩ : Fin 10240)))
    (h2 : ∀ q : Fin 1024, x2 (ix2 (0 : Fin 1) q) = Bp (ix2 (0 : Fin 1) (⟨b1 * 1024 + q.val, colp5_lt b1 hb1 q⟩ : Fin 10240)))
    (y : S1000x1024.Idx) (i : S10000x10000.Idx) (hi0 : (i 0).val = b0 * 1000 + (y 0).val) (hi1 : (i 1).val = b1 * 1024 + (y 1).val) :
    k5_pay1 (F := Ideal) x0 x1 x2 y = layer5 X Wp Bp i := by
  obtain ⟨p, q, rfl⟩ : ∃ (p : Fin 1000) (q : Fin 1024), y = ix2 p q := ⟨y 0, y 1, eq_ix2 y⟩
  obtain ⟨r, s, rfl⟩ : ∃ (r : Fin 10000) (s : Fin 10000), i = ix2 r s := ⟨i 0, i 1, eq_ix2 i⟩
  have er : r = ⟨b0 * 1000 + p.val, row5_lt b0 hb0 p⟩ := Fin.ext hi0
  have ec : col5 s = ⟨b1 * 1024 + q.val, colp5_lt b1 hb1 q⟩ := Fin.ext hi1
  rw [er, pay5_apply]
  show _ = Ideal.logistic ((∑ k : Fin 128, X (ix2 (⟨b0 * 1000 + p.val, row5_lt b0 hb0 p⟩ : Fin 10000) k) * Wp (ix2 k (col5 s))) + Bp (ix2 (0 : Fin 1) (col5 s)))
  rw [ec]
  refine congrArg Ideal.logistic (congrArg₂ (· + ·) (Finset.sum_congr rfl fun k _ => ?_) (h2 q))
  rw [h0 p k, h1 k q]

/-- The printed index maps over the grid: the row block moves with the output block's row index, the weight and bias blocks with its column
    index, and both indices stay below ten. -/
theorem idx_facts5 : ∀ t : Fin cfg5.N, win5_0.index t (0 : Fin 2) = win5_3.index t (0 : Fin 2) ∧ win5_0.index t (1 : Fin 2) = 0
    ∧ win5_1.index t (0 : Fin 2) = 0 ∧ win5_1.index t (1 : Fin 2) = win5_3.index t (1 : Fin 2)
    ∧ win5_2.index t (0 : Fin 2) = 0 ∧ win5_2.index t (1 : Fin 2) = win5_3.index t (1 : Fin 2)
    ∧ win5_3.index t (0 : Fin 2) < 10 ∧ win5_3.index t (1 : Fin 2) < 10 :=
  (by decide +kernel : ∀ t : Fin grid5.N, _)

/-- Every pair of block indices is some point's. -/
theorem idx_onto5 : ∀ (q0 : Fin 10) (q1 : Fin 10), ∃ t : Fin cfg5.N, win5_3.index t = ![q0.val, q1.val] :=
  (by decide +kernel : ∀ (q0 : Fin 10) (q1 : Fin 10), ∃ t : Fin grid5.N, win5_3.index t = ![q0.val, q1.val])

/-- How much of each output block lies inside the array: all thousand rows; all 1024 columns of the first nine column blocks, and the first 784
    of the tenth, which ends at column 10000. -/
theorem clip_facts5 : ∀ t : Fin cfg5.N, win5_3.xsize (grid5.coords t) (0 : Fin 2) = 1000
    ∧ (win5_3.index t (1 : Fin 2) < 9 → win5_3.xsize (grid5.coords t) (1 : Fin 2) = 1024)
    ∧ (win5_3.index t (1 : Fin 2) = 9 → win5_3.xsize (grid5.coords t) (1 : Fin 2) = 784) :=
  (by decide +kernel : ∀ t : Fin grid5.N, _)

variable (V : (c : Dev nD) → (b : Ref sig .tc) → Buf (Elt Ideal) ((c : Thread nD τ).loc b))

/-- What point `t` writes back — the part of its block inside the array — is block `t` of the layer of the three arrays as the region finds them. -/
theorem flushed5_eq (c : Dev nD) (t : Fin cfg5.N) :
    (dat5 (F := Ideal) V c).flushed 3 t = ((cfg5.win 3).blk t).view.read (Elt Ideal)
      (layer5 (V c (Pipeline.arrRef spec5 0)) (V c (Pipeline.arrRef spec5 1)) (V c (Pipeline.arrRef spec5 2))) := by
  show (cfg5.win 3).cut (grid5.coords t) ((dat5 V c).after 3 t) = _
  rw [after5_3]
  unfold out5_3
  rw [View.canon_unit_zero hz5]
  simp only [View.ld_unit_zero (S := S1000x128) hz5, View.ld_unit_zero (S := S128x1024) hz5, View.ld_unit_zero (S := S1x1024) hz5]
  obtain ⟨e00, e01, e10, e11, e20, e21, e30, e31⟩ := idx_facts5 t
  funext y
  show k5_pay1 (F := Ideal) (iblk5 V c 0 t) (iblk5 V c 1 t) (iblk5 V c 2 t) (win5_3.xinj (grid5.coords t) y)
      = layer5 (V c (Pipeline.arrRef spec5 0)) (V c (Pipeline.arrRef spec5 1)) (V c (Pipeline.arrRef spec5 2)) (((cfg5.win 3).blk t).view.emb y)
  refine pay5_block (V c (Pipeline.arrRef spec5 0)) (V c (Pipeline.arrRef spec5 1)) (V c (Pipeline.arrRef spec5 2))
    (iblk5 V c 0 t) (iblk5 V c 1 t) (iblk5 V c 2 t) (win5_3.index t (0 : Fin 2)) (win5_3.index t (1 : Fin 2)) e30 e31 ?_ ?_ ?_
    (win5_3.xinj (grid5.coords t) y) (((cfg5.win 3).blk t).view.emb y) ?_ ?_
  · intro p k
    show V c (Pipeline.arrRef spec5 0) (((cfg5.win 0).blk t).view.emb (ix2 p k)) = _
    refine congrArg (V c (Pipeline.arrRef spec5 0)) (funext fun a => Fin.ext ?_)
    match a with
    | ⟨0, _⟩ => show win5_0.index t (0 : Fin 2) * 1000 + 1 * p.val = win5_3.index t (0 : Fin 2) * 1000 + p.val; omega
    | ⟨1, _⟩ => show win5_0.index t (1 : Fin 2) * 128 + 1 * k.val = k.val; omega
  · intro k q
    show V c (Pipeline.arrRef spec5 1) (((cfg5.win 1).blk t).view.emb (ix2 k q)) = _
    refine congrArg (V c (Pipeline.arrRef spec5 1)) (funext fun a => Fin.ext ?_)
    match a with
    | ⟨0, _⟩ => show win5_1.index t (0 : Fin 2) * 128 + 1 * k.val = k.val; omega
    | ⟨1, _⟩ => show win5_1.index t (1 : Fin 2) * 1024 + 1 * q.val = win5_3.index t (1 : Fin 2) * 1024 + q.val; omega
  · intro q
    show V c (Pipeline.arrRef spec5 2) (((cfg5.win 2).blk t).view.emb (ix2 (0 : Fin 1) q)) = _
    refine congrArg (V c (Pipeline.arrRef spec5 2)) (funext fun a => Fin.ext ?_)
    match a with
    | ⟨0, _⟩ => show win5_2.index t (0 : Fin 2) * 1 + 1 * 0 = 0; omega
    | ⟨1, _⟩ => show win5_2.index t (1 : Fin 2) * 1024 + 1 * q.val = win5_3.index t (1 : Fin 2) * 1024 + q.val; omega
  · show win5_3.index t (0 : Fin 2) * 1000 + 1 * (y 0).val = win5_3.index t (0 : Fin 2) * 1000 + (y 0).val; omega
  · show win5_3.index t (1 : Fin 2) * 1024 + 1 * (y 1).val = win5_3.index t (1 : Fin 2) * 1024 + (y 1).val; omega

/-- An entry of the output array is in point `t`'s block iff each coordinate is in the range of the block's part inside the array on its axis. -/
theorem mem_blk5 (t : Fin cfg5.N) (i : S10000x10000.Idx) :
    i ∈ ((cfg5.win 3).blk t).view.set ↔ ∀ a : Fin 2, win5_3.index t a * S1000x1024.size a ≤ (i a).val
      ∧ (i a).val < win5_3.index t a * S1000x1024.size a + win5_3.xsize (grid5.coords t) a := by
  show i ∈ ((View.whole main_v145).slice (win5_3.rect t)).set ↔ _
  rw [View.set_slice_whole, Rect.mem_set_unit]
  exact Iff.rfl

/-- The hundred blocks' parts inside the array fill it: entry `(r, s)` is in the block of row index `r / 1000` and column index `s / 1024`
    (the tenth column block reaches exactly the last column, 9999 = 9 * 1024 + 783). -/
theorem cover5 (i : S10000x10000.Idx) : ∃ t : Fin cfg5.N, (cfg5.win 3).flush t = true ∧ i ∈ ((cfg5.win 3).blk t).view.set := by
  have hi0 : (i 0).val < 10000 := (i 0).isLt
  have hi1 : (i 1).val < 10000 := (i 1).isLt
  obtain ⟨t, ht⟩ := idx_onto5 ⟨(i 0).val / 1000, by omega⟩ ⟨(i 1).val / 1024, by omega⟩
  have q0 : win5_3.index t (0 : Fin 2) = (i 0).val / 1000 := congrFun ht 0
  have q1 : win5_3.index t (1 : Fin 2) = (i 1).val / 1024 := congrFun ht 1
  obtain ⟨x0, x1, x2⟩ := clip_facts5 t
  refine ⟨t, flush5_3 t, ?_⟩
  rw [mem_blk5]
  intro a
  match a with
  | ⟨0, _⟩ =>
    show win5_3.index t (0 : Fin 2) * 1000 ≤ (i 0).val ∧ (i 0).val < win5_3.index t (0 : Fin 2) * 1000 + win5_3.xsize (grid5.coords t) (0 : Fin 2)
    rw [x0]; omega
  | ⟨1, _⟩ =>
    show win5_3.index t (1 : Fin 2) * 1024 ≤ (i 1).val ∧ (i 1).val < win5_3.index t (1 : Fin 2) * 1024 + win5_3.xsize (grid5.coords t) (1 : Fin 2)
    by_cases h9 : win5_3.index t (1 : Fin 2) < 9
    · rw [x1 h9]; omega
    · have e9 : win5_3.index t (1 : Fin 2) = 9 := by omega
      rw [x2 e9]; omega

/-- The layer spelt out as a function of the output index. -/
theorem layer5_def (X : S10000x128.Idx → EReal) (Wp : S128x10240.Idx → EReal) (Bp : S1x10240.Idx → EReal) :
    layer5 X Wp Bp = fun i => Ideal.logistic ((∑ k : Fin 128, X (ix2 (i 0) k) * Wp (ix2 k (col5 (i 1)))) + Bp (ix2 0 (col5 (i 1)))) := rfl

/-- The layer at entry `(r, s)`. -/
theorem layer5_apply (X : S10000x128.Idx → EReal) (Wp : S128x10240.Idx → EReal) (Bp : S1x10240.Idx → EReal) (r s : Fin 10000) :
    layer5 X Wp Bp (ix2 r s) = Ideal.logistic ((∑ k : Fin 128, X (ix2 r k) * Wp (ix2 k (col5 s))) + Bp (ix2 0 (col5 s))) := rfl

/-- The output array after the region: the layer of the three arrays as the region finds them, entry by entry. -/
theorem final5 (c : Dev nD) : (dat5 (F := Ideal) V c).arrAt 3 cfg5.N
    = layer5 (V c (Pipeline.arrRef spec5 0)) (V c (Pipeline.arrRef spec5 1)) (V c (Pipeline.arrRef spec5 2)) :=
  (dat5 V c).arrAt_eq_of_cover 3
    (layer5 (V c (Pipeline.arrRef spec5 0)) (V c (Pipeline.arrRef spec5 1)) (V c (Pipeline.arrRef spec5 2)))
    (fun t _ => flushed5_eq V c t) cover5

end Cert.GraphAE

end
-- ==== Proof.RefIndex.lean ====
/-
  The link predictor's two layers, read at an entry. With `xh` the reconstructed features and `hm` the hidden layer:

      hmidS (r, q)   = max ((∑ k, (xh (r, k) * xh (r, k)) * Wl (k, q)) + bl q) 0
      structS (r, q) = logistic ((∑ k, hm (r, k) * Wf (k, q)) + bf q),

  where the reference spells the logistic function `1 / (1 + exp (-t))`: on the extended reals that expression IS the
  logistic function (with its limits 0 and 1 at the infinities). A bias vector laid along every row reads, at (r, q),
  the vector's entry q; the rectifier's floor is the zero array.
-/
import proofs.«169992_j3745211482439_2_alg».proof.Proof.RefSpec
import proofs.«169992_j3745211482439_2_alg».proof.Proof.Spec
import proofs.«169992_j3745211482439_2_alg».proof.Proof.RefMatmul
import Idealize.ShloMosaic.Lib.Pipeline.Value
import Idealize.ShloMosaic.Lib.ValueIdx
import Idealize.ShloMosaic.Lib.IdealHost
import Idealize.ShloMosaic.PureOps.Ideal.Laws

noncomputable section

namespace Cert.GraphAE

open Idealize.ShloMosaic Idealize.ShloMosaic.ValueIdx Cert.ReferenceIdeal Cert.ReferenceIdeal.Facts₀

/-- A 128-entry bias laid along every row, read at (r, q). -/
theorem bias_row128 (b : FVec Ideal S128 .f32) (r : Fin 10000) (q : Fin 128) :
    broadcastInDim S10000x128 ![0, 1] bcast_S1x128_S10000x128_0_1 (broadcastInDim S1x128 ![1] bcast_S128_S1x128_1 b) (ix2 r q)
      = b (ix1 q) := by
  rw [broadcastInDim_apply (s := S1x128) (t := S10000x128) ![0, 1] bcast_S1x128_S10000x128_0_1 _ (ix2 r q) (ix2 (0 : Fin 1) q)
        (fun a => by match a with | ⟨0, _⟩ => rfl | ⟨1, _⟩ => rfl),
      broadcastInDim_apply (s := S128) (t := S1x128) ![1] bcast_S128_S1x128_1 _ (ix2 (0 : Fin 1) q) (ix1 q)
        (fun a => by match a with | ⟨0, _⟩ => rfl)]

/-- A 10000-entry bias laid along every row, read at (r, q). -/
theorem bias_row10000 (b : FVec Ideal S10000 .f32) (r : Fin 10000) (q : Fin 10000) :
    broadcastInDim S10000x10000 ![0, 1] bcast_S1x10000_S10000x10000_0_1 (broadcastInDim S1x10000 ![1] bcast_S10000_S1x10000_1 b) (ix2 r q)
      = b (ix1 q) := by
  rw [broadcastInDim_apply (s := S1x10000) (t := S10000x10000) ![0, 1] bcast_S1x10000_S10000x10000_0_1 _ (ix2 r q) (ix2 (0 : Fin 1) q)
        (fun a => by match a with | ⟨0, _⟩ => rfl | ⟨1, _⟩ => rfl),
      broadcastInDim_apply (s := S10000) (t := S1x10000) ![1] bcast_S10000_S1x10000_1 _ (ix2 (0 : Fin 1) q) (ix1 q)
        (fun a => by match a with | ⟨0, _⟩ => rfl)]

/-- The rectifier's floor on 128-wide rows: the zero array. -/
theorem relu_floor128 (j : S10000x128.Idx) :
    broadcastInDim S10000x128 ![] bcast_S_S10000x128 (constant (F := Ideal) S_ .f32 0x00000000#32) j = 0 := by
  rw [broadcastInDim_apply (s := S_) (t := S10000x128) ![] bcast_S_S10000x128 _ j (fun a => a.elim0) (fun a => a.elim0), constant_apply,
    Ideal.ofBits_zero_f32]

/-- The array of ones of the logistic function's spelling. -/
theorem ones_struct (j : S10000x10000.Idx) :
    broadcastInDim S10000x10000 ![] bcast_S_S10000x10000 (constant (F := Ideal) S_ .f32 0x3F800000#32) j = 1 := by
  rw [broadcastInDim_apply (s := S_) (t := S10000x10000) ![] bcast_S_S10000x10000 _ j (fun a => a.elim0) (fun a => a.elim0), constant_apply,
    Ideal.ofBits_one_f32]

/-- A layer's tail at an entry: the bias entry added, then the rectifier. -/
theorem biasRelu128_apply (h : FVec Ideal S10000x128 .f32) (b : FVec Ideal S128 .f32) (r : Fin 10000) (q : Fin 128) :
    biasRelu128 h b (ix2 r q) = max (h (ix2 r q) + b (ix1 q)) 0 := by
  unfold biasRelu128
  rw [maximumf_apply, addf_apply, bias_row128, relu_floor128]

/-- The hidden layer at an entry. -/
theorem hmidS_apply (x0 : FVec Ideal S10000x512 .f32) (x1 : IVec S2x320000 32) (x2 : FVec Ideal S512x128 .f32) (x3 : FVec Ideal S128 .f32) (x4 : FVec Ideal S128x128 .f32) (x5 : FVec Ideal S128 .f32) (x6 : FVec Ideal S128x128 .f32) (x7 : FVec Ideal S128 .f32) (x8 : FVec Ideal S128x512 .f32) (x9 : FVec Ideal S512 .f32) (x10 : FVec Ideal S512x128 .f32) (x11 : FVec Ideal S128 .f32) (r : Fin 10000) (q : Fin 128) :
    hmidS x0 x1 x2 x3 x4 x5 x6 x7 x8 x9 x10 x11 (ix2 r q)
      = max ((∑ k : Fin 512, (xhatS x0 x1 x2 x3 x4 x5 x6 x7 x8 x9 (ix2 r k) * xhatS x0 x1 x2 x3 x4 x5 x6 x7 x8 x9 (ix2 r k)) * x10 (ix2 k q)) + x11 (ix1 q)) 0 := by
  unfold hmidS
  rw [biasRelu128_apply, dot_512x128_eq_mm, mm_apply]
  rfl

/-- `1 / (1 + exp (-y))`, in the host's operations on the extended reals, is the logistic function of `y`. -/
theorem logistic_spelling (y : EReal) :
    FloatOps.hostDivf (F := Ideal) (φ := .f32) (1 : EReal)
      (FloatOps.addf (F := Ideal) (φ := .f32) (1 : EReal)
        (FloatOps.hostUnary (F := Ideal) (φ := .f32) .exp (FloatOps.hostNegf (F := Ideal) (φ := .f32) y))) = Ideal.logistic y := rfl

/-- The link-prediction matrix at an entry. -/
theorem structS_apply (x0 : FVec Ideal S10000x512 .f32) (x1 : IVec S2x320000 32) (x2 : FVec Ideal S512x128 .f32) (x3 : FVec Ideal S128 .f32) (x4 : FVec Ideal S128x128 .f32) (x5 : FVec Ideal S128 .f32) (x6 : FVec Ideal S128x128 .f32) (x7 : FVec Ideal S128 .f32) (x8 : FVec Ideal S128x512 .f32) (x9 : FVec Ideal S512 .f32) (x10 : FVec Ideal S512x128 .f32) (x11 : FVec Ideal S128 .f32) (x12 : FVec Ideal S128x10000 .f32) (x13 : FVec Ideal S10000 .f32) (r q : Fin 10000) :
    structS x0 x1 x2 x3 x4 x5 x6 x7 x8 x9 x10 x11 x12 x13 (ix2 r q)
      = Ideal.logistic ((∑ k : Fin 128, hmidS x0 x1 x2 x3 x4 x5 x6 x7 x8 x9 x10 x11 (ix2 r k) * x12 (ix2 k q)) + x13 (ix1 q)) := by
  unfold structS
  show FloatOps.hostDivf (broadcastInDim S10000x10000 ![] bcast_S_S10000x10000 (constant (F := Ideal) S_ .f32 0x3F800000#32) (ix2 r q))
      (FloatOps.addf (broadcastInDim S10000x10000 ![] bcast_S_S10000x10000 (constant (F := Ideal) S_ .f32 0x3F800000#32) (ix2 r q))
        (FloatOps.hostUnary .exp (FloatOps.hostNegf (FloatOps.addf
          (Host.dotGeneral dot_S10000x128_S128x10000_S10000x10000_1_0_0_1_n_n none (hmidS x0 x1 x2 x3 x4 x5 x6 x7 x8 x9 x10 x11) x12 (ix2 r q))
          (broadcastInDim S10000x10000 ![0, 1] bcast_S1x10000_S10000x10000_0_1 (broadcastInDim S1x10000 ![1] bcast_S10000_S1x10000_1 x13) (ix2 r q)))))) = _
  rw [ones_struct, dot_128x10000_eq_mm, mm_apply, bias_row10000]
  exact logistic_spelling _

end Cert.GraphAE

end
-- ==== Proof.KPad.lean ====
/-
  Before region 5 the idealized kernel pads the 128 x 10000 weight and the 10000-entry bias with 240 zero columns
  (entries), so that every 1024-column block read is inside the array, and reshapes the padded bias into one row. At a
  column below 10000 the padded arrays hold the original entries; the padding itself is never read at such a column.
-/
import proofs.«169992_j3745211482439_2_alg».proof.Proof.Gen.KernelIdeal.Frame
import proofs.«169992_j3745211482439_2_alg».proof.Proof.KKeepArgs
import proofs.«169992_j3745211482439_2_alg».proof.Proof.KKeepOuts
import Idealize.ShloMosaic.PureOps.Ideal
import Idealize.ShloMosaic.PureOps.Ideal.Laws
import Idealize.ShloMosaic.Lib.ValueIdx
import Idealize.ShloMosaic.Lib.Pipeline.Value
import Idealize.ShloMosaic.Lib.KernelVsHost

-- membership in a rectangle of production extents (`View.cover_of_tiled`): the elaborator's structural look
-- recurses once per coordinate of the long axes
set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.GraphAE

open Cert.KernelIdeal Cert.KernelIdeal.Gen Idealize.ShloMosaic.ValueIdx

variable (m : (ℓ : Loc nD τ sig) → Buf (Elt Ideal) ℓ) (ρ : Dev nD → PrngReg)

/-- The padded weight at (k, q), q below 10000, is the weight's entry. -/
theorem wfpad_W21 (c : Dev nD) (k : Fin 128) (q : Fin 10000) (q' : Fin 10240) (hq : q'.val = q.val) :
    (W21 m ρ c (Proc.devRef .tc main_v142) : S128x10240.Idx → EReal) (ix2 k q')
      = ((m ((c : Thread nD τ).loc main_arg12)) : S128x10000.Idx → EReal) (ix2 k q) := by
  have h : ∀ V : Valuation τ sig (Elt Ideal),
      (StableHlo.after hostOps5_1 V (Proc.devRef .tc main_v142) : S128x10240.Idx → EReal) (ix2 k q')
        = (V (Proc.devRef .tc main_arg12) : S128x10000.Idx → EReal) (ix2 k q) := fun V => by
    after_results_simp
    exact pad_apply_of_inside (s := S128x10000) (t := S128x10240) ![0, 0] ![0, 240] ![0, 0]
      (V (Proc.devRef .tc main_arg12) : S128x10000.Idx → EReal) _ pads_S128x10000_S128x10240_000_02400 h_S_ (ix2 k q') (ix2 k q) (fun a => by
      match a with
      | ⟨0, _⟩ => show k.val = 0 + k.val * (0 + 1); omega
      | ⟨1, _⟩ => show q'.val = 0 + q.val * (0 + 1); omega)
  rw [keep_v142_18_21 m ρ c]
  exact (h (W17 m ρ c)).trans (by rw [keep_arg12_0_17 m ρ c])

/-- The padded bias row at (0, q), q below 10000, is the bias entry. -/
theorem bfpad_W21 (c : Dev nD) (q : Fin 10000) (q' : Fin 10240) (hq : q'.val = q.val) :
    (W21 m ρ c (Proc.devRef .tc main_v144) : S1x10240.Idx → EReal) (ix2 (0 : Fin 1) q')
      = ((m ((c : Thread nD τ).loc main_arg13)) : S10000.Idx → EReal) (ix1 q) := by
  have h3 : ∀ V : Valuation τ sig (Elt Ideal),
      (StableHlo.after hostOps5_3 V (Proc.devRef .tc main_v143) : S10240.Idx → EReal) (ix1 q')
        = (V (Proc.devRef .tc main_arg13) : S10000.Idx → EReal) (ix1 q) := fun V => by
    after_results_simp
    exact pad_apply_of_inside (s := S10000) (t := S10240) ![0] ![240] ![0]
      (V (Proc.devRef .tc main_arg13) : S10000.Idx → EReal) _ pads_S10000_S10240_02400 h_S_ (ix1 q') (ix1 q) (fun a => by
      match a with
      | ⟨0, _⟩ => show q'.val = 0 + q.val * (0 + 1); omega)
  have h4 : ∀ V : Valuation τ sig (Elt Ideal),
      (StableHlo.after hostOps5_4 V (Proc.devRef .tc main_v144) : S1x10240.Idx → EReal) (ix2 (0 : Fin 1) q')
        = (V (Proc.devRef .tc main_v143) : S10240.Idx → EReal) (ix1 q') := fun V => by
    after_results_simp
    exact shapeCast_apply _ _ (ix2 (0 : Fin 1) q') (ix1 q') (by
      rw [Shape.rowMajor_val_one, Shape.rowMajor_val_two]; show q'.val = 0 * 10240 + q'.val; omega)
  exact (h4 (W20 m ρ c)).trans ((h3 (W19 m ρ c)).trans (by rw [keep_arg13_0_19 m ρ c]))

end Cert.GraphAE

end
-- ==== Proof.Region4.lean ====
/-
  The fifth dense layer of the network as one function of whole arrays. The region works on ten blocks of a thousand rows: at block
  `b` it squares rows `1000 b … 1000 b + 999` of the input `X` (10000 × 512) entry by entry, multiplies the squares by the weights `W`
  (512 × 128) accumulating from zero, adds the bias row `B` (1 × 128) to every row and takes the maximum with zero. Over the extended reals
  a change of float format is the identity and the product of a row block with `W` is a finite sum over the shared axis, so entry `(p, q)` of
  block `b` is `max (∑ k, X (1000 b + p, k)² * W (k, q) + B (0, q)) 0`: the block is the restriction to its rows of the whole-array function
  `layer4 X W B = fun i => max (mm (X²) W i + B (0, i 1)) 0`. The ten blocks are disjoint and fill the 10000 rows (row `r` lies in block
  `r / 1000`), hence after the region the output array is `layer4` of the three arrays the region found (`final4`).
-/
import proofs.«169992_j3745211482439_2_alg».proof.Proof.Gen.KernelIdeal.Frame
import proofs.«169992_j3745211482439_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.GraphAE

open Idealize.ShloMosaic Idealize.ShloMosaic.ValueIdx Idealize.ShloMosaic.TcCoe
open Cert.KernelIdeal Cert.KernelIdeal.Gen
open Idealize.ShloMosaic.Pipeline (Dat Cfg Window)

/-- The left operand's index of the block product at output `i` and contraction position `r`: row `i 0` … -/
theorem lhs4_0 (i : S1000x128.Idx) (r : dot_S1000x512_S512x128_S1000x128_1_0_0_1_n_n.contr.Idx) :
    (dot_S1000x512_S512x128_S1000x128_1_0_0_1_n_n.lhsIdx i r 0).val = (i 0).val := by
  unfold DotDims.lhsIdx
  rw [dif_neg (show ¬(0 : Fin S1000x512.rank) ∈ dot_S1000x512_S512x128_S1000x128_1_0_0_1_n_n.lhsBatch by decide), dif_pos (show (0 : Fin S1000x512.rank) ∈ dot_S1000x512_S512x128_S1000x128_1_0_0_1_n_n.lhsNonContracting by decide)]
  rfl
/-- … column the contraction position; -/
theorem lhs4_1 (i : S1000x128.Idx) (r : dot_S1000x512_S512x128_S1000x128_1_0_0_1_n_n.contr.Idx) :
    (dot_S1000x512_S512x128_S1000x128_1_0_0_1_n_n.lhsIdx i r 1).val = (r ⟨0, by decide⟩).val :=
  dot_S1000x512_S512x128_S1000x128_1_0_0_1_n_n.lhsIdx_val_of_single rfl i r
/-- the right operand's: row the contraction position … -/
theorem rhs4_0 (i : S1000x128.Idx) (r : dot_S1000x512_S512x128_S1000x128_1_0_0_1_n_n.contr.Idx) :
    (dot_S1000x512_S512x128_S1000x128_1_0_0_1_n_n.rhsIdx i r 0).val = (r ⟨0, by decide⟩).val :=
  dot_S1000x512_S512x128_S1000x128_1_0_0_1_n_n.rhsIdx_val_of_single rfl i r
/-- … column `i 1`. -/
theorem rhs4_1 (i : S1000x128.Idx) (r : dot_S1000x512_S512x128_S1000x128_1_0_0_1_n_n.contr.Idx) :
    (dot_S1000x512_S512x128_S1000x128_1_0_0_1_n_n.rhsIdx i r 1).val = (i 1).val := by
  unfold DotDims.rhsIdx
  rw [dif_neg (show ¬(1 : Fin S512x128.rank) ∈ dot_S1000x512_S512x128_S1000x128_1_0_0_1_n_n.rhsBatch by decide), dif_pos (show (1 : Fin S512x128.rank) ∈ dot_S1000x512_S512x128_S1000x128_1_0_0_1_n_n.rhsNonContracting by decide)]
  rfl

/-- The block product accumulated into zero, at entry `(p, q)`: the sum over `k` of `a (p, k) * b (k, q)`. -/
theorem matmul4_apply (a : FVec Ideal S1000x512 .bf16) (b : FVec Ideal S512x128 .bf16) (p : Fin 1000) (q : Fin 128) :
    matmul dot_S1000x512_S512x128_S1000x128_1_0_0_1_n_n none a b (constant (F := Ideal) S1000x128 .f32 0x00000000#32) (ix2 p q)
      = ∑ k : Fin 512, a (ix2 p k) * b (ix2 k q) := by
  simp only [matmul]
  rw [Ideal.matmul_constant_zero_apply, ← Equiv.sum_comp (contrEquiv1 dot_S1000x512_S512x128_S1000x128_1_0_0_1_n_n 512 rfl rfl).symm]
  refine Finset.sum_congr rfl fun k _ => ?_
  have hk := contrEquiv1_symm_val dot_S1000x512_S512x128_S1000x128_1_0_0_1_n_n 512 rfl rfl k
  have el : dot_S1000x512_S512x128_S1000x128_1_0_0_1_n_n.lhsIdx (ix2 p q) ((contrEquiv1 dot_S1000x512_S512x128_S1000x128_1_0_0_1_n_n 512 rfl rfl).symm k) = ix2 p k := funext fun d => Fin.ext (by
    match d with
    | ⟨0, _⟩ => exact lhs4_0 _ _
    | ⟨1, _⟩ => exact (lhs4_1 _ _).trans hk)
  have er : dot_S1000x512_S512x128_S1000x128_1_0_0_1_n_n.rhsIdx (ix2 p q) ((contrEquiv1 dot_S1000x512_S512x128_S1000x128_1_0_0_1_n_n 512 rfl rfl).symm k) = ix2 k q := funext fun d => Fin.ext (by
    match d with
    | ⟨0, _⟩ => exact (rhs4_0 _ _).trans hk
    | ⟨1, _⟩ => exact rhs4_1 _ _)
  rw [el, er]

/-- The body's stored value at entry `(p, q)` of the block: the squares of the row block's row `p` against column `q` of the weights,
    plus the bias row's entry `q`, cut off below at zero. -/
theorem pay4_apply (x0 : Vec Ideal S1000x512 .f32) (x1 : Vec Ideal S512x128 .f32) (x2 : Vec Ideal S1x128 .f32)
    (p : Fin 1000) (q : Fin 128) :
    k4_pay1 (F := Ideal) x0 x1 x2 (ix2 p q)
      = max ((∑ k : Fin 512, (x0 (ix2 p k) * x0 (ix2 p k)) * x1 (ix2 k q)) + x2 (ix2 0 q)) 0 := by
  unfold k4_pay1
  rw [maximumf_apply, addf_apply, broadcast_apply, matmul4_apply, shapeCast_self, shapeCast_self, broadcastTo_1b_ab_apply]
  -- a change of float format is the identity on extended reals, the product is entrywise, and the zero word is the number 0
  exact congrArg (max _) Ideal.ofBits_zero_f32

/-- The layer as one function of its three whole arrays: entry `(r, q)` is the product of the entrywise squares of `X` with `W` at `(r, q)`,
    plus the bias row's entry `q`, cut off below at zero. -/
def layer4 (X : S10000x512.Idx → EReal) (W : S512x128.Idx → EReal) (B : S1x128.Idx → EReal) : S10000x128.Idx → EReal :=
  fun i => max (mm 10000 512 128 (fun j => X j * X j) W i + B (ix2 0 (i 1))) 0

theorem hz4 : (![0, 0] : Fin 2 → Nat) = fun _ => 0 := funext fun a => by fin_cases a <;> rfl

/-- Row `p` of the `b`-th block of a thousand rows is a row of the array. -/
theorem row4_lt (b : Nat) (hb : b < 10) (p : Fin 1000) : b * 1000 + p.val < 10000 := by have := p.isLt; omega

/-- One block's stored values are the layer's on that block's rows: if the staged row block holds rows `b * 1000 …` of `X`, and the
    staged weights and bias are `W` and `B`, the stored entry `y` is the layer's entry at row `b * 1000 + y 0`, column `y 1`. -/
theorem pay4_block (X : S10000x512.Idx → EReal) (W : S512x128.Idx → EReal) (B : S1x128.Idx → EReal)
    (x0 : Vec Ideal S1000x512 .f32) (x1 : Vec Ideal S512x128 .f32) (x2 : Vec Ideal S1x128 .f32) (b : Nat) (hb : b < 10)
    (h0 : ∀ (p : Fin 1000) (k : Fin 512), x0 (ix2 p k) = X (ix2 (⟨b * 1000 + p.val, row4_lt b hb p⟩ : Fin 10000) k))
    (h1 : ∀ (k : Fin 512) (q : Fin 128), x1 (ix2 k q) = W (ix2 k q))
    (h2 : ∀ q : Fin 128, x2 (ix2 (0 : Fin 1) q) = B (ix2 (0 : Fin 1) q))
    (y : S1000x128.Idx) (i : S10000x128.Idx) (hi0 : (i 0).val = b * 1000 + (y 0).val) (hi1 : (i 1).val = (y 1).val) :
    k4_pay1 (F := Ideal) x0 x1 x2 y = layer4 X W B i := by
  obtain ⟨p, q, rfl⟩ : ∃ (p : Fin 1000) (q : Fin 128), y = ix2 p q := ⟨y 0, y 1, eq_ix2 y⟩
  obtain ⟨r, s, rfl⟩ : ∃ (r : Fin 10000) (s : Fin 128), i = ix2 r s := ⟨i 0, i 1, eq_ix2 i⟩
  have er : r = ⟨b * 1000 + p.val, row4_lt b hb p⟩ := Fin.ext hi0
  have es : s = q := Fin.ext hi1
  rw [er, es, pay4_apply]
  unfold layer4
  rw [mm_apply]
  refine congrArg₂ max (congrArg₂ (· + ·) (Finset.sum_congr rfl fun k _ => ?_) (h2 q)) rfl
  rw [h0 p k, h1 k q]

/-- The printed index maps over the grid: the row block and the output block move with the point, the weights and the bias stay. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

variable (V : (c : Dev nD) → (b : Ref sig .tc) → Buf (Elt Ideal) ((c : Thread nD τ).loc b))

/-- What point `t` writes back is block `t` of the layer of the three arrays as the region finds them. -/
theorem flushed4_eq (c : Dev nD) (t : Fin cfg4.N) :
    (dat4 (F := Ideal) V c).flushed 3 t = ((cfg4.win 3).blk t).view.read (Elt Ideal)
      (layer4 (V c (Pipeline.arrRef spec4 0)) (V c (Pipeline.arrRef spec4 1)) (V c (Pipeline.arrRef spec4 2))) := by
  show (cfg4.win 3).cut (grid4.coords t) ((dat4 V c).after 3 t) = _
  rw [after4_3]
  unfold out4_3
  rw [View.canon_unit_zero hz4]
  simp only [View.ld_unit_zero (S := S1000x512) hz4, View.ld_unit_zero (S := S512x128) hz4, View.ld_unit_zero (S := S1x128) hz4]
  obtain ⟨e00, e01, e10, e11, e20, e21, e30, e31⟩ := idx_facts4 t
  have ht : t.val < 10 := Nat.lt_of_lt_of_eq t.isLt N_4
  funext y
  show k4_pay1 (F := Ideal) (iblk4 V c 0 t) (iblk4 V c 1 t) (iblk4 V c 2 t) y
      = layer4 (V c (Pipeline.arrRef spec4 0)) (V c (Pipeline.arrRef spec4 1)) (V c (Pipeline.arrRef spec4 2)) (((cfg4.win 3).blk t).view.emb y)
  refine pay4_block (V c (Pipeline.arrRef spec4 0)) (V c (Pipeline.arrRef spec4 1)) (V c (Pipeline.arrRef spec4 2))
    (iblk4 V c 0 t) (iblk4 V c 1 t) (iblk4 V c 2 t) t.val ht ?_ ?_ ?_ y (((cfg4.win 3).blk t).view.emb y) ?_ ?_
  · intro p k
    show V c (Pipeline.arrRef spec4 0) (((cfg4.win 0).blk t).view.emb (ix2 p k)) = _
    refine congrArg (V c (Pipeline.arrRef spec4 0)) (funext fun a => Fin.ext ?_)
    match a with
    | ⟨0, _⟩ => show win4_0.index t (0 : Fin 2) * 1000 + 1 * p.val = t.val * 1000 + p.val; omega
    | ⟨1, _⟩ => show win4_0.index t (1 : Fin 2) * 512 + 1 * k.val = k.val; omega
  · intro k q
    show V c (Pipeline.arrRef spec4 1) (((cfg4.win 1).blk t).view.emb (ix2 k q)) = _
    refine congrArg (V c (Pipeline.arrRef spec4 1)) (funext fun a => Fin.ext ?_)
    match a with
    | ⟨0, _⟩ => show win4_1.index t (0 : Fin 2) * 512 + 1 * k.val = k.val; omega
    | ⟨1, _⟩ => show win4_1.index t (1 : Fin 2) * 128 + 1 * q.val = q.val; omega
  · intro q
    show V c (Pipeline.arrRef spec4 2) (((cfg4.win 2).blk t).view.emb (ix2 (0 : Fin 1) q)) = _
    refine congrArg (V c (Pipeline.arrRef spec4 2)) (funext fun a => Fin.ext ?_)
    match a with
    | ⟨0, _⟩ => show win4_2.index t (0 : Fin 2) * 1 + 1 * 0 = 0; omega
    | ⟨1, _⟩ => show win4_2.index t (1 : Fin 2) * 128 + 1 * q.val = q.val; omega
  · show win4_3.index t (0 : Fin 2) * 1000 + 1 * (y 0).val = t.val * 1000 + (y 0).val; omega
  · show win4_3.index t (1 : Fin 2) * 128 + 1 * (y 1).val = (y 1).val; omega

/-- An entry of the output array is in point `t`'s block iff each coordinate is in the block's range on its axis. -/
theorem mem_blk4 (t : Fin cfg4.N) (i : S10000x128.Idx) :
    i ∈ ((cfg4.win 3).blk t).view.set ↔ ∀ a : Fin 2, win4_3.index t a * S1000x128.size a ≤ (i a).val ∧ (i a).val < win4_3.index t a * S1000x128.size a + S1000x128.size a := by
  show i ∈ ((View.whole main_v141).slice (win4_3.rect t)).set ↔ _
  rw [View.set_slice_whole, Rect.mem_set_unit]
  exact Iff.rfl

/-- The ten blocks of a thousand rows fill the array: row `r` is in block `r / 1000`. -/
theorem cover4 (i : S10000x128.Idx) : ∃ t : Fin cfg4.N, (cfg4.win 3).flush t = true ∧ i ∈ ((cfg4.win 3).blk t).view.set := by
  have hi0 : (i 0).val < 10000 := (i 0).isLt
  have hi1 : (i 1).val < 128 := (i 1).isLt
  obtain ⟨t, ht⟩ : ∃ t : Fin cfg4.N, t.val = (i 0).val / 1000 :=
    ⟨⟨(i 0).val / 1000, Nat.lt_of_lt_of_eq (show (i 0).val / 1000 < 10 by omega) N_4.symm⟩, rfl⟩
  obtain ⟨-, -, -, -, -, -, e30, e31⟩ := idx_facts4 t
  refine ⟨t, flush4_3 t, ?_⟩
  rw [mem_blk4]
  intro a
  match a with
  | ⟨0, _⟩ => show win4_3.index t (0 : Fin 2) * 1000 ≤ (i 0).val ∧ (i 0).val < win4_3.index t (0 : Fin 2) * 1000 + 1000; omega
  | ⟨1, _⟩ => show win4_3.index t (1 : Fin 2) * 128 ≤ (i 1).val ∧ (i 1).val < win4_3.index t (1 : Fin 2) * 128 + 128; omega

/-- The layer spelt out as a function of the output index. -/
theorem layer4_def (X : S10000x512.Idx → EReal) (W : S512x128.Idx → EReal) (B : S1x128.Idx → EReal) :
    layer4 X W B = fun i => max (mm 10000 512 128 (fun j => X j * X j) W i + B (ix2 0 (i 1))) 0 := rfl

/-- The layer at entry `(r, q)`: the squares of row `r` of `X` against column `q` of `W`, plus the bias row's entry `q`, cut off below at zero. -/
theorem layer4_apply (X : S10000x512.Idx → EReal) (W : S512x128.Idx → EReal) (B : S1x128.Idx → EReal) (r : Fin 10000) (q : Fin 128) :
    layer4 X W B (ix2 r q) = max ((∑ k : Fin 512, (X (ix2 r k) * X (ix2 r k)) * W (ix2 k q)) + B (ix2 0 q)) 0 := rfl

/-- The output array after the region: the layer of the three arrays as the region finds them, entry by entry. -/
theorem final4 (c : Dev nD) : (dat4 (F := Ideal) V c).arrAt 3 cfg4.N
    = layer4 (V c (Pipeline.arrRef spec4 0)) (V c (Pipeline.arrRef spec4 1)) (V c (Pipeline.arrRef spec4 2)) :=
  (dat4 V c).arrAt_eq_of_cover 3
    (layer4 (V c (Pipeline.arrRef spec4 0)) (V c (Pipeline.arrRef spec4 1)) (V c (Pipeline.arrRef spec4 2)))
    (fun t _ => flushed4_eq V c t) cover4

end Cert.GraphAE

end
-- ==== Proof.KLayer5.lean ====
/-
  The link predictor's hidden layer in the idealized kernel: region 4 squares the reconstructed features, multiplies
  by the 512 x 128 weight, adds the bias row and rectifies, block of 1000 rows by block. As a whole array its output is,
  at entry (r, q), `max ((∑ k, (xh (r, k) * xh (r, k)) * Wl (k, q)) + bl q) 0`: the reference's hidden layer. The kernel's
  1 x 128 bias row is the bias vector reshaped; entry (0, q) of the row is entry q of the vector.
-/
import proofs.«169992_j3745211482439_2_alg».proof.Proof.Gen.KernelIdeal.Frame
import proofs.«169992_j3745211482439_2_alg».proof.Proof.RefSpec
import proofs.«169992_j3745211482439_2_alg».proof.Proof.Spec
import proofs.«169992_j3745211482439_2_alg».proof.Proof.Region4
import proofs.«169992_j3745211482439_2_alg».proof.Proof.RefIndex
import proofs.«169992_j3745211482439_2_alg».proof.Proof.KKeepArgs
import proofs.«169992_j3745211482439_2_alg».proof.Proof.KKeepOuts
import proofs.«169992_j3745211482439_2_alg».proof.Proof.KLayer4
import Idealize.ShloMosaic.PureOps.Ideal
import Idealize.ShloMosaic.PureOps.Ideal.Laws
import Idealize.ShloMosaic.Lib.ValueIdx
import Idealize.ShloMosaic.Lib.Pipeline.Value
import Idealize.ShloMosaic.Lib.KernelVsHost

-- membership in a rectangle of production extents (`View.cover_of_tiled`): the elaborator's structural look
-- recurses once per coordinate of the long axes
set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.GraphAE

open Cert.KernelIdeal Cert.KernelIdeal.Gen Idealize.ShloMosaic.ValueIdx

variable (m : (ℓ : Loc nD τ sig) → Buf (Elt Ideal) ℓ) (ρ : Dev nD → PrngReg)

variable [hPre : Cert.Pre_finite_inputs.Facts]

/-- The bias row region 4 reads: the bias vector as a one-row matrix. -/
theorem biasrow_W15 (c : Dev nD) : W15 m ρ c (Proc.devRef .tc main_v140)
    = shapeCast S1x128 (m ((c : Thread nD τ).loc main_arg11)) shapeCasts_S128_S1x128 := by
  have h : ∀ V : Valuation τ sig (Elt Ideal), StableHlo.after hostOps4_2 V (Proc.devRef .tc main_v140)
      = shapeCast S1x128 (V (Proc.devRef .tc main_arg11)) shapeCasts_S128_S1x128 := fun V => by
    after_results_simp
    rfl
  exact (h (W14 m ρ c)).trans (by rw [keep_arg11_0_14 m ρ c])

/-- Entry (0, q) of the reshaped bias is entry q of the bias vector. -/
theorem biasrow_apply (b : S128.Idx → EReal) (h : S128.ShapeCasts S1x128) (q : Fin 128) :
    shapeCast S1x128 b h (ix2 (0 : Fin 1) q) = b (ix1 q) :=
  shapeCast_apply b h (ix2 (0 : Fin 1) q) (ix1 q) (by
    rw [Shape.rowMajor_val_one, Shape.rowMajor_val_two]; show q.val = 0 * 128 + q.val; omega)

/-- Region 4's output array is the reference's hidden layer. -/
theorem hmid_W16 (hpre : Cert.Pre_KernelIdeal m) (c : Dev nD) :
    W16 m ρ c (Proc.devRef .tc main_v141) = hmidS (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W16_arr m ρ c 3).trans ?_
  rw [final4 (V15 m ρ) c]
  show layer4 (W15 m ρ c (Proc.devRef .tc main_v139)) (W15 m ρ c (Proc.devRef .tc main_arg10)) (W15 m ρ c (Proc.devRef .tc main_v140)) = _
  rw [keep_v139_14_15 m ρ c, xhat_W14 m ρ hpre c, keep_arg10_0_15 m ρ c, biasrow_W15 m ρ c]
  funext j
  obtain ⟨r, q, rfl⟩ : ∃ (r : Fin 10000) (q : Fin 128), j = ix2 r q := ⟨j 0, j 1, eq_ix2 j⟩
  rw [layer4_apply, hmidS_apply, biasrow_apply]

end Cert.GraphAE

end
-- ==== Proof.KLayer6.lean ====
/-
  The link-prediction matrix in the idealized kernel: region 5 multiplies the hidden layer by the zero-padded
  128 x 10240 weight, adds the padded bias row and applies the logistic function, one 1000 x 1024 block per grid point,
  the last column block clipped to the 10000 columns of the output. As a whole array, at entry (r, s) it is
  `logistic ((∑ k, hm (r, k) * Wf (k, s)) + bf s)` — at a column below 10000 the padded arrays hold the original
  entries — which is the reference's matrix, whose sigmoid is spelt `1 / (1 + exp (-t))`.
-/
import proofs.«169992_j3745211482439_2_alg».proof.Proof.Gen.KernelIdeal.Frame
import proofs.«169992_j3745211482439_2_alg».proof.Proof.RefSpec
import proofs.«169992_j3745211482439_2_alg».proof.Proof.Spec
import proofs.«169992_j3745211482439_2_alg».proof.Proof.Region5
import proofs.«169992_j3745211482439_2_alg».proof.Proof.RefIndex
import proofs.«169992_j3745211482439_2_alg».proof.Proof.KKeepOuts
import proofs.«169992_j3745211482439_2_alg».proof.Proof.KPad
import proofs.«169992_j3745211482439_2_alg».proof.Proof.KLayer5
import Idealize.ShloMosaic.PureOps.Ideal
import Idealize.ShloMosaic.PureOps.Ideal.Laws
import Idealize.ShloMosaic.Lib.ValueIdx
import Idealize.ShloMosaic.Lib.Pipeline.Value
import Idealize.ShloMosaic.Lib.KernelVsHost

-- membership in a rectangle of production extents (`View.cover_of_tiled`): the elaborator's structural look
-- recurses once per coordinate of the long axes
set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.GraphAE

open Cert.KernelIdeal Cert.KernelIdeal.Gen Idealize.ShloMosaic.ValueIdx

variable (m : (ℓ : Loc nD τ sig) → Buf (Elt Ideal) ℓ) (ρ : Dev nD → PrngReg)

variable [hPre : Cert.Pre_finite_inputs.Facts]

/-- Region 5's output array is the reference's link-prediction matrix. -/
theorem struct_W22 (hpre : Cert.Pre_KernelIdeal m) (c : Dev nD) :
    W22 m ρ c (Proc.devRef .tc main_v145) = structS (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (W22_arr m ρ c 3).trans ?_
  rw [final5 (V21 m ρ) c]
  show layer5 (W21 m ρ c (Proc.devRef .tc main_v141)) (W21 m ρ c (Proc.devRef .tc main_v142)) (W21 m ρ c (Proc.devRef .tc main_v144)) = _
  rw [keep_v141_16_21 m ρ c, hmid_W16 m ρ hpre c]
  funext j
  obtain ⟨r, s, rfl⟩ : ∃ (r s : Fin 10000), j = ix2 r s := ⟨j 0, j 1, eq_ix2 j⟩
  rw [layer5_apply, structS_apply]
  refine congrArg Ideal.logistic (congrArg₂ (· + ·) (Finset.sum_congr rfl fun k _ => ?_) ?_)
  · exact congrArg₂ (· * ·) rfl (wfpad_W21 m ρ c k s (col5 s) (col5_val s))
  · exact bfpad_W21 m ρ c s (col5 s) (col5_val s)

end Cert.GraphAE

end
-- ==== Proof.KFinal.lean ====
/-
  The idealized kernel's run ends with its three results at the named network of the kernel's own arguments: the
  link-prediction matrix (region 5's output), the reconstructed features (the fourth layer's output, unchanged through
  the last two regions) and the embedding (the second layer's output, unchanged from there on).
-/
import proofs.«169992_j3745211482439_2_alg».proof.Proof.KernelRun
import proofs.«169992_j3745211482439_2_alg».proof.Proof.RefSpec
import proofs.«169992_j3745211482439_2_alg».proof.Proof.KKeepOuts
import proofs.«169992_j3745211482439_2_alg».proof.Proof.KLayer2
import proofs.«169992_j3745211482439_2_alg».proof.Proof.KLayer4
import proofs.«169992_j3745211482439_2_alg».proof.Proof.KLayer6
import Idealize.ShloMosaic.PureOps.Ideal
import Idealize.ShloMosaic.PureOps.Ideal.Laws
import Idealize.ShloMosaic.Lib.ValueIdx
import Idealize.ShloMosaic.Lib.Pipeline.Value
import Idealize.ShloMosaic.Lib.KernelVsHost

-- membership in a rectangle of production extents (`View.cover_of_tiled`): the elaborator's structural look
-- recurses once per coordinate of the long axes
set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.GraphAE

open Cert.KernelIdeal Cert.KernelIdeal.Gen Idealize.ShloMosaic.ValueIdx

variable (m : (ℓ : Loc nD τ sig) → Buf (Elt Ideal) ℓ) (ρ : Dev nD → PrngReg)

variable [hPre : Cert.Pre_finite_inputs.Facts]

/-- The embedding is the second layer's output, which nothing writes afterwards. -/
theorem z_W22 (c : Dev nD) : W22 m ρ c (Proc.devRef .tc main_v85) = zS (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (keep_v85_7_22 m ρ c).trans (h2_W7 m ρ c)

/-- The reconstructed features are the fourth layer's output, which nothing writes afterwards. -/
theorem xhat_W22 (hpre : Cert.Pre_KernelIdeal m) (c : Dev nD) :
    W22 m ρ c (Proc.devRef .tc main_v139) = xhatS (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (keep_v139_14_22 m ρ c).trans (xhat_W14 m ρ hpre c)

/-- The run of the idealized kernel, with every result named. -/
theorem kernel_value_run (hpre : Cert.Pre_KernelIdeal m) :
    θ_run defs (onTc (τ := τ) (main (F := Ideal))) ⟨m, fun _ => 0, ρ⟩ (fun r => ∀ c : Dev nD,
      r.2.mem ((c.tc : Thread nD τ).loc main_v145) = structS (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_v139) = xhatS (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v85) = zS (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c).1.trans (struct_W22 m ρ hpre c), (h c).2.1.trans (xhat_W22 m ρ hpre c),
    (h c).2.2.1.trans (z_W22 m ρ c), (h c).2.2.2⟩) (kernel_run m ρ)

end Cert.GraphAE

end
-- ==== Proof.RefTie.lean ====
/-
  The reference's generated stages are the named network: stage by stage the reference's program IS project, aggregate,
  add the bias, rectify (four times), then the link predictor's two layers. The reference recomputes the in-degrees
  and the edge coefficients in every layer; being the same operations of the same edge list, each recomputation is
  the one array the named network uses.
-/
import proofs.«169992_j3745211482439_2_alg».proof.Proof.Gen.ReferenceIdeal.Read
import proofs.«169992_j3745211482439_2_alg».proof.Proof.RefSpec

noncomputable section

namespace Cert.GraphAE

open Idealize.ShloMosaic Cert.ReferenceIdeal

theorem ref_h1 (x0 : FVec Ideal S10000x512 .f32) (x1 : IVec S2x320000 32) (x2 : FVec Ideal S512x128 .f32) (x3 : FVec Ideal S128 .f32) : Read.val_main_v58 (F := Ideal) x0 x1 x2 x3 = h1S x0 x1 x2 x3 := rfl

theorem ref_z (x0 : FVec Ideal S10000x512 .f32) (x1 : IVec S2x320000 32) (x2 : FVec Ideal S512x128 .f32) (x3 : FVec Ideal S128 .f32) (x4 : FVec Ideal S128x128 .f32) (x5 : FVec Ideal S128 .f32) : Read.val_main_v113 (F := Ideal) x0 x1 x2 x3 x4 x5 = zS x0 x1 x2 x3 x4 x5 := rfl

theorem ref_d1 (x0 : FVec Ideal S10000x512 .f32) (x1 : IVec S2x320000 32) (x2 : FVec Ideal S512x128 .f32) (x3 : FVec Ideal S128 .f32) (x4 : FVec Ideal S128x128 .f32) (x5 : FVec Ideal S128 .f32) (x6 : FVec Ideal S128x128 .f32) (x7 : FVec Ideal S128 .f32) : Read.val_main_v168 (F := Ideal) x0 x1 x2 x3 x4 x5 x6 x7 = d1S x0 x1 x2 x3 x4 x5 x6 x7 := rfl

theorem ref_xhat (x0 : FVec Ideal S10000x512 .f32) (x1 : IVec S2x320000 32) (x2 : FVec Ideal S512x128 .f32) (x3 : FVec Ideal S128 .f32) (x4 : FVec Ideal S128x128 .f32) (x5 : FVec Ideal S128 .f32) (x6 : FVec Ideal S128x128 .f32) (x7 : FVec Ideal S128 .f32) (x8 : FVec Ideal S128x512 .f32) (x9 : FVec Ideal S512 .f32) : Read.val_main_v223 (F := Ideal) x0 x1 x2 x3 x4 x5 x6 x7 x8 x9 = xhatS x0 x1 x2 x3 x4 x5 x6 x7 x8 x9 := rfl

theorem ref_hmid (x0 : FVec Ideal S10000x512 .f32) (x1 : IVec S2x320000 32) (x2 : FVec Ideal S512x128 .f32) (x3 : FVec Ideal S128 .f32) (x4 : FVec Ideal S128x128 .f32) (x5 : FVec Ideal S128 .f32) (x6 : FVec Ideal S128x128 .f32) (x7 : FVec Ideal S128 .f32) (x8 : FVec Ideal S128x512 .f32) (x9 : FVec Ideal S512 .f32) (x10 : FVec Ideal S512x128 .f32) (x11 : FVec Ideal S128 .f32) : Read.val_main_v229 (F := Ideal) x0 x1 x2 x3 x4 x5 x6 x7 x8 x9 x10 x11 = hmidS x0 x1 x2 x3 x4 x5 x6 x7 x8 x9 x10 x11 := rfl

theorem ref_struct (x0 : FVec Ideal S10000x512 .f32) (x1 : IVec S2x320000 32) (x2 : FVec Ideal S512x128 .f32) (x3 : FVec Ideal S128 .f32) (x4 : FVec Ideal S128x128 .f32) (x5 : FVec Ideal S128 .f32) (x6 : FVec Ideal S128x128 .f32) (x7 : FVec Ideal S128 .f32) (x8 : FVec Ideal S128x512 .f32) (x9 : FVec Ideal S512 .f32) (x10 : FVec Ideal S512x128 .f32) (x11 : FVec Ideal S128 .f32) (x12 : FVec Ideal S128x10000 .f32) (x13 : FVec Ideal S10000 .f32) : Read.val_main_v239 (F := Ideal) x0 x1 x2 x3 x4 x5 x6 x7 x8 x9 x10 x11 x12 x13 = structS x0 x1 x2 x3 x4 x5 x6 x7 x8 x9 x10 x11 x12 x13 := rfl

end Cert.GraphAE

end
-- ==== Proof.Claims.lean ====
/-
  The five claims. The three frames are the generated ones (the reference's is its generated run with the results
  dropped); the idealization rewrote no operation, so `preserves` is `True`. For `algebraic`: the idealized kernel's run
  ends with its three results at the named network of the kernel's arguments — the link-prediction matrix, the
  reconstructed features and the embedding — (`KFinal`), the reference's generated run ends with its results at the
  stages that ARE that network of ITS arguments, and the arguments agree.
-/
import proofs.«169992_j3745211482439_2_alg».proof.Defs
import proofs.«169992_j3745211482439_2_alg».proof.Proof.Gen.Kernel.Frame
import proofs.«169992_j3745211482439_2_alg».proof.Proof.Gen.KernelIdeal.Frame
import proofs.«169992_j3745211482439_2_alg».proof.Proof.Gen.ReferenceIdeal.Run
import proofs.«169992_j3745211482439_2_alg».proof.Proof.Gen.ReferenceIdeal.Read
import proofs.«169992_j3745211482439_2_alg».proof.Proof.KFinal
import proofs.«169992_j3745211482439_2_alg».proof.Proof.RefTie

noncomputable section

open Idealize.ShloMosaic Idealize.ShloMosaic.TcCoe Idealize.SL.Sem

namespace Cert.Proof.Claims

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

/-- Both idealized programs, from memories that agree on the arguments, end with the same three arrays: the
    reference's stages of the arguments. -/
theorem algebraic : Cert.algebraic_KernelIdeal_ReferenceIdeal := by
  intro m ρ m' ρ' hpre hagree
  refine ⟨_, _, _, Cert.GraphAE.kernel_value_run m ρ hpre, ?_⟩
  refine (θ_run Cert.ReferenceIdeal.defs _ _).mono (fun r h c => ⟨(h c).1.trans ?_, (h c).2.1.trans ?_, (h c).2.2.1.trans ?_, (h c).2.2.2⟩)
    (Cert.ReferenceIdeal.Value.run (F := Ideal) m' ρ')
  · rw [Cert.ReferenceIdeal.Read.val_main_v239_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]
    exact Cert.GraphAE.ref_struct ..
  · rw [Cert.ReferenceIdeal.Read.val_main_v223_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1]
    exact Cert.GraphAE.ref_xhat ..
  · rw [Cert.ReferenceIdeal.Read.val_main_v113_eq, (hagree c).1, (hagree c).2.1, (hagree c).2.2.1, (hagree c).2.2.2.1, (hagree c).2.2.2.2.1, (hagree c).2.2.2.2.2.1]
    exact Cert.GraphAE.ref_z ..

end Cert.Proof.Claims

end
-- ==== Proof.lean ====
/- The proof of `Cert.Claim`: a graph auto-encoder — four graph-convolution layers, each a block-wise matrix product in a
   pipelined region plus an aggregation along the edges in host operations, then a two-layer link predictor in two fused
   regions — against its plain reference, equal result for result over the extended reals when every float input is
   finite. The three frames are the generated ones; the idealization rewrote nothing; for the values, each region's
   output array is read as a whole-array function (a matrix product, or a fused layer), each host stretch is the
   reference's own operations, and the one place where the two programs differ — the fourth layer aggregates before
   projecting in the kernel, after projecting in the reference — is a finite-sum exchange that holds because every
   entry is a real number (`Proof/Exchange.lean`). -/
import proofs.«169992_j3745211482439_2_alg».proof.Defs
import proofs.«169992_j3745211482439_2_alg».proof.Proof.Gen.Kernel
import proofs.«169992_j3745211482439_2_alg».proof.Proof.Gen.Kernel.Skeleton
import proofs.«169992_j3745211482439_2_alg».proof.Proof.Gen.Kernel.Launch
import proofs.«169992_j3745211482439_2_alg».proof.Proof.Gen.Kernel.Points
import proofs.«169992_j3745211482439_2_alg».proof.Proof.Gen.Kernel.Frame
import proofs.«169992_j3745211482439_2_alg».proof.Proof.Gen.KernelIdeal
import proofs.«169992_j3745211482439_2_alg».proof.Proof.Gen.KernelIdeal.Skeleton
import proofs.«169992_j3745211482439_2_alg».proof.Proof.Gen.KernelIdeal.Launch
import proofs.«169992_j3745211482439_2_alg».proof.Proof.Gen.KernelIdeal.Points
import proofs.«169992_j3745211482439_2_alg».proof.Proof.Gen.KernelIdeal.Frame
import proofs.«169992_j3745211482439_2_alg».proof.Proof.Gen.ReferenceIdeal
import proofs.«169992_j3745211482439_2_alg».proof.Proof.Gen.Pre_finite_inputs
import proofs.«169992_j3745211482439_2_alg».proof.Proof.Gen.ReferenceIdeal.Run
import proofs.«169992_j3745211482439_2_alg».proof.Proof.Gen.ReferenceIdeal.Read
import proofs.«169992_j3745211482439_2_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
